-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S1000000 : Shape := ⟨1, ![1000000]⟩
abbrev S100000x3 : Shape := ⟨2, ![100000, 3]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S100000x3 : S_.BroadcastsInDim S100000x3 (![] : Fin 0 → Fin S100000x3.rank)
  reducesTo_S100000x3_S_d0_1 : S100000x3.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg16 : FVec F S64 .f32) (main_arg22 : FVec F S32 .f32) (main_v117 : IVec S_ 1) (main_v118 : FVec F S64 .f32) : IVec S_ 1 :=
  let main_v119 : IVec S64 1 := cmpf .oge main_arg16 main_v118
  let main_c_47 : IVec S_ 1 := constantI S_ 1 1#1
  let main_v120 : IVec S_ 1 := (fun x v => Host.reduce IntOp.andi x v reducesTo_S64_S_d0 h_S_) main_v119 main_c_47
  let main_v121 : IVec S_ 1 := andi main_v117 main_v120
  let main_cst_48 : FVec F S_ .f32 := constant S_ .f32 0x00000000#32
  let main_v122 : FVec F S32 .f32 := broadcastInDim S32 ![] bcast_S_S32 main_cst_48
  let main_v123 : IVec S32 1 := cmpf .oge main_arg22 main_v122
  let main_c_49 : IVec S_ 1 := constantI S_ 1 1#1
  let main_v124 : IVec S_ 1 := (fun x v => Host.reduce IntOp.andi x v reducesTo_S32_S_d0 h_S_) main_v123 main_c_49
  let main_v125 : IVec S_ 1 := andi main_v121 main_v124
  main_v125

def fn_part6 {F : FTy → Type} [FloatOps F] (main_arg10 : FVec F S64 .f32) (main_arg16 : FVec F S64 .f32) (main_arg22 : FVec F S32 .f32) (main_arg23 : FVec F S32x10 .f32) (main_arg24 : FVec F S10 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x10 .f32 := Host.absf main_arg23
  let main_cst_40 : FVec F S_ .f32 := constant S_ .f32 0x7F800000#32
  let main_v105 : FVec F S32x10 .f32 := broadcastInDim S32x10 ![] bcast_S_S32x10 main_cst_40
  let main_v106 : IVec S32x10 1 := cmpf .olt main_v104 main_v105
  let main_c_41 : IVec S_ 1 := constantI S_ 1 1#1
  let main_v107 : IVec S_ 1 := (fun x v => Host.reduce IntOp.andi x v reducesTo_S32x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  let main_cst_44 : FVec F S_ .f32 := constant S_ .f32 0x00000000#32
  let main_v114 : FVec F S64 .f32 := broadcastInDim S64 ![] bcast_S_S64 main_cst_44
  let main_v115 : IVec S64 1 := cmpf .oge main_arg10 main_v114
  let main_c_45 : IVec S_ 1 := constantI S_ 1 1#1
  let main_v116 : IVec S_ 1 := (fun x v => Host.reduce IntOp.andi x v reducesTo_S64_S_d0 h_S_) main_v115 main_c_45
  let main_v117 : IVec S_ 1 := andi main_v113 main_v116
  let main_cst_46 : FVec F S_ .f32 := constant S_ .f32 0x00000000#32
  let main_v118 : FVec F S64 .f32 := broadcastInDim S64 ![] bcast_S_S64 main_cst_46
  fn_part7 (F := F) main_arg16 main_arg22 main_v117 main_v118

def fn_part5 {F : FTy → Type} [FloatOps F] (main_arg10 : FVec F S64 .f32) (main_arg16 : FVec F S64 .f32) (main_arg20 : FVec F S32 .f32) (main_arg21 : FVec F S32 .f32) (main_arg22 : FVec F S32 .f32) (main_arg23 : FVec F S32x10 .f32) (main_arg24 : FVec F S10 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg10 main_arg16 main_arg22 main_arg23 main_arg24 main_v98 main_v101 main_c_39

def fn_part4 {F : FTy → Type} [FloatOps F] (main_arg10 : FVec F S64 .f32) (main_arg16 : FVec F S64 .f32) (main_arg17 : FVec F S64x32 .f32) (main_arg18 : FVec F S32 .f32) (main_arg19 : FVec F S32 .f32) (main_arg20 : FVec F S32 .f32) (main_arg21 : FVec F S32 .f32) (main_arg22 : FVec F S32 .f32) (main_arg23 : FVec F S32x10 .f32) (main_arg24 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg17
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg10 main_arg16 main_arg20 main_arg21 main_arg22 main_arg23 main_arg24 main_v83 main_v84 main_cst_32

def fn_part3 {F : FTy → Type} [FloatOps F] (main_arg10 : FVec F S64 .f32) (main_arg13 : FVec F S64 .f32) (main_arg14 : FVec F S64 .f32) (main_arg15 : FVec F S64 .f32) (main_arg16 : FVec F S64 .f32) (main_arg17 : FVec F S64x32 .f32) (main_arg18 : FVec F S32 .f32) (main_arg19 : FVec F S32 .f32) (main_arg20 : FVec F S32 .f32) (main_arg21 : FVec F S32 .f32) (main_arg22 : FVec F S32 .f32) (main_arg23 : FVec F S32x10 .f32) (main_arg24 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg10 main_arg16 main_arg17 main_arg18 main_arg19 main_arg20 main_arg21 main_arg22 main_arg23 main_arg24 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x32 .f32) (main_arg18 : FVec F S32 .f32) (main_arg19 : FVec F S32 .f32) (main_arg20 : FVec F S32 .f32) (main_arg21 : FVec F S32 .f32) (main_arg22 : FVec F S32 .f32) (main_arg23 : FVec F S32x10 .f32) (main_arg24 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg10 main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x32 .f32) (main_arg18 : FVec F S32 .f32) (main_arg19 : FVec F S32 .f32) (main_arg20 : FVec F S32 .f32) (main_arg21 : FVec F S32 .f32) (main_arg22 : FVec F S32 .f32) (main_arg23 : FVec F S32x10 .f32) (main_arg24 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x1000000 32) (main_arg2 : IVec S100000 32) (main_arg3 : FVec F S1000000 .f32) (main_arg4 : FVec F S100000x3 .f32) (main_arg5 : FVec F S128x64 .f32) (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x32 .f32) (main_arg18 : FVec F S32 .f32) (main_arg19 : FVec F S32 .f32) (main_arg20 : FVec F S32 .f32) (main_arg21 : FVec F S32 .f32) (main_arg22 : FVec F S32 .f32) (main_arg23 : FVec F S32x10 .f32) (main_arg24 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S100000x3 .f32 := Host.absf main_arg4
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S1000000 : Shape := ⟨1, ![1000000]⟩
abbrev S100000x3 : Shape := ⟨2, ![100000, 3]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x128 : Shape := ⟨2, ![10000, 128]⟩
abbrev S10000x64 : Shape := ⟨2, ![10000, 64]⟩
abbrev S1100000x64 : Shape := ⟨2, ![1100000, 64]⟩
abbrev S1x64 : Shape := ⟨2, ![1, 64]⟩
abbrev S50000x128 : Shape := ⟨2, ![50000, 128]⟩
abbrev S128 : Shape := ⟨1, ![128]⟩
abbrev S1x128 : Shape := ⟨2, ![1, 128]⟩
abbrev S100000x1 : Shape := ⟨2, ![100000, 1]⟩
abbrev S128x1 : Shape := ⟨2, ![128, 1]⟩
abbrev S1x32 : Shape := ⟨2, ![1, 32]⟩
abbrev S1x10 : Shape := ⟨2, ![1, 10]⟩
abbrev S128x10 : Shape := ⟨2, ![128, 10]⟩
abbrev S128x32 : Shape := ⟨2, ![128, 32]⟩

abbrev nBuf : Space → Nat
  | .hbm => 160
  | .vmem => 25
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S1000000, .f32⟩
  | 4 => ⟨S100000x3, .f32⟩
  | 5 => ⟨S128x64, .f32⟩
  | 6 => ⟨S64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x32, .f32⟩
  | 18 => ⟨S32, .f32⟩
  | 19 => ⟨S32, .f32⟩
  | 20 => ⟨S32, .f32⟩
  | 21 => ⟨S32, .f32⟩
  | 22 => ⟨S32, .f32⟩
  | 23 => ⟨S32x10, .f32⟩
  | 24 => ⟨S10, .f32⟩
  | 25 => ⟨S100000, .i32⟩
  | 26 => ⟨S1x1000000, .i32⟩
  | 27 => ⟨S1000000, .i32⟩
  | 28 => ⟨S1100000, .i32⟩
  | 29 => ⟨S1x1000000, .i32⟩
  | 30 => ⟨S1000000, .i32⟩
  | 31 => ⟨S1100000, .i32⟩
  | 32 => ⟨S_, .f32⟩
  | 33 => ⟨S100000, .f32⟩
  | 34 => ⟨S1100000, .f32⟩
  | 35 => ⟨S_, .f32⟩
  | 36 => ⟨S100000, .f32⟩
  | 37 => ⟨S1100000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000, .f32⟩
  | 56 => ⟨S1100000, .f32⟩
  | 57 => ⟨S_, .i32⟩
  | 58 => ⟨S1100000, .i32⟩
  | 59 => ⟨S1100000, .i1⟩
  | 60 => ⟨S_, .i32⟩
  | 61 => ⟨S1100000, .i32⟩
  | 62 => ⟨S1100000, .i32⟩
  | 63 => ⟨S1100000, .i32⟩
  | 64 => ⟨S1100000x1, .i32⟩
  | 65 => ⟨S1100000, .f32⟩
  | 66 => ⟨S1100000, .f32⟩
  | 67 => ⟨S128x64, .bf16⟩
  | 68 => ⟨S100000x64, .bf16⟩
  | 69 => ⟨S1100000x1, .f32⟩
  | 70 => ⟨S_, .i32⟩
  | 71 => ⟨S1100000, .i32⟩
  | 72 => ⟨S1100000, .i1⟩
  | 73 => ⟨S_, .i32⟩
  | 74 => ⟨S1100000, .i32⟩
  | 75 => ⟨S1100000, .i32⟩
  | 76 => ⟨S1100000, .i32⟩
  | 77 => ⟨S1100000x1, .i32⟩
  | 78 => ⟨S1100000x64, .bf16⟩
  | 79 => ⟨S1100000x64, .f32⟩
  | 80 => ⟨S1100000x64, .f32⟩
  | 81 => ⟨S1100000x64, .f32⟩
  | 82 => ⟨S_, .f32⟩
  | 83 => ⟨S100000x64, .f32⟩
  | 84 => ⟨S1100000x1, .i32⟩
  | 85 => ⟨S100000x64, .f32⟩
  | 86 => ⟨S_, .f32⟩
  | 87 => ⟨S64, .f32⟩
  | 88 => ⟨S64, .f32⟩
  | 89 => ⟨S64, .f32⟩
  | 90 => ⟨S64, .f32⟩
  | 91 => ⟨S64, .f32⟩
  | 92 => ⟨S64, .f32⟩
  | 93 => ⟨S64, .f32⟩
  | 94 => ⟨S64x64, .bf16⟩
  | 95 => ⟨S1x64, .f32⟩
  | 96 => ⟨S1x64, .f32⟩
  | 97 => ⟨S100000x64, .bf16⟩
  | 98 => ⟨S1100000x1, .f32⟩
  | 99 => ⟨S_, .i32⟩
  | 100 => ⟨S1100000, .i32⟩
  | 101 => ⟨S1100000, .i1⟩
  | 102 => ⟨S_, .i32⟩
  | 103 => ⟨S1100000, .i32⟩
  | 104 => ⟨S1100000, .i32⟩
  | 105 => ⟨S1100000, .i32⟩
  | 106 => ⟨S1100000x1, .i32⟩
  | 107 => ⟨S1100000x64, .bf16⟩
  | 108 => ⟨S1100000x64, .f32⟩
  | 109 => ⟨S1100000x64, .f32⟩
  | 110 => ⟨S1100000x64, .f32⟩
  | 111 => ⟨S_, .f32⟩
  | 112 => ⟨S100000x64, .f32⟩
  | 113 => ⟨S1100000x1, .i32⟩
  | 114 => ⟨S100000x64, .f32⟩
  | 115 => ⟨S_, .f32⟩
  | 116 => ⟨S64, .f32⟩
  | 117 => ⟨S64, .f32⟩
  | 118 => ⟨S64, .f32⟩
  | 119 => ⟨S64, .f32⟩
  | 120 => ⟨S64, .f32⟩
  | 121 => ⟨S64, .f32⟩
  | 122 => ⟨S64, .f32⟩
  | 123 => ⟨S50000x128, .f32⟩
  | 124 => ⟨S128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S50000x128, .f32⟩
  | 1 => ⟨S100000x64, .f32⟩
  | 2 => ⟨S_, .f32⟩
  | 3 => ⟨S100000, .f32⟩
  | 4 => ⟨S_, .f32⟩
  | 5 => ⟨S128, .f32⟩
  | 6 => ⟨S100000x1, .i32⟩
  | 7 => ⟨S128, .f32⟩
  | 8 => ⟨S_, .f32⟩
  | 9 => ⟨S128x64, .f32⟩
  | 10 => ⟨S100000x1, .i32⟩
  | 11 => ⟨S128x64, .f32⟩
  | 12 => ⟨S_, .f32⟩
  | 13 => ⟨S128, .f32⟩
  | 14 => ⟨S128, .f32⟩
  | 15 => ⟨S128x1, .f32⟩
  | 16 => ⟨S128x64, .f32⟩
  | 17 => ⟨S128x64, .f32⟩
  | 18 => ⟨S_, .f32⟩
  | 19 => ⟨S32, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S64x32, .bf16⟩
  | 27 => ⟨S32x10, .bf16⟩
  | 28 => ⟨S1x32, .f32⟩
  | 29 => ⟨S1x32, .f32⟩
  | 30 => ⟨S1x10, .f32⟩
  | 31 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .bf16⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S64x64, .bf16⟩
  | .local _ .vmem, ⟨10, _⟩ => ⟨S10000x64, .bf16⟩
  | .local _ .vmem, ⟨11, _⟩ => ⟨S10000x64, .bf16⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S64x32, .bf16⟩
  | .local _ .vmem, ⟨20, _⟩ => ⟨S1x32, .f32⟩
  | .local _ .vmem, ⟨21, _⟩ => ⟨S1x32, .f32⟩
  | .local _ .vmem, ⟨22, _⟩ => ⟨S32x10, .bf16⟩
  | .local _ .vmem, ⟨23, _⟩ => ⟨S1x10, .f32⟩
  | .local _ .vmem, ⟨24, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_9 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_10 : Ref sig .tc := ⟨.hbm, 99, rfl⟩
abbrev main_v60 : Ref sig .tc := ⟨.hbm, 100, rfl⟩
abbrev main_v61 : Ref sig .tc := ⟨.hbm, 101, rfl⟩
abbrev main_c_11 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_12 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_14 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_16 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_17 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_18 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x10 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S_S64 : S_.BroadcastsInDim S64 (![] : Fin 0 → Fin S64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S100000x64_S50000x128 : S100000x64.ShapeCasts S50000x128
  concatenates_S64_S64_S128_d0 : Shape.Concatenates [S64, S64] S128 0
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S50000x128_S100000x64 : S50000x128.ShapeCasts S100000x64
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S_S32 : S_.BroadcastsInDim S32 (![] : Fin 0 → Fin S32.rank)
  shapeCasts_S32_S1x32 : S32.ShapeCasts S1x32
  shapeCasts_S10_S1x10 : S10.ShapeCasts S1x10
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x64_S10000x64_1_0_0_1_n_n_wf : DotDims.WF S10000x64 S64x64 S10000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .bf16 = 32 ∨ (Rect.block (s := S100000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .bf16 = 32 ∨ (Rect.block (s := S64x32) S64x32.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x10.size a ≤ S32x10.size a
  hwx3_4 : ∀ i : grid3.Coords, EltTy.bits .bf16 = 32 ∨ (Rect.block (s := S32x10) S32x10.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x10.size a ≤ S1x10.size a
  hwx3_5 : ∀ i : grid3.Coords, EltTy.bits .f32 = 32 ∨ (Rect.block (s := S1x10) S1x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x10.size a ≤ S128x10.size a
  hwx3_6 : ∀ i : grid3.Coords, EltTy.bits .f32 = 32 ∨ (Rect.block (s := S128x10) S128x10.size (cc3_transform_6 i) (hinb3_6 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v80) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v98) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v106) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v107) S32x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S1x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v111) S128x10.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S1000000 : Shape := ⟨1, ![1000000]⟩
abbrev S100000x3 : Shape := ⟨2, ![100000, 3]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S128 : Shape := ⟨1, ![128]⟩
abbrev S100000x1 : Shape := ⟨2, ![100000, 1]⟩
abbrev S128x1 : Shape := ⟨2, ![128, 1]⟩
abbrev S128x32 : Shape := ⟨2, ![128, 32]⟩
abbrev S1x32 : Shape := ⟨2, ![1, 32]⟩
abbrev S128x10 : Shape := ⟨2, ![128, 10]⟩
abbrev S1x10 : Shape := ⟨2, ![1, 10]⟩

abbrev nBuf : Space → Nat
  | .hbm => 203
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S1000000, .f32⟩
  | 4 => ⟨S100000x3, .f32⟩
  | 5 => ⟨S128x64, .f32⟩
  | 6 => ⟨S64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x32, .f32⟩
  | 18 => ⟨S32, .f32⟩
  | 19 => ⟨S32, .f32⟩
  | 20 => ⟨S32, .f32⟩
  | 21 => ⟨S32, .f32⟩
  | 22 => ⟨S32, .f32⟩
  | 23 => ⟨S32x10, .f32⟩
  | 24 => ⟨S10, .f32⟩
  | 25 => ⟨S100000, .i32⟩
  | 26 => ⟨S1x1000000, .i32⟩
  | 27 => ⟨S1000000, .i32⟩
  | 28 => ⟨S1100000, .i32⟩
  | 29 => ⟨S1x1000000, .i32⟩
  | 30 => ⟨S1000000, .i32⟩
  | 31 => ⟨S1100000, .i32⟩
  | 32 => ⟨S_, .f32⟩
  | 33 => ⟨S100000, .f32⟩
  | 34 => ⟨S1100000, .f32⟩
  | 35 => ⟨S_, .f32⟩
  | 36 => ⟨S100000, .f32⟩
  | 37 => ⟨S1100000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000, .f32⟩
  | 56 => ⟨S1100000, .f32⟩
  | 57 => ⟨S_, .i32⟩
  | 58 => ⟨S1100000, .i32⟩
  | 59 => ⟨S1100000, .i1⟩
  | 60 => ⟨S_, .i32⟩
  | 61 => ⟨S1100000, .i32⟩
  | 62 => ⟨S1100000, .i32⟩
  | 63 => ⟨S1100000, .i32⟩
  | 64 => ⟨S1100000x1, .i32⟩
  | 65 => ⟨S1100000, .f32⟩
  | 66 => ⟨S1100000, .f32⟩
  | 67 => ⟨S100000x64, .f32⟩
  | 68 => ⟨S1100000x1, .f32⟩
  | 69 => ⟨S_, .i32⟩
  | 70 => ⟨S1100000, .i32⟩
  | 71 => ⟨S1100000, .i1⟩
  | 72 => ⟨S_, .i32⟩
  | 73 => ⟨S1100000, .i32⟩
  | 74 => ⟨S1100000, .i32⟩
  | 75 => ⟨S1100000, .i32⟩
  | 76 => ⟨S1100000x1, .i32⟩
  | 77 => ⟨S1100000x64, .f32⟩
  | 78 => ⟨S1100000x64, .f32⟩
  | 79 => ⟨S1100000x64, .f32⟩
  | 80 => ⟨S_, .f32⟩
  | 81 => ⟨S100000x64, .f32⟩
  | 82 => ⟨S1100000x1, .i32⟩
  | 83 => ⟨S100000x64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S64, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S1100000x1, .f32⟩
  | 108 => ⟨S_, .i32⟩
  | 109 => ⟨S1100000, .i32⟩
  | 110 => ⟨S1100000, .i1⟩
  | 111 => ⟨S_, .i32⟩
  | 112 => ⟨S1100000, .i32⟩
  | 113 => ⟨S1100000, .i32⟩
  | 114 => ⟨S1100000, .i32⟩
  | 115 => ⟨S1100000x1, .i32⟩
  | 116 => ⟨S1100000x64, .f32⟩
  | 117 => ⟨S1100000x64, .f32⟩
  | 118 => ⟨S1100000x64, .f32⟩
  | 119 => ⟨S_, .f32⟩
  | 120 => ⟨S100000x64, .f32⟩
  | 121 => ⟨S1100000x1, .i32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S64, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .f32⟩
  | 18 => ⟨S100000, .f32⟩
  | 19 => ⟨S_, .f32⟩
  | 20 => ⟨S128, .f32⟩
  | 21 => ⟨S100000x1, .i32⟩
  | 22 => ⟨S128, .f32⟩
  | 23 => ⟨S_, .f32⟩
  | 24 => ⟨S128x64, .f32⟩
  | 25 => ⟨S100000x1, .i32⟩
  | 26 => ⟨S128x64, .f32⟩
  | 27 => ⟨S_, .f32⟩
  | 28 => ⟨S128, .f32⟩
  | 29 => ⟨S128, .f32⟩
  | 30 => ⟨S128x1, .f32⟩
  | 31 => ⟨S128x64, .f32⟩
  | 32 => ⟨S128x64, .f32⟩
  | 33 => ⟨S128x32, .f32⟩
  | 34 => ⟨S1x32, .f32⟩
  | 35 => ⟨S128x32, .f32⟩
  | 36 => ⟨S128x32, .f32⟩
  | 37 => ⟨S1x32, .f32⟩
  | 38 => ⟨S128x32, .f32⟩
  | 39 => ⟨S128x32, .f32⟩
  | 40 => ⟨S_, .f32⟩
  | 41 => ⟨S32, .f32⟩
  | 42 => ⟨S32, .f32⟩
  | 43 => ⟨S32, .f32⟩
  | 44 => ⟨S1x32, .f32⟩
  | 45 => ⟨S128x32, .f32⟩
  | 46 => ⟨S128x32, .f32⟩
  | 47 => ⟨S1x32, .f32⟩
  | 48 => ⟨S128x32, .f32⟩
  | 49 => ⟨S128x32, .f32⟩
  | 50 => ⟨S1x32, .f32⟩
  | 51 => ⟨S128x32, .f32⟩
  | 52 => ⟨S128x32, .f32⟩
  | 53 => ⟨S_, .f32⟩
  | 54 => ⟨S128x32, .f32⟩
  | 55 => ⟨S128x32, .f32⟩
  | 56 => ⟨S128x10, .f32⟩
  | 57 => ⟨S1x10, .f32⟩
  | 58 => ⟨S128x10, .f32⟩
  | 59 => ⟨S128x10, .f32⟩
  | 60 => ⟨S_, .f32⟩
  | 61 => ⟨S128, .f32⟩
  | 62 => ⟨S_, .f32⟩
  | 63 => ⟨S128, .f32⟩
  | 64 => ⟨S128, .f32⟩
  | 65 => ⟨S128x1, .f32⟩
  | 66 => ⟨S128x10, .f32⟩
  | 67 => ⟨S128x10, .f32⟩
  | 68 => ⟨S128x10, .f32⟩
  | 69 => ⟨S_, .f32⟩
  | 70 => ⟨S128, .f32⟩
  | 71 => ⟨S128x1, .f32⟩
  | 72 => ⟨S128x1, .f32⟩
  | 73 => ⟨S128x10, .f32⟩
  | 74 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_6 : Ref sig .tc := ⟨.hbm, 69, rfl⟩
abbrev main_v34 : Ref sig .tc := ⟨.hbm, 70, rfl⟩
abbrev main_v35 : Ref sig .tc := ⟨.hbm, 71, rfl⟩
abbrev main_c_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call1_cst : Ref sig .tc := ⟨.hbm, 103, rfl⟩
abbrev main_call1_v0 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_10 : Ref sig .tc := ⟨.hbm, 108, rfl⟩
abbrev main_v67 : Ref sig .tc := ⟨.hbm, 109, rfl⟩
abbrev main_v68 : Ref sig .tc := ⟨.hbm, 110, rfl⟩
abbrev main_c_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_12 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_13 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call2_cst : Ref sig .tc := ⟨.hbm, 142, rfl⟩
abbrev main_call2_v0 : Ref sig .tc := ⟨.hbm, 143, rfl⟩
abbrev main_v97 : Ref sig .tc := ⟨.hbm, 144, rfl⟩
abbrev main_cst_14 : Ref sig .tc := ⟨.hbm, 145, rfl⟩
abbrev main_v98 : Ref sig .tc := ⟨.hbm, 146, rfl⟩
abbrev main_cst_15 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_16 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_17 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_18 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_call3_cst : Ref sig .tc := ⟨.hbm, 181, rfl⟩
abbrev main_call3_v0 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_call4_cst : Ref sig .tc := ⟨.hbm, 188, rfl⟩
abbrev main_call4_v0 : Ref sig .tc := ⟨.hbm, 189, rfl⟩
abbrev main_call4_cst_0 : Ref sig .tc := ⟨.hbm, 190, rfl⟩
abbrev main_call4_v1 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_cst_1 : Ref sig .tc := ⟨.hbm, 197, rfl⟩
abbrev main_call4_v7 : Ref sig .tc := ⟨.hbm, 198, rfl⟩
abbrev main_call4_v8 : Ref sig .tc := ⟨.hbm, 199, rfl⟩
abbrev main_call4_v9 : Ref sig .tc := ⟨.hbm, 200, rfl⟩
abbrev main_call4_v10 : Ref sig .tc := ⟨.hbm, 201, rfl⟩
abbrev main_v134 : Ref sig .tc := ⟨.hbm, 202, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S32 : S_.BroadcastsInDim S32 (![] : Fin 0 → Fin S32.rank)
  bcast_S_S128x32 : S_.BroadcastsInDim S128x32 (![] : Fin 0 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.KRun.lean ====
/-
  The idealized kernel program's run, with the value of its result kept.

  The program is ten segments: stretches of host operations and four kernel regions in turn.  Every weakly fair
  execution from any launch memory terminates without fault, and in the final state every buffer that is not
  scoped to a region holds what the segments leave in it one after the other — host stretches applying their
  operations, regions writing back the blocks their grid points computed.  Read at the result buffer this gives
  the result's value; read at an argument it gives the argument as launched.
-/
import proofs.«149865_j85899345950_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the
    last segment leaves in it and every argument as launched. -/
theorem run_value : θ_run defs (onTc (τ := τ) (main (F := F))) ⟨m, fun _ => 0, ρ⟩ (fun r => ∀ c : Dev nD,
      r.2.mem ((c.tc : Thread nD τ).loc main_v111) = W10 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v111 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c)⟩)

end Cert.KernelIdeal.Whole

end
-- ==== Proof.KArgs.lean ====
/-
  The argument buffers are read-only: no host operation writes one, and a kernel region only reads those it
  stages.  So at every boundary between segments an argument buffer still holds what it held at launch.
-/
import proofs.«149865_j85899345950_2_alg».proof.Proof.Gen.KernelIdeal.Frame
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

/-- A buffer that no operation of a host stretch writes holds after the stretch what it held before. -/
macro "host_keep" : tactic =>
  `(tactic| (refine StableHlo.after_of_forall_not_mem _ _ (List.forall_iff_forall_mem.mp ?_)
             simp only [hostOps0, hostOps0_1, hostOps0_2, hostOps1, hostOps2, hostOps3, List.flatten_cons, List.flatten_nil,
               List.append_nil, List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

theorem W3_arg0 : W3 m ρ c (Proc.devRef .tc main_arg0) = (m ((c : Thread nD τ).loc main_arg0)) :=
  calc W3 m ρ c (Proc.devRef .tc main_arg0)
    _ = W2 m ρ c (Proc.devRef .tc main_arg0) := by host_keep
    _ = W1 m ρ c (Proc.devRef .tc main_arg0) := by host_keep
    _ = W0 m ρ c (Proc.devRef .tc main_arg0) := by host_keep
    _ = (m ((c : Thread nD τ).loc main_arg0)) := rfl

theorem W4_arg6 : W4 m ρ c (Proc.devRef .tc main_arg6) = (m ((c : Thread nD τ).loc main_arg6)) :=
  calc W4 m ρ c (Proc.devRef .tc main_arg6)
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep
    _ = (m ((c : Thread nD τ).loc main_arg6)) := rfl

theorem W4_arg7 : W4 m ρ c (Proc.devRef .tc main_arg7) = (m ((c : Thread nD τ).loc main_arg7)) :=
  calc W4 m ρ c (Proc.devRef .tc main_arg7)
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep
    _ = (m ((c : Thread nD τ).loc main_arg7)) := rfl

theorem W4_arg8 : W4 m ρ c (Proc.devRef .tc main_arg8) = (m ((c : Thread nD τ).loc main_arg8)) :=
  calc W4 m ρ c (Proc.devRef .tc main_arg8)
    _ = W3 m ρ c (Proc.devRef .tc main_arg8) := W4_of_ne m ρ c main_arg8 (by decide)
    _ = W2 m ρ c (Proc.devRef .tc main_arg8) := by host_keep
    _ = W1 m ρ c (Proc.devRef .tc main_arg8) := by host_keep
    _ = W0 m ρ c (Proc.devRef .tc main_arg8) := by host_keep
    _ = (m ((c : Thread nD τ).loc main_arg8)) := rfl

theorem W4_arg9 : W4 m ρ c (Proc.devRef .tc main_arg9) = (m ((c : Thread nD τ).loc main_arg9)) :=
  calc W4 m ρ c (Proc.devRef .tc main_arg9)
    _ = W3 m ρ c (Proc.devRef .tc main_arg9) := W4_of_ne m ρ c main_arg9 (by decide)
    _ = W2 m ρ c (Proc.devRef .tc main_arg9) := by host_keep
    _ = W1 m ρ c (Proc.devRef .tc main_arg9) := by host_keep
    _ = W0 m ρ c (Proc.devRef .tc main_arg9) := by host_keep
    _ = (m ((c : Thread nD τ).loc main_arg9)) := rfl

theorem W4_arg10 : W4 m ρ c (Proc.devRef .tc main_arg10) = (m ((c : Thread nD τ).loc main_arg10)) :=
  calc W4 m ρ c (Proc.devRef .tc main_arg10)
    _ = W3 m ρ c (Proc.devRef .tc main_arg10) := W4_of_ne m ρ c main_arg10 (by decide)
    _ = W2 m ρ c (Proc.devRef .tc main_arg10) := by host_keep
    _ = W1 m ρ c (Proc.devRef .tc main_arg10) := by host_keep
    _ = W0 m ρ c (Proc.devRef .tc main_arg10) := by host_keep
    _ = (m ((c : Thread nD τ).loc main_arg10)) := rfl

theorem W4_arg11 : W4 m ρ c (Proc.devRef .tc main_arg11) = (m ((c : Thread nD τ).loc main_arg11)) :=
  calc W4 m ρ c (Proc.devRef .tc main_arg11)
    _ = W3 m ρ c (Proc.devRef .tc main_arg11) := W4_of_ne m ρ c main_arg11 (by decide)
    _ = W2 m ρ c (Proc.devRef .tc main_arg11) := by host_keep
    _ = W1 m ρ c (Proc.devRef .tc main_arg11) := by host_keep
    _ = W0 m ρ c (Proc.devRef .tc main_arg11) := by host_keep
    _ = (m ((c : Thread nD τ).loc main_arg11)) := rfl

theorem W6_arg12 : W6 m ρ c (Proc.devRef .tc main_arg12) = (m ((c : Thread nD τ).loc main_arg12)) :=
  calc W6 m ρ c (Proc.devRef .tc main_arg12)
    _ = W5 m ρ c (Proc.devRef .tc main_arg12) := W6_of_ne m ρ c main_arg12 (by decide)
    _ = W4 m ρ c (Proc.devRef .tc main_arg12) := by host_keep
    _ = W3 m ρ c (Proc.devRef .tc main_arg12) := W4_of_ne m ρ c main_arg12 (by decide)
    _ = W2 m ρ c (Proc.devRef .tc main_arg12) := by host_keep
    _ = W1 m ρ c (Proc.devRef .tc main_arg12) := by host_keep
    _ = W0 m ρ c (Proc.devRef .tc main_arg12) := by host_keep
    _ = (m ((c : Thread nD τ).loc main_arg12)) := rfl

theorem W6_arg13 : W6 m ρ c (Proc.devRef .tc main_arg13) = (m ((c : Thread nD τ).loc main_arg13)) :=
  calc W6 m ρ c (Proc.devRef .tc main_arg13)
    _ = W5 m ρ c (Proc.devRef .tc main_arg13) := W6_of_ne m ρ c main_arg13 (by decide)
    _ = W4 m ρ c (Proc.devRef .tc main_arg13) := by host_keep
    _ = W3 m ρ c (Proc.devRef .tc main_arg13) := W4_of_ne m ρ c main_arg13 (by decide)
    _ = W2 m ρ c (Proc.devRef .tc main_arg13) := by host_keep
    _ = W1 m ρ c (Proc.devRef .tc main_arg13) := by host_keep
    _ = W0 m ρ c (Proc.devRef .tc main_arg13) := by host_keep
    _ = (m ((c : Thread nD τ).loc main_arg13)) := rfl

theorem W6_arg14 : W6 m ρ c (Proc.devRef .tc main_arg14) = (m ((c : Thread nD τ).loc main_arg14)) :=
  calc W6 m ρ c (Proc.devRef .tc main_arg14)
    _ = W5 m ρ c (Proc.devRef .tc main_arg14) := W6_of_ne m ρ c main_arg14 (by decide)
    _ = W4 m ρ c (Proc.devRef .tc main_arg14) := by host_keep
    _ = W3 m ρ c (Proc.devRef .tc main_arg14) := W4_of_ne m ρ c main_arg14 (by decide)
    _ = W2 m ρ c (Proc.devRef .tc main_arg14) := by host_keep
    _ = W1 m ρ c (Proc.devRef .tc main_arg14) := by host_keep
    _ = W0 m ρ c (Proc.devRef .tc main_arg14) := by host_keep
    _ = (m ((c : Thread nD τ).loc main_arg14)) := rfl

theorem W6_arg15 : W6 m ρ c (Proc.devRef .tc main_arg15) = (m ((c : Thread nD τ).loc main_arg15)) :=
  calc W6 m ρ c (Proc.devRef .tc main_arg15)
    _ = W5 m ρ c (Proc.devRef .tc main_arg15) := W6_of_ne m ρ c main_arg15 (by decide)
    _ = W4 m ρ c (Proc.devRef .tc main_arg15) := by host_keep
    _ = W3 m ρ c (Proc.devRef .tc main_arg15) := W4_of_ne m ρ c main_arg15 (by decide)
    _ = W2 m ρ c (Proc.devRef .tc main_arg15) := by host_keep
    _ = W1 m ρ c (Proc.devRef .tc main_arg15) := by host_keep
    _ = W0 m ρ c (Proc.devRef .tc main_arg15) := by host_keep
    _ = (m ((c : Thread nD τ).loc main_arg15)) := rfl

theorem W6_arg16 : W6 m ρ c (Proc.devRef .tc main_arg16) = (m ((c : Thread nD τ).loc main_arg16)) :=
  calc W6 m ρ c (Proc.devRef .tc main_arg16)
    _ = W5 m ρ c (Proc.devRef .tc main_arg16) := W6_of_ne m ρ c main_arg16 (by decide)
    _ = W4 m ρ c (Proc.devRef .tc main_arg16) := by host_keep
    _ = W3 m ρ c (Proc.devRef .tc main_arg16) := W4_of_ne m ρ c main_arg16 (by decide)
    _ = W2 m ρ c (Proc.devRef .tc main_arg16) := by host_keep
    _ = W1 m ρ c (Proc.devRef .tc main_arg16) := by host_keep
    _ = W0 m ρ c (Proc.devRef .tc main_arg16) := by host_keep
    _ = (m ((c : Thread nD τ).loc main_arg16)) := rfl

theorem W8_arg2 : W8 m ρ c (Proc.devRef .tc main_arg2) = (m ((c : Thread nD τ).loc main_arg2)) :=
  calc W8 m ρ c (Proc.devRef .tc main_arg2)
    _ = W7 m ρ c (Proc.devRef .tc main_arg2) := W8_of_ne m ρ c main_arg2 (by decide)
    _ = W6 m ρ c (Proc.devRef .tc main_arg2) := by host_keep
    _ = W5 m ρ c (Proc.devRef .tc main_arg2) := W6_of_ne m ρ c main_arg2 (by decide)
    _ = W4 m ρ c (Proc.devRef .tc main_arg2) := by host_keep
    _ = W3 m ρ c (Proc.devRef .tc main_arg2) := W4_of_ne m ρ c main_arg2 (by decide)
    _ = W2 m ρ c (Proc.devRef .tc main_arg2) := by host_keep
    _ = W1 m ρ c (Proc.devRef .tc main_arg2) := by host_keep
    _ = W0 m ρ c (Proc.devRef .tc main_arg2) := by host_keep
    _ = (m ((c : Thread nD τ).loc main_arg2)) := rfl

theorem W8_arg17 : W8 m ρ c (Proc.devRef .tc main_arg17) = (m ((c : Thread nD τ).loc main_arg17)) :=
  calc W8 m ρ c (Proc.devRef .tc main_arg17)
    _ = W7 m ρ c (Proc.devRef .tc main_arg17) := W8_of_ne m ρ c main_arg17 (by decide)
    _ = W6 m ρ c (Proc.devRef .tc main_arg17) := by host_keep
    _ = W5 m ρ c (Proc.devRef .tc main_arg17) := W6_of_ne m ρ c main_arg17 (by decide)
    _ = W4 m ρ c (Proc.devRef .tc main_arg17) := by host_keep
    _ = W3 m ρ c (Proc.devRef .tc main_arg17) := W4_of_ne m ρ c main_arg17 (by decide)
    _ = W2 m ρ c (Proc.devRef .tc main_arg17) := by host_keep
    _ = W1 m ρ c (Proc.devRef .tc main_arg17) := by host_keep
    _ = W0 m ρ c (Proc.devRef .tc main_arg17) := by host_keep
    _ = (m ((c : Thread nD τ).loc main_arg17)) := rfl

theorem W8_arg18 : W8 m ρ c (Proc.devRef .tc main_arg18) = (m ((c : Thread nD τ).loc main_arg18)) :=
  calc W8 m ρ c (Proc.devRef .tc main_arg18)
    _ = W7 m ρ c (Proc.devRef .tc main_arg18) := W8_of_ne m ρ c main_arg18 (by decide)
    _ = W6 m ρ c (Proc.devRef .tc main_arg18) := by host_keep
    _ = W5 m ρ c (Proc.devRef .tc main_arg18) := W6_of_ne m ρ c main_arg18 (by decide)
    _ = W4 m ρ c (Proc.devRef .tc main_arg18) := by host_keep
    _ = W3 m ρ c (Proc.devRef .tc main_arg18) := W4_of_ne m ρ c main_arg18 (by decide)
    _ = W2 m ρ c (Proc.devRef .tc main_arg18) := by host_keep
    _ = W1 m ρ c (Proc.devRef .tc main_arg18) := by host_keep
    _ = W0 m ρ c (Proc.devRef .tc main_arg18) := by host_keep
    _ = (m ((c : Thread nD τ).loc main_arg18)) := rfl

theorem W8_arg19 : W8 m ρ c (Proc.devRef .tc main_arg19) = (m ((c : Thread nD τ).loc main_arg19)) :=
  calc W8 m ρ c (Proc.devRef .tc main_arg19)
    _ = W7 m ρ c (Proc.devRef .tc main_arg19) := W8_of_ne m ρ c main_arg19 (by decide)
    _ = W6 m ρ c (Proc.devRef .tc main_arg19) := by host_keep
    _ = W5 m ρ c (Proc.devRef .tc main_arg19) := W6_of_ne m ρ c main_arg19 (by decide)
    _ = W4 m ρ c (Proc.devRef .tc main_arg19) := by host_keep
    _ = W3 m ρ c (Proc.devRef .tc main_arg19) := W4_of_ne m ρ c main_arg19 (by decide)
    _ = W2 m ρ c (Proc.devRef .tc main_arg19) := by host_keep
    _ = W1 m ρ c (Proc.devRef .tc main_arg19) := by host_keep
    _ = W0 m ρ c (Proc.devRef .tc main_arg19) := by host_keep
    _ = (m ((c : Thread nD τ).loc main_arg19)) := rfl

theorem W8_arg20 : W8 m ρ c (Proc.devRef .tc main_arg20) = (m ((c : Thread nD τ).loc main_arg20)) :=
  calc W8 m ρ c (Proc.devRef .tc main_arg20)
    _ = W7 m ρ c (Proc.devRef .tc main_arg20) := W8_of_ne m ρ c main_arg20 (by decide)
    _ = W6 m ρ c (Proc.devRef .tc main_arg20) := by host_keep
    _ = W5 m ρ c (Proc.devRef .tc main_arg20) := W6_of_ne m ρ c main_arg20 (by decide)
    _ = W4 m ρ c (Proc.devRef .tc main_arg20) := by host_keep
    _ = W3 m ρ c (Proc.devRef .tc main_arg20) := W4_of_ne m ρ c main_arg20 (by decide)
    _ = W2 m ρ c (Proc.devRef .tc main_arg20) := by host_keep
    _ = W1 m ρ c (Proc.devRef .tc main_arg20) := by host_keep
    _ = W0 m ρ c (Proc.devRef .tc main_arg20) := by host_keep
    _ = (m ((c : Thread nD τ).loc main_arg20)) := rfl

theorem W8_arg21 : W8 m ρ c (Proc.devRef .tc main_arg21) = (m ((c : Thread nD τ).loc main_arg21)) :=
  calc W8 m ρ c (Proc.devRef .tc main_arg21)
    _ = W7 m ρ c (Proc.devRef .tc main_arg21) := W8_of_ne m ρ c main_arg21 (by decide)
    _ = W6 m ρ c (Proc.devRef .tc main_arg21) := by host_keep
    _ = W5 m ρ c (Proc.devRef .tc main_arg21) := W6_of_ne m ρ c main_arg21 (by decide)
    _ = W4 m ρ c (Proc.devRef .tc main_arg21) := by host_keep
    _ = W3 m ρ c (Proc.devRef .tc main_arg21) := W4_of_ne m ρ c main_arg21 (by decide)
    _ = W2 m ρ c (Proc.devRef .tc main_arg21) := by host_keep
    _ = W1 m ρ c (Proc.devRef .tc main_arg21) := by host_keep
    _ = W0 m ρ c (Proc.devRef .tc main_arg21) := by host_keep
    _ = (m ((c : Thread nD τ).loc main_arg21)) := rfl

theorem W8_arg22 : W8 m ρ c (Proc.devRef .tc main_arg22) = (m ((c : Thread nD τ).loc main_arg22)) :=
  calc W8 m ρ c (Proc.devRef .tc main_arg22)
    _ = W7 m ρ c (Proc.devRef .tc main_arg22) := W8_of_ne m ρ c main_arg22 (by decide)
    _ = W6 m ρ c (Proc.devRef .tc main_arg22) := by host_keep
    _ = W5 m ρ c (Proc.devRef .tc main_arg22) := W6_of_ne m ρ c main_arg22 (by decide)
    _ = W4 m ρ c (Proc.devRef .tc main_arg22) := by host_keep
    _ = W3 m ρ c (Proc.devRef .tc main_arg22) := W4_of_ne m ρ c main_arg22 (by decide)
    _ = W2 m ρ c (Proc.devRef .tc main_arg22) := by host_keep
    _ = W1 m ρ c (Proc.devRef .tc main_arg22) := by host_keep
    _ = W0 m ρ c (Proc.devRef .tc main_arg22) := by host_keep
    _ = (m ((c : Thread nD τ).loc main_arg22)) := rfl

theorem W8_arg23 : W8 m ρ c (Proc.devRef .tc main_arg23) = (m ((c : Thread nD τ).loc main_arg23)) :=
  calc W8 m ρ c (Proc.devRef .tc main_arg23)
    _ = W7 m ρ c (Proc.devRef .tc main_arg23) := W8_of_ne m ρ c main_arg23 (by decide)
    _ = W6 m ρ c (Proc.devRef .tc main_arg23) := by host_keep
    _ = W5 m ρ c (Proc.devRef .tc main_arg23) := W6_of_ne m ρ c main_arg23 (by decide)
    _ = W4 m ρ c (Proc.devRef .tc main_arg23) := by host_keep
    _ = W3 m ρ c (Proc.devRef .tc main_arg23) := W4_of_ne m ρ c main_arg23 (by decide)
    _ = W2 m ρ c (Proc.devRef .tc main_arg23) := by host_keep
    _ = W1 m ρ c (Proc.devRef .tc main_arg23) := by host_keep
    _ = W0 m ρ c (Proc.devRef .tc main_arg23) := by host_keep
    _ = (m ((c : Thread nD τ).loc main_arg23)) := rfl

theorem W8_arg24 : W8 m ρ c (Proc.devRef .tc main_arg24) = (m ((c : Thread nD τ).loc main_arg24)) :=
  calc W8 m ρ c (Proc.devRef .tc main_arg24)
    _ = W7 m ρ c (Proc.devRef .tc main_arg24) := W8_of_ne m ρ c main_arg24 (by decide)
    _ = W6 m ρ c (Proc.devRef .tc main_arg24) := by host_keep
    _ = W5 m ρ c (Proc.devRef .tc main_arg24) := W6_of_ne m ρ c main_arg24 (by decide)
    _ = W4 m ρ c (Proc.devRef .tc main_arg24) := by host_keep
    _ = W3 m ρ c (Proc.devRef .tc main_arg24) := W4_of_ne m ρ c main_arg24 (by decide)
    _ = W2 m ρ c (Proc.devRef .tc main_arg24) := by host_keep
    _ = W1 m ρ c (Proc.devRef .tc main_arg24) := by host_keep
    _ = W0 m ρ c (Proc.devRef .tc main_arg24) := by host_keep
    _ = (m ((c : Thread nD τ).loc main_arg24)) := rfl

end Cert.KernelIdeal.Whole

end
-- ==== Proof.KPrefix.lean ====
/-
  The part of the host program both sides share: the edge lists with self loops appended, the symmetric
  normalisation coefficient of every edge, and the first weight matrix.  Each is computed before the first
  kernel region and never written again, so at the later boundaries it still holds the reference's own
  stage value of the same arguments.  The chain is read one stretch at a time, each buffer against the
  reference's stage of the same name.
-/
import proofs.«149865_j85899345950_2_alg».proof.Proof.Gen.KernelIdeal.Frame
import proofs.«149865_j85899345950_2_alg».proof.Proof.KArgs
import proofs.«149865_j85899345950_2_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

theorem W1_v8 : W1 m ρ c (Proc.devRef .tc main_v8) = Cert.ReferenceIdeal.Read.val_main_v8 (F := Ideal) (m ((c : Thread nD τ).loc main_arg3)) := by
  show StableHlo.after hostOps0 (W0 m ρ c) (Proc.devRef .tc main_v8) = _
  after_results_simp
  rfl

theorem W1_v13 : W1 m ρ c (Proc.devRef .tc main_v13) = Cert.ReferenceIdeal.Read.val_main_v13 (F := Ideal) (m ((c : Thread nD τ).loc main_arg1)) (m ((c : Thread nD τ).loc main_arg3)) := by
  show StableHlo.after hostOps0 (W0 m ρ c) (Proc.devRef .tc main_v13) = _
  after_results_simp
  rfl

theorem W1_v14 : W1 m ρ c (Proc.devRef .tc main_v14) = Cert.ReferenceIdeal.Read.val_main_v14 (F := Ideal) (m ((c : Thread nD τ).loc main_arg1)) (m ((c : Thread nD τ).loc main_arg3)) := by
  show StableHlo.after hostOps0 (W0 m ρ c) (Proc.devRef .tc main_v14) = _
  after_results_simp
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results_simp
  rfl

/-! The outlined `where` call's operations move values between a buffer's own type and the tensor type it was
    declared with.  For a literal buffer the two types are one, and the move is the identity. -/

theorem toBuf_main_cst_2 (p1 : main_cst_2.ty = ⟨S_, .f32⟩) (p2 : main_cst_2.space ≠ .host) (p3 : main_cst_2.isScoped = false)
    (v : (⟨S_, .f32⟩ : BufTy).Contents (Elt Ideal)) :
    (StableHlo.TRef.of (T := ⟨S_, .f32⟩) main_cst_2 p1 p2 p3).toBuf (Val := Elt Ideal) v = v := rfl

theorem ofBuf_main_cst_2 (p1 : main_cst_2.ty = ⟨S_, .f32⟩) (p2 : main_cst_2.space ≠ .host) (p3 : main_cst_2.isScoped = false)
    (v : main_cst_2.ty.Contents (Elt Ideal)) :
    (StableHlo.TRef.of (T := ⟨S_, .f32⟩) main_cst_2 p1 p2 p3).ofBuf (Val := Elt Ideal) v = v := rfl

theorem toBuf_main_call0_v0 (p1 : main_call0_v0.ty = ⟨S_, .f32⟩) (p2 : main_call0_v0.space ≠ .host) (p3 : main_call0_v0.isScoped = false)
    (v : (⟨S_, .f32⟩ : BufTy).Contents (Elt Ideal)) :
    (StableHlo.TRef.of (T := ⟨S_, .f32⟩) main_call0_v0 p1 p2 p3).toBuf (Val := Elt Ideal) v = v := rfl

theorem ofBuf_main_call0_v0 (p1 : main_call0_v0.ty = ⟨S_, .f32⟩) (p2 : main_call0_v0.space ≠ .host) (p3 : main_call0_v0.isScoped = false)
    (v : main_call0_v0.ty.Contents (Elt Ideal)) :
    (StableHlo.TRef.of (T := ⟨S_, .f32⟩) main_call0_v0 p1 p2 p3).ofBuf (Val := Elt Ideal) v = v := rfl

theorem toBuf_main_call0_v1 (p1 : main_call0_v1.ty = ⟨S100000, .f32⟩) (p2 : main_call0_v1.space ≠ .host) (p3 : main_call0_v1.isScoped = false)
    (v : (⟨S100000, .f32⟩ : BufTy).Contents (Elt Ideal)) :
    (StableHlo.TRef.of (T := ⟨S100000, .f32⟩) main_call0_v1 p1 p2 p3).toBuf (Val := Elt Ideal) v = v := rfl

theorem ofBuf_main_call0_v1 (p1 : main_call0_v1.ty = ⟨S100000, .f32⟩) (p2 : main_call0_v1.space ≠ .host) (p3 : main_call0_v1.isScoped = false)
    (v : main_call0_v1.ty.Contents (Elt Ideal)) :
    (StableHlo.TRef.of (T := ⟨S100000, .f32⟩) main_call0_v1 p1 p2 p3).ofBuf (Val := Elt Ideal) v = v := rfl

theorem toBuf_main_v13 (p1 : main_v13.ty = ⟨S100000, .i1⟩) (p2 : main_v13.space ≠ .host) (p3 : main_v13.isScoped = false)
    (v : (⟨S100000, .i1⟩ : BufTy).Contents (Elt Ideal)) :
    (StableHlo.TRef.of (T := ⟨S100000, .i1⟩) main_v13 p1 p2 p3).toBuf (Val := Elt Ideal) v = v := rfl

theorem ofBuf_main_v13 (p1 : main_v13.ty = ⟨S100000, .i1⟩) (p2 : main_v13.space ≠ .host) (p3 : main_v13.isScoped = false)
    (v : main_v13.ty.Contents (Elt Ideal)) :
    (StableHlo.TRef.of (T := ⟨S100000, .i1⟩) main_v13 p1 p2 p3).ofBuf (Val := Elt Ideal) v = v := rfl

theorem toBuf_main_v14 (p1 : main_v14.ty = ⟨S100000, .f32⟩) (p2 : main_v14.space ≠ .host) (p3 : main_v14.isScoped = false)
    (v : (⟨S100000, .f32⟩ : BufTy).Contents (Elt Ideal)) :
    (StableHlo.TRef.of (T := ⟨S100000, .f32⟩) main_v14 p1 p2 p3).toBuf (Val := Elt Ideal) v = v := rfl

theorem ofBuf_main_v14 (p1 : main_v14.ty = ⟨S100000, .f32⟩) (p2 : main_v14.space ≠ .host) (p3 : main_v14.isScoped = false)
    (v : main_v14.ty.Contents (Elt Ideal)) :
    (StableHlo.TRef.of (T := ⟨S100000, .f32⟩) main_v14 p1 p2 p3).ofBuf (Val := Elt Ideal) v = v := rfl

theorem toBuf_main_v15 (p1 : main_v15.ty = ⟨S100000, .f32⟩) (p2 : main_v15.space ≠ .host) (p3 : main_v15.isScoped = false)
    (v : (⟨S100000, .f32⟩ : BufTy).Contents (Elt Ideal)) :
    (StableHlo.TRef.of (T := ⟨S100000, .f32⟩) main_v15 p1 p2 p3).toBuf (Val := Elt Ideal) v = v := rfl

theorem ofBuf_main_v15 (p1 : main_v15.ty = ⟨S100000, .f32⟩) (p2 : main_v15.space ≠ .host) (p3 : main_v15.isScoped = false)
    (v : main_v15.ty.Contents (Elt Ideal)) :
    (StableHlo.TRef.of (T := ⟨S100000, .f32⟩) main_v15 p1 p2 p3).ofBuf (Val := Elt Ideal) v = v := rfl

theorem W2_v15 : W2 m ρ c (Proc.devRef .tc main_v15) = Cert.ReferenceIdeal.Read.val_main_v15 (F := Ideal) (m ((c : Thread nD τ).loc main_arg1)) (m ((c : Thread nD τ).loc main_arg3)) := by
  have h0 := W1_v13 m ρ c
  have h1 := W1_v14 m ρ c
  have h2 := W1_cst_2 m ρ c
  show StableHlo.after hostOps0_1 (W1 m ρ c) (Proc.devRef .tc main_v15) = _
  generalize W1 m ρ c = V at h0 h1 h2 ⊢
  after_results_simp
  simp only [toBuf_main_cst_2, ofBuf_main_cst_2, toBuf_main_call0_v0, ofBuf_main_call0_v0, toBuf_main_call0_v1, ofBuf_main_call0_v1, toBuf_main_v13, ofBuf_main_v13, toBuf_main_v14, ofBuf_main_v14, toBuf_main_v15, ofBuf_main_v15]
  rw [h0, h1, h2]
  rfl

theorem W2_v3 : W2 m ρ c (Proc.devRef .tc main_v3) = Cert.ReferenceIdeal.Read.val_main_v3 (F := Ideal) (m ((c : Thread nD τ).loc main_arg1)) :=
  calc W2 m ρ c (Proc.devRef .tc main_v3)
    _ = W1 m ρ c (Proc.devRef .tc main_v3) := by host_keep
    _ = Cert.ReferenceIdeal.Read.val_main_v3 (F := Ideal) (m ((c : Thread nD τ).loc main_arg1)) := W1_v3 m ρ c

theorem W2_v6 : W2 m ρ c (Proc.devRef .tc main_v6) = Cert.ReferenceIdeal.Read.val_main_v6 (F := Ideal) (m ((c : Thread nD τ).loc main_arg1)) :=
  calc W2 m ρ c (Proc.devRef .tc main_v6)
    _ = W1 m ρ c (Proc.devRef .tc main_v6) := by host_keep
    _ = Cert.ReferenceIdeal.Read.val_main_v6 (F := Ideal) (m ((c : Thread nD τ).loc main_arg1)) := W1_v6 m ρ c

theorem W2_v8 : W2 m ρ c (Proc.devRef .tc main_v8) = Cert.ReferenceIdeal.Read.val_main_v8 (F := Ideal) (m ((c : Thread nD τ).loc main_arg3)) :=
  calc W2 m ρ c (Proc.devRef .tc main_v8)
    _ = W1 m ρ c (Proc.devRef .tc main_v8) := by host_keep
    _ = Cert.ReferenceIdeal.Read.val_main_v8 (F := Ideal) (m ((c : Thread nD τ).loc main_arg3)) := W1_v8 m ρ c

theorem W2_arg5 : W2 m ρ c (Proc.devRef .tc main_arg5) = (m ((c : Thread nD τ).loc main_arg5)) :=
  calc W2 m ρ c (Proc.devRef .tc main_arg5)
    _ = W1 m ρ c (Proc.devRef .tc main_arg5) := by host_keep
    _ = W0 m ρ c (Proc.devRef .tc main_arg5) := by host_keep
    _ = (m ((c : Thread nD τ).loc main_arg5)) := rfl

theorem W3_v31 : W3 m ρ c (Proc.devRef .tc main_v31) = Cert.ReferenceIdeal.Read.val_main_v31 (F := Ideal) (m ((c : Thread nD τ).loc main_arg1)) (m ((c : Thread nD τ).loc main_arg3)) := by
  have h0 := W2_v3 m ρ c
  have h1 := W2_v6 m ρ c
  have h2 := W2_v8 m ρ c
  have h3 := W2_v15 m ρ c
  show StableHlo.after hostOps0_2 (W2 m ρ c) (Proc.devRef .tc main_v31) = _
  generalize W2 m ρ c = V at h0 h1 h2 h3 ⊢
  after_results_simp
  rw [h0, h1, h2, h3]
  rfl

theorem W3_v32 : (W3 m ρ c (Proc.devRef .tc main_v32) : S128x64.Idx → EReal) = (m ((c : Thread nD τ).loc main_arg5)) := by
  have h0 := W2_arg5 m ρ c
  show StableHlo.after hostOps0_2 (W2 m ρ c) (Proc.devRef .tc main_v32) = _
  generalize W2 m ρ c = V at h0 ⊢
  after_results_simp
  rw [h0]
  rfl

theorem W4_v3 : W4 m ρ c (Proc.devRef .tc main_v3) = Cert.ReferenceIdeal.Read.val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_keep
    _ = Cert.ReferenceIdeal.Read.val_main_v3 (F := Ideal) (m ((c : Thread nD τ).loc main_arg1)) := W2_v3 m ρ c

theorem W4_v6 : W4 m ρ c (Proc.devRef .tc main_v6) = Cert.ReferenceIdeal.Read.val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by host_keep
    _ = Cert.ReferenceIdeal.Read.val_main_v6 (F := Ideal) (m ((c : Thread nD τ).loc main_arg1)) := W2_v6 m ρ c

theorem W4_v31 : W4 m ρ c (Proc.devRef .tc main_v31) = Cert.ReferenceIdeal.Read.val_main_v31 (F := Ideal) (m ((c : Thread nD τ).loc main_arg1)) (m ((c : Thread nD τ).loc main_arg3)) :=
  calc W4 m ρ c (Proc.devRef .tc main_v31)
    _ = W3 m ρ c (Proc.devRef .tc main_v31) := W4_of_ne m ρ c main_v31 (by decide)
    _ = Cert.ReferenceIdeal.Read.val_main_v31 (F := Ideal) (m ((c : Thread nD τ).loc main_arg1)) (m ((c : Thread nD τ).loc main_arg3)) := W3_v31 m ρ c

theorem W6_v3 : W6 m ρ c (Proc.devRef .tc main_v3) = Cert.ReferenceIdeal.Read.val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := by host_keep
    _ = Cert.ReferenceIdeal.Read.val_main_v3 (F := Ideal) (m ((c : Thread nD τ).loc main_arg1)) := W2_v3 m ρ c

theorem W6_v6 : W6 m ρ c (Proc.devRef .tc main_v6) = Cert.ReferenceIdeal.Read.val_main_v6 (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := by host_keep
    _ = Cert.ReferenceIdeal.Read.val_main_v6 (F := Ideal) (m ((c : Thread nD τ).loc main_arg1)) := W2_v6 m ρ c

theorem W6_v31 : W6 m ρ c (Proc.devRef .tc main_v31) = Cert.ReferenceIdeal.Read.val_main_v31 (F := Ideal) (m ((c : Thread nD τ).loc main_arg1)) (m ((c : Thread nD τ).loc main_arg3)) :=
  calc W6 m ρ c (Proc.devRef .tc main_v31)
    _ = W5 m ρ c (Proc.devRef .tc main_v31) := W6_of_ne m ρ c main_v31 (by decide)
    _ = W4 m ρ c (Proc.devRef .tc main_v31) := by host_keep
    _ = W3 m ρ c (Proc.devRef .tc main_v31) := W4_of_ne m ρ c main_v31 (by decide)
    _ = Cert.ReferenceIdeal.Read.val_main_v31 (F := Ideal) (m ((c : Thread nD τ).loc main_arg1)) (m ((c : Thread nD τ).loc main_arg3)) := W3_v31 m ρ c

end Cert.KernelIdeal.Whole

end
-- ==== Proof.Spec.lean ====
/-
  The whole-array functions this graph network is made of, at the ideal values (extended reals).

  `linear X W` is the matrix product: entry (r, c) is the sum over k of X[r,k] * W[k,c].
  `affRelu A s t` is a per-column affine map followed by the positive part: entry (r, c) is
  max (A[r,c] * s[0,c] + t[0,c]) 0, with s and t single rows.  A batch normalisation with frozen
  statistics, with its scale and shift folded into one row each, followed by a relu, is this map.
-/
import Idealize.ShloMosaic.PureOps.Ideal.Laws
import Idealize.ShloMosaic.Lib.ValueIdx

noncomputable section

namespace Cert.Gcn

open Idealize.ShloMosaic Idealize.ShloMosaic.ValueIdx

variable {R K C : ℕ} {φ₁ φ₂ φ₃ : FTy}

/-- The matrix product of an R-by-K matrix with a K-by-C matrix. -/
def linear (X : FVec Ideal ⟨2, ![R, K]⟩ φ₁) (W : FVec Ideal ⟨2, ![K, C]⟩ φ₂) : FVec Ideal ⟨2, ![R, C]⟩ φ₃ :=
  fun i => ∑ k : Fin K, X (ix2 (i 0) k) * W (ix2 k (i 1))

theorem linear_apply (X : FVec Ideal ⟨2, ![R, K]⟩ φ₁) (W : FVec Ideal ⟨2, ![K, C]⟩ φ₂) (i : (⟨2, ![R, C]⟩ : Shape).Idx) :
    linear (φ₃ := φ₃) X W i = ∑ k : Fin K, X (ix2 (i 0) k) * W (ix2 k (i 1)) := rfl

/-- A per-column affine map, scale row `s` and shift row `t`, followed by the positive part. -/
def affRelu (A : FVec Ideal ⟨2, ![R, C]⟩ φ₁) (s t : FVec Ideal ⟨2, ![1, C]⟩ φ₂) : FVec Ideal ⟨2, ![R, C]⟩ φ₃ :=
  fun i => max (A i * s (ix2 0 (i 1)) + t (ix2 0 (i 1))) 0

theorem affRelu_apply (A : FVec Ideal ⟨2, ![R, C]⟩ φ₁) (s t : FVec Ideal ⟨2, ![1, C]⟩ φ₂) (i : (⟨2, ![R, C]⟩ : Shape).Idx) :
    affRelu (φ₃ := φ₃) A s t i = max (A i * s (ix2 0 (i 1)) + t (ix2 0 (i 1))) 0 := rfl

/-- A bias row added to every row of a matrix. -/
def addRow (A : FVec Ideal ⟨2, ![R, C]⟩ φ₁) (b : FVec Ideal ⟨2, ![1, C]⟩ φ₂) : FVec Ideal ⟨2, ![R, C]⟩ φ₃ :=
  fun i => A i + b (ix2 0 (i 1))

theorem addRow_apply (A : FVec Ideal ⟨2, ![R, C]⟩ φ₁) (b : FVec Ideal ⟨2, ![1, C]⟩ φ₂) (i : (⟨2, ![R, C]⟩ : Shape).Idx) :
    addRow (φ₃ := φ₃) A b i = A i + b (ix2 0 (i 1)) := rfl

/-- The largest entry of row `r` (the bottom element for an empty row). -/
def rowMax (L : FVec Ideal ⟨2, ![R, C]⟩ φ₁) (r : Fin R) : EReal :=
  (Finset.univ : Finset (Fin C)).fold max ⊥ (fun k => L (ix2 r k))

/-- The logarithm of the softmax of each row, computed the stable way: shift the row by its largest entry,
    then subtract the logarithm of the sum of the exponentials of the shifted row. -/
def logSoftmax (L : FVec Ideal ⟨2, ![R, C]⟩ φ₁) : FVec Ideal ⟨2, ![R, C]⟩ φ₃ :=
  fun i => (L i - rowMax L (i 0)) - Ideal.log (∑ k : Fin C, Ideal.exp (L (ix2 (i 0) k) - rowMax L (i 0)))

theorem logSoftmax_apply (L : FVec Ideal ⟨2, ![R, C]⟩ φ₁) (i : (⟨2, ![R, C]⟩ : Shape).Idx) :
    logSoftmax (φ₃ := φ₃) L i
      = (L i - rowMax L (i 0)) - Ideal.log (∑ k : Fin C, Ideal.exp (L (ix2 (i 0) k) - rowMax L (i 0))) := rfl

variable {H : ℕ} {φ₄ φ₅ φ₆ : FTy}

/-- The classifier head: a linear layer, the folded normalisation with relu, a second linear layer with its
    bias, and the row-wise log-softmax. -/
def head (P : FVec Ideal ⟨2, ![R, K]⟩ φ₁) (W1 : FVec Ideal ⟨2, ![K, H]⟩ φ₂) (s t : FVec Ideal ⟨2, ![1, H]⟩ φ₃)
    (W2 : FVec Ideal ⟨2, ![H, C]⟩ φ₄) (b : FVec Ideal ⟨2, ![1, C]⟩ φ₅) : FVec Ideal ⟨2, ![R, C]⟩ φ₆ :=
  logSoftmax (φ₃ := φ₆) (addRow (φ₃ := .f32) (linear (φ₃ := .f32) (affRelu (φ₃ := .f32) (linear (φ₃ := .f32) P W1) s t) W2) b)

end Cert.Gcn

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Region0.lean ====
/-
  The first linear layer, at the ideal values: what the output array holds once every grid point has run.

  The grid has ten points. Point t reads rows 10000 t … 10000 t + 9999 of the 100000-by-128 left array and the whole
  128-by-64 weight matrix, multiplies them, and writes the 10000-by-64 product back as rows 10000 t … 10000 t + 9999 of
  the 100000-by-64 output array. An entry of the product of a row block with the weights depends only on that row of the
  left array, so each written block is the matching block of the product of the two whole arrays; the ten row blocks
  tile the output, so the output ends as that product.
-/
import proofs.«149865_j85899345950_2_alg».proof.Proof.Gen.KernelIdeal.Frame
import proofs.«149865_j85899345950_2_alg».proof.Proof.Spec
import proofs.«149865_j85899345950_2_alg».proof.Proof.LibMatmulSum
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

/-- The block indices of the three windows over the grid: the left operand and the output move one row block per
    point, the weights stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of the left operand: its entry (p, k) is entry (10000 t + p, k) of the array. -/
theorem rows0_apply (c : Dev nD) (t : Fin cfg0.N) (a : S10000x128.Idx) (b : S100000x128.Idx)
    (h0 : (b 0).val = t.val * 10000 + (a 0).val) (h1 : (b 1).val = (a 1).val) :
    (iblk0 V c 0 t : Vec Ideal S10000x128 .f32) a = (V c (Pipeline.arrRef spec0 0) : S100000x128.Idx → Ideal .f32) b := by
  obtain ⟨e0, e1, -, -, -, -⟩ := idx0 t
  unfold iblk0
  rw [View.read_apply]
  show V c (Pipeline.arrRef spec0 0) _ = V c (Pipeline.arrRef spec0 0) _
  congr 1
  funext x
  apply Fin.ext
  match x with
  | ⟨0, _⟩ => show win0_0.index t (0 : Fin 2) * 10000 + 1 * (a 0).val = (b 0).val; rw [e0, h0]; omega
  | ⟨1, _⟩ => show win0_0.index t (1 : Fin 2) * 128 + 1 * (a 1).val = (b 1).val; rw [e1, h1]; omega

/-- The weight window's block is the whole weight matrix at every point. -/
theorem weight0_eq (c : Dev nD) (t : Fin cfg0.N) :
    (iblk0 V c 1 t : Vec Ideal S128x64 .bf16) = (V c (Pipeline.arrRef spec0 1) : S128x64.Idx → Ideal .bf16) := by
  obtain ⟨-, -, e0, e1, -, -⟩ := idx0 t
  funext a
  unfold iblk0
  rw [View.read_apply]
  show V c (Pipeline.arrRef spec0 1) _ = V c (Pipeline.arrRef spec0 1) _
  congr 1
  funext x
  apply Fin.ext
  match x with
  | ⟨0, _⟩ => show win0_1.index t (0 : Fin 2) * 128 + 1 * (a 0).val = (a 0).val; rw [e0]; omega
  | ⟨1, _⟩ => show win0_1.index t (1 : Fin 2) * 64 + 1 * (a 1).val = (a 1).val; rw [e1]; omega

/-- An index of the output array is in point t's block exactly when each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every index of the output array is in the block of the point numbered by its row divided by 10000. -/
theorem cover0 (i : S100000x64.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  let t : Fin cfg0.N := ⟨(i 0).val / 10000, by rw [hN]; omega⟩
  obtain ⟨-, -, -, -, e0, e1⟩ := idx0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- The body's stored block, entry by entry: row p of the row block times column q of the weights. -/
theorem pay0_apply (x : FVec Ideal S10000x128 .f32) (w : FVec Ideal S128x64 .bf16) (p : Fin 10000) (q : Fin 64) :
    (k0_pay1 (F := Ideal) x w (ix2 p q) : EReal) = ∑ k : Fin 128, x (ix2 p k) * w (ix2 k q) := by
  unfold k0_pay1
  rw [shapeCast_self]
  show FloatOps.matmul dot_S10000x128_S128x64_S10000x64_1_0_0_1_n_n none (truncf .bf16 x bitsLt_bf16_f32) w (constant (F := Ideal) ⟨2, ![10000, 64]⟩ .f32 0x00000000#32) (ix2 p q) = _
  exact Cert.GraphConv.matmul_zero_sum (R := 10000) (K := 128) (N := 64) (φ₁ := .bf16) (φ₂ := .bf16) dot_S10000x128_S128x64_S10000x64_1_0_0_1_n_n none rfl rfl (fun i q => rfl) (fun i q => rfl) (fun i q => rfl) (fun i q => rfl) (truncf .bf16 x bitsLt_bf16_f32) w (ix2 p q)

/-- An entry of the stored block is the matching entry of the product of the whole arrays, when the row block holds rows
    10000 n … 10000 n + 9999 of the left array and the weight block is the whole right array. -/
theorem block0_entry (X : FVec Ideal ⟨2, ![100000, 128]⟩ .f32) (W : FVec Ideal ⟨2, ![128, 64]⟩ .bf16) (n : Nat)
    (x : FVec Ideal S10000x128 .f32) (w : FVec Ideal S128x64 .bf16)
    (hx : ∀ (a : S10000x128.Idx) (b : S100000x128.Idx), (b 0).val = n * 10000 + (a 0).val → (b 1).val = (a 1).val → x a = X b)
    (hw : w = W) (j : S10000x64.Idx) (i : S100000x64.Idx)
    (hi0 : (i 0).val = n * 10000 + (j 0).val) (hi1 : (i 1).val = (j 1).val) :
    (k0_pay1 (F := Ideal) x w j : EReal) = Cert.Gcn.linear (φ₃ := .bf16) X W i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hr : r.val = n * 10000 + p.val := hi0
  obtain rfl : s = q := Fin.ext hi1
  rw [pay0_apply, hw]
  show ∑ k : Fin 128, x (ix2 p k) * W (ix2 k s) = ∑ k : Fin 128, X (ix2 r k) * W (ix2 k s)
  refine Finset.sum_congr rfl fun k _ => ?_
  rw [hx (ix2 p k) (ix2 r k) hr rfl]

/-- The zero offsets of a whole-block access, as a constant function. -/
theorem hz0 : (![0, 0] : Fin 2 → Nat) = fun _ => 0 := funext fun a => by fin_cases a <;> rfl

/-- What a point writes back is its block of the product of the two arrays as the region finds them. -/
theorem flushed0_eq (c : Dev nD) (t : Fin cfg0.N) :
    (Gen.dat0 (F := Ideal) V c).flushed 2 t = ((cfg0.win 2).blk t).view.read (Elt Ideal)
      (Cert.Gcn.linear (R := 100000) (K := 128) (C := 64) (φ₁ := .f32) (φ₂ := .bf16) (φ₃ := .bf16) (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  obtain ⟨-, -, -, -, e0, e1⟩ := idx0 t
  funext j
  refine block0_entry (V c (Pipeline.arrRef spec0 0)) (V c (Pipeline.arrRef spec0 1)) t.val (iblk0 V c 0 t) (iblk0 V c 1 t)
    (fun a b h0 h1 => rows0_apply V c t a b h0 h1) (weight0_eq V c t) j _ ?_ ?_
  · show win0_2.index t (0 : Fin 2) * 10000 + 1 * (j 0).val = t.val * 10000 + (j 0).val; rw [e0]; omega
  · show win0_2.index t (1 : Fin 2) * 64 + 1 * (j 1).val = (j 1).val; rw [e1]; omega

/-- The output array after region 0: the product of the two arrays the region found. -/
theorem final0 (c : Dev nD) :
    (Gen.dat0 (F := Ideal) V c).arrAt 2 cfg0.N
      = Cert.Gcn.linear (R := 100000) (K := 128) (C := 64) (φ₁ := .f32) (φ₂ := .bf16) (φ₃ := .bf16) (V c (Pipeline.arrRef spec0 0)) (V c (Pipeline.arrRef spec0 1)) :=
  (Gen.dat0 (F := Ideal) V c).arrAt_eq_of_cover 2 _ (fun t _ => flushed0_eq V c t) cover0

end Cert.KernelIdeal.Blocks

end
-- ==== Proof.Hw0.lean ====
/-
  The first feature transform: the reference's matrix product of the node features with the first weight
  matrix is the matrix product of the specification, entry by entry the sum over the 128 input channels.
-/
import proofs.«149865_j85899345950_2_alg».proof.Proof.Gen.ReferenceIdeal.Read
import proofs.«149865_j85899345950_2_alg».proof.Proof.Spec

noncomputable section

namespace Cert.Gcn.Bridge

open Idealize.ShloMosaic Idealize.ShloMosaic.ValueIdx Cert.ReferenceIdeal Cert.ReferenceIdeal.Read

theorem lidx_v32 (i : S100000x64.Idx) (k : Fin 128) : lidx_main_v32 i k = ix2 (i 0) k :=
  funext fun a => Fin.ext (by match a with | ⟨0, _⟩ => rfl | ⟨1, _⟩ => rfl)

theorem ridx_v32 (i : S100000x64.Idx) (k : Fin 128) : ridx_main_v32 i k = ix2 k (i 1) :=
  funext fun a => Fin.ext (by match a with | ⟨0, _⟩ => rfl | ⟨1, _⟩ => rfl)

/-- The reference's first product is the specification's product of the same two matrices. -/
theorem hw0_eq (x0 : FVec Ideal S100000x128 .f32) (x5 : FVec Ideal S128x64 .f32) :
    (Cert.Gcn.linear (R := 100000) (K := 128) (C := 64) (φ₃ := .f32) x0 x5 : FVec Ideal S100000x64 .f32)
      = val_main_v32 (F := Ideal) x0 x5 := by
  funext i
  rw [val_main_v32_apply, Cert.Gcn.linear_apply]
  refine Finset.sum_congr rfl fun k _ => ?_
  rw [lidx_v32, ridx_v32]
  rfl

end Cert.Gcn.Bridge

end
-- ==== Proof.KStage1.lean ====
/-
  The first graph convolution, on the kernel's side, up to the second kernel region.  Region 0 leaves the node
  features times the first weight matrix; the host gathers its rows along the edges, weighs them, and sums them
  into the target nodes, exactly as the reference does, and folds the first normalisation's scale and shift into
  one row each.  Each buffer is stated at the reference's stage value of the same arguments, or as its own term
  of the arguments.
-/
import proofs.«149865_j85899345950_2_alg».proof.Proof.KArgs
import proofs.«149865_j85899345950_2_alg».proof.Proof.KPrefix
import proofs.«149865_j85899345950_2_alg».proof.Proof.Region0
import proofs.«149865_j85899345950_2_alg».proof.Proof.Hw0
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- What region 0 leaves: the node features times the first weight matrix, the reference's first product. -/
theorem W4_v33 : (W4 m ρ c (Proc.devRef .tc main_v33) : S100000x64.Idx → EReal) = Cert.ReferenceIdeal.Read.val_main_v32 (F := Ideal) (m ((c : Thread nD τ).loc main_arg0)) (m ((c : Thread nD τ).loc main_arg5)) := by
  have e : W4 m ρ c (Proc.devRef .tc main_v33) = (dat0 (V3 m ρ) c).arrAt 2 cfg0.N := W4_arr m ρ c 2
  rw [e, Cert.KernelIdeal.Blocks.final0]
  show Cert.Gcn.linear (R := 100000) (K := 128) (C := 64) (φ₁ := .f32) (φ₂ := .bf16) (φ₃ := .bf16)
    (W3 m ρ c (Proc.devRef .tc main_arg0)) (W3 m ρ c (Proc.devRef .tc main_v32)) = _
  rw [W3_arg0, W3_v32]
  exact Cert.Gcn.Bridge.hw0_eq _ _

theorem W5_v47 : (W5 m ρ c (Proc.devRef .tc main_v47) : S100000x64.Idx → EReal) = Cert.ReferenceIdeal.Read.val_main_v45 (F := Ideal) (m ((c : Thread nD τ).loc main_arg0)) (m ((c : Thread nD τ).loc main_arg1)) (m ((c : Thread nD τ).loc main_arg3)) (m ((c : Thread nD τ).loc main_arg5)) := by
  have h0 := W4_v33 m ρ c
  have h1 := W4_v31 m ρ c
  have h2 := W4_v3 m ρ c
  have h3 := W4_v6 m ρ c
  show StableHlo.after hostOps1 (W4 m ρ c) (Proc.devRef .tc main_v47) = _
  generalize W4 m ρ c = V at h0 h1 h2 h3 ⊢
  after_results_simp
  rw [h0, h1, h2, h3]
  rfl

theorem W5_v56 : (W5 m ρ c (Proc.devRef .tc main_v56) : S1x64.Idx → EReal) = (shapeCast S1x64 (mulf (m ((c : Thread nD τ).loc main_arg7)) (Host.rsqrt (addf (m ((c : Thread nD τ).loc main_arg10)) (broadcastInDim S64 ![] bcast_S_S64 (constant (F := Ideal) S_ .f32 0x3727C5AC#32))))) shapeCasts_S64_S1x64) := by
  have h0 := W4_arg7 m ρ c
  have h1 := W4_arg10 m ρ c
  show StableHlo.after hostOps1 (W4 m ρ c) (Proc.devRef .tc main_v56) = _
  generalize W4 m ρ c = V at h0 h1 ⊢
  after_results_simp
  rw [h0, h1]
  rfl

theorem W5_v57 : (W5 m ρ c (Proc.devRef .tc main_v57) : S1x64.Idx → EReal) = (shapeCast S1x64 (addf (m ((c : Thread nD τ).loc main_arg8)) (mulf (subf (m ((c : Thread nD τ).loc main_arg6)) (m ((c : Thread nD τ).loc main_arg9))) (mulf (m ((c : Thread nD τ).loc main_arg7)) (Host.rsqrt (addf (m ((c : Thread nD τ).loc main_arg10)) (broadcastInDim S64 ![] bcast_S_S64 (constant (F := Ideal) S_ .f32 0x3727C5AC#32))))))) shapeCasts_S64_S1x64) := by
  have h0 := W4_arg6 m ρ c
  have h1 := W4_arg7 m ρ c
  have h2 := W4_arg8 m ρ c
  have h3 := W4_arg9 m ρ c
  have h4 := W4_arg10 m ρ c
  show StableHlo.after hostOps1 (W4 m ρ c) (Proc.devRef .tc main_v57) = _
  generalize W4 m ρ c = V at h0 h1 h2 h3 h4 ⊢
  after_results_simp
  rw [h0, h1, h2, h3, h4]
  rfl

theorem W5_v55 : (W5 m ρ c (Proc.devRef .tc main_v55) : S64x64.Idx → EReal) = (m ((c : Thread nD τ).loc main_arg11)) := by
  have h0 := W4_arg11 m ρ c
  show StableHlo.after hostOps1 (W4 m ρ c) (Proc.devRef .tc main_v55) = _
  generalize W4 m ρ c = V at h0 ⊢
  after_results_simp
  rw [h0]
  rfl

end Cert.KernelIdeal.Whole

end
-- ==== Proof.Region1.lean ====
/-
  The fused normalisation and second linear layer, at the ideal values: what the output array holds once every grid
  point has run.

  The grid has ten points. Point t reads rows 10000 t … 10000 t + 9999 of the 100000-by-64 input array, the whole
  scale row, the whole shift row and the whole 64-by-64 weight matrix. It multiplies each entry of the row block by its
  column's scale, adds its column's shift, takes the positive part, multiplies the result by the weights, and writes the
  10000-by-64 product back as rows 10000 t … 10000 t + 9999 of the 100000-by-64 output array. An entry of that product
  depends only on one row of the input array, so each written block is the matching block of the same function of the
  whole arrays; the ten row blocks tile the output, so the output ends as that function of the four arrays.
-/
import proofs.«149865_j85899345950_2_alg».proof.Proof.Gen.KernelIdeal.Frame
import proofs.«149865_j85899345950_2_alg».proof.Proof.Spec
import proofs.«149865_j85899345950_2_alg».proof.Proof.LibMatmulSum
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

/-- The block indices of the five windows over the grid: the input array and the output move one row block per
    point, the two rows and the weights stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row block t of the input array: its entry (p, k) is entry (10000 t + p, k) of the array. -/
theorem rows1_apply (c : Dev nD) (t : Fin cfg1.N) (a : S10000x64.Idx) (b : S100000x64.Idx)
    (h0 : (b 0).val = t.val * 10000 + (a 0).val) (h1 : (b 1).val = (a 1).val) :
    (iblk1 V c 0 t : Vec Ideal S10000x64 .f32) a = (V c (Pipeline.arrRef spec1 0) : S100000x64.Idx → Ideal .f32) b := by
  obtain ⟨e0, e1, -⟩ := idx1 t
  unfold iblk1
  rw [View.read_apply]
  show V c (Pipeline.arrRef spec1 0) _ = V c (Pipeline.arrRef spec1 0) _
  congr 1
  funext x
  apply Fin.ext
  match x with
  | ⟨0, _⟩ => show win1_0.index t (0 : Fin 2) * 10000 + 1 * (a 0).val = (b 0).val; rw [e0, h0]; omega
  | ⟨1, _⟩ => show win1_0.index t (1 : Fin 2) * 64 + 1 * (a 1).val = (b 1).val; rw [e1, h1]; omega

/-- The scale row's block is the whole row at every point. -/
theorem scale1_eq (c : Dev nD) (t : Fin cfg1.N) :
    (iblk1 V c 1 t : Vec Ideal S1x64 .f32) = (V c (Pipeline.arrRef spec1 1) : S1x64.Idx → Ideal .f32) := by
  obtain ⟨-, -, e0, e1, -⟩ := idx1 t
  funext a
  unfold iblk1
  rw [View.read_apply]
  show V c (Pipeline.arrRef spec1 1) _ = V c (Pipeline.arrRef spec1 1) _
  congr 1
  funext x
  apply Fin.ext
  match x with
  | ⟨0, _⟩ => show win1_1.index t (0 : Fin 2) * 1 + 1 * (a 0).val = (a 0).val; rw [e0]; omega
  | ⟨1, _⟩ => show win1_1.index t (1 : Fin 2) * 64 + 1 * (a 1).val = (a 1).val; rw [e1]; omega

/-- The shift row's block is the whole row at every point. -/
theorem shift1_eq (c : Dev nD) (t : Fin cfg1.N) :
    (iblk1 V c 2 t : Vec Ideal S1x64 .f32) = (V c (Pipeline.arrRef spec1 2) : S1x64.Idx → Ideal .f32) := by
  obtain ⟨-, -, -, -, e0, e1, -⟩ := idx1 t
  funext a
  unfold iblk1
  rw [View.read_apply]
  show V c (Pipeline.arrRef spec1 2) _ = V c (Pipeline.arrRef spec1 2) _
  congr 1
  funext x
  apply Fin.ext
  match x with
  | ⟨0, _⟩ => show win1_2.index t (0 : Fin 2) * 1 + 1 * (a 0).val = (a 0).val; rw [e0]; omega
  | ⟨1, _⟩ => show win1_2.index t (1 : Fin 2) * 64 + 1 * (a 1).val = (a 1).val; rw [e1]; omega

/-- The weight window's block is the whole weight matrix at every point. -/
theorem weight1_eq (c : Dev nD) (t : Fin cfg1.N) :
    (iblk1 V c 3 t : Vec Ideal S64x64 .bf16) = (V c (Pipeline.arrRef spec1 3) : S64x64.Idx → Ideal .bf16) := by
  obtain ⟨-, -, -, -, -, -, e0, e1, -⟩ := idx1 t
  funext a
  unfold iblk1
  rw [View.read_apply]
  show V c (Pipeline.arrRef spec1 3) _ = V c (Pipeline.arrRef spec1 3) _
  congr 1
  funext x
  apply Fin.ext
  match x with
  | ⟨0, _⟩ => show win1_3.index t (0 : Fin 2) * 64 + 1 * (a 0).val = (a 0).val; rw [e0]; omega
  | ⟨1, _⟩ => show win1_3.index t (1 : Fin 2) * 64 + 1 * (a 1).val = (a 1).val; rw [e1]; omega

/-- An index of the output array is in point t's block exactly when each coordinate is in the block's range. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v58).slice (win1_4.rect t)).set ↔ _
  rw [View.set_slice_whole, Rect.mem_set_unit]
  exact Iff.rfl

/-- Every index of the output array is in the block of the point numbered by its row divided by 10000. -/
theorem cover1 (i : S100000x64.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  let t : Fin cfg1.N := ⟨(i 0).val / 10000, by rw [hN]; omega⟩
  obtain ⟨-, -, -, -, -, -, -, -, e0, e1⟩ := idx1 t
  have ht : t.val = (i 0).val / 10000 := rfl
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; rw [e0, ht]; omega
  | ⟨1, _⟩ => show win1_4.index t (1 : Fin 2) * 64 ≤ (i 1).val ∧ (i 1).val < win1_4.index t (1 : Fin 2) * 64 + 64; rw [e1]; omega

/-- The body's stored block, entry by entry: row p of the row block, scaled and shifted column by column and cut
    off below at zero, times column q of the weights. -/
theorem pay1_apply (x : FVec Ideal S10000x64 .f32) (s u : FVec Ideal S1x64 .f32) (w : FVec Ideal S64x64 .bf16) (p : Fin 10000) (q : Fin 64) :
    (k1_pay1 (F := Ideal) x s u w (ix2 p q) : EReal)
      = ∑ k : Fin 64, max (x (ix2 p k) * s (ix2 (0 : Fin 1) k) + u (ix2 (0 : Fin 1) k)) 0 * w (ix2 k q) := by
  unfold k1_pay1
  simp only [shapeCast_self]
  show FloatOps.matmul dot_S10000x64_S64x64_S10000x64_1_0_0_1_n_n none _ w (constant (F := Ideal) ⟨2, ![10000, 64]⟩ .f32 0x00000000#32) (ix2 p q) = _
  refine (Cert.GraphConv.matmul_zero_sum (R := 10000) (K := 64) (N := 64) (φ₁ := .bf16) (φ₂ := .bf16) dot_S10000x64_S64x64_S10000x64_1_0_0_1_n_n none rfl rfl (fun i q => rfl) (fun i q => rfl) (fun i q => rfl) (fun i q => rfl) _ w (ix2 p q)).trans ?_
  refine Finset.sum_congr rfl fun k _ => ?_
  show max (x (ix2 p k) * broadcastTo S10000x64 s broadcasts_S1x64_S10000x64 (ix2 p k) + broadcastTo S10000x64 u broadcasts_S1x64_S10000x64 (ix2 p k)) (Ideal.ofBits .f32 0x00000000#32) * w (ix2 k q) = _
  rw [broadcastTo_1b_ab_apply, broadcastTo_1b_ab_apply, Ideal.ofBits_zero_f32]

/-- An entry of the stored block is the matching entry of the whole-array function, when the row block holds rows
    10000 n … 10000 n + 9999 of the input array and the other blocks are the whole rows and the whole weights. -/
theorem block1_entry (A : FVec Ideal ⟨2, ![100000, 64]⟩ .f32) (S U : FVec Ideal ⟨2, ![1, 64]⟩ .f32) (W : FVec Ideal ⟨2, ![64, 64]⟩ .bf16) (n : Nat)
    (x : FVec Ideal S10000x64 .f32) (s u : FVec Ideal S1x64 .f32) (w : FVec Ideal S64x64 .bf16)
    (hx : ∀ (a : S10000x64.Idx) (b : S100000x64.Idx), (b 0).val = n * 10000 + (a 0).val → (b 1).val = (a 1).val → x a = A b)
    (hs : s = S) (hu : u = U) (hw : w = W) (j : S10000x64.Idx) (i : S100000x64.Idx)
    (hi0 : (i 0).val = n * 10000 + (j 0).val) (hi1 : (i 1).val = (j 1).val) :
    (k1_pay1 (F := Ideal) x s u w j : EReal) = Cert.Gcn.linear (φ₃ := .bf16) (Cert.Gcn.affRelu (φ₃ := .f32) A S U) W i := by
  obtain ⟨p, q, rfl⟩ : ∃ (p : Fin 10000) (q : Fin 64), j = ix2 p q := ⟨j 0, j 1, eq_ix2 j⟩
  obtain ⟨r, z, rfl⟩ : ∃ (r : Fin 100000) (z : Fin 64), i = ix2 r z := ⟨i 0, i 1, eq_ix2 i⟩
  have hr : r.val = n * 10000 + p.val := hi0
  obtain rfl : z = q := Fin.ext hi1
  rw [pay1_apply, hs, hu, hw]
  show ∑ k : Fin 64, max (x (ix2 p k) * S (ix2 (0 : Fin 1) k) + U (ix2 (0 : Fin 1) k)) 0 * W (ix2 k z)
    = ∑ k : Fin 64, max (A (ix2 r k) * S (ix2 (0 : Fin 1) k) + U (ix2 (0 : Fin 1) k)) 0 * W (ix2 k z)
  refine Finset.sum_congr rfl fun k _ => ?_
  rw [hx (ix2 p k) (ix2 r k) hr rfl]

/-- The zero offsets of a whole-block access, as a constant function. -/
theorem hz1 : (![0, 0] : Fin 2 → Nat) = fun _ => 0 := funext fun a => by fin_cases a <;> rfl

/-- What a point writes back is its block of the whole-array function of the four arrays as the region finds them. -/
theorem flushed1_eq (c : Dev nD) (t : Fin cfg1.N) :
    (Gen.dat1 (F := Ideal) V c).flushed 4 t = ((cfg1.win 4).blk t).view.read (Elt Ideal)
      (Cert.Gcn.linear (R := 100000) (K := 64) (C := 64) (φ₁ := .f32) (φ₂ := .bf16) (φ₃ := .bf16)
        (Cert.Gcn.affRelu (R := 100000) (C := 64) (φ₁ := .f32) (φ₂ := .f32) (φ₃ := .f32)
          (V c (Pipeline.arrRef spec1 0)) (V c (Pipeline.arrRef spec1 1)) (V c (Pipeline.arrRef spec1 2)))
        (V c (Pipeline.arrRef spec1 3))) := by
  show (cfg1.win 4).cut (grid1.coords t) ((dat1 V c).after 4 t) = _
  rw [after1_4]
  unfold out1_4
  rw [View.canon_unit_zero hz1]
  simp only [View.ld_unit_zero (S := S10000x64) hz1, View.ld_unit_zero (S := S1x64) hz1, View.ld_unit_zero (S := S64x64) hz1]
  obtain ⟨-, -, -, -, -, -, -, -, e0, e1⟩ := idx1 t
  funext j
  refine block1_entry (V c (Pipeline.arrRef spec1 0)) (V c (Pipeline.arrRef spec1 1)) (V c (Pipeline.arrRef spec1 2)) (V c (Pipeline.arrRef spec1 3)) t.val
    (iblk1 V c 0 t) (iblk1 V c 1 t) (iblk1 V c 2 t) (iblk1 V c 3 t)
    (fun a b h0 h1 => rows1_apply V c t a b h0 h1) (scale1_eq V c t) (shift1_eq V c t) (weight1_eq V c t) j _ ?_ ?_
  · show win1_4.index t (0 : Fin 2) * 10000 + 1 * (j 0).val = t.val * 10000 + (j 0).val; rw [e0]; omega
  · show win1_4.index t (1 : Fin 2) * 64 + 1 * (j 1).val = (j 1).val; rw [e1]; omega

/-- The output array after region 1: the product with the weights of the input array scaled, shifted and cut off
    below at zero, all four arrays as the region found them. -/
theorem final1 (c : Dev nD) :
    (Gen.dat1 (F := Ideal) V c).arrAt 4 cfg1.N
      = Cert.Gcn.linear (R := 100000) (K := 64) (C := 64) (φ₁ := .f32) (φ₂ := .bf16) (φ₃ := .bf16)
        (Cert.Gcn.affRelu (R := 100000) (C := 64) (φ₁ := .f32) (φ₂ := .f32) (φ₃ := .f32)
          (V c (Pipeline.arrRef spec1 0)) (V c (Pipeline.arrRef spec1 1)) (V c (Pipeline.arrRef spec1 2)))
        (V c (Pipeline.arrRef spec1 3)) :=
  (Gen.dat1 (F := Ideal) V c).arrAt_eq_of_cover 4 _ (fun t _ => flushed1_eq V c t) cover1

end Cert.KernelIdeal.Blocks

end
-- ==== Proof.BnLaw.lean ====
/-
  The algebra that joins a batch normalisation written out in full to the same normalisation with its
  scale and shift folded in advance, on the extended reals.

  Written out: ((a + b) - m) * r * g + e.  Folded: a * (g * r) + (e + (b - m) * (g * r)).
  When b, m, g, r and e are real numbers the two agree for EVERY extended real a: the only law needed beyond
  commutativity and associativity is (a + d) * s = a * s + d * s for real d and s, and that one holds at the
  infinities too, because adding a real number to an infinity does not change it.
  The factor r is the reciprocal square root of v + eps; it is a real number as soon as v is a nonnegative
  real and eps a positive one.
-/
import Idealize.ShloMosaic.PureOps.Ideal.Laws

noncomputable section

namespace Cert.Gcn

open Idealize.ShloMosaic

/-- A real summand distributes over a real factor, whatever the other summand is. -/
theorem add_coe_mul_coe (a : EReal) (d s : ℝ) :
    (a + (d : EReal)) * (s : EReal) = a * (s : EReal) + (d : EReal) * (s : EReal) := by
  induction a using EReal.rec with
  | bot =>
    rw [EReal.bot_add]
    rcases lt_trichotomy s 0 with h | h | h
    · rw [EReal.bot_mul_coe_of_neg h, ← EReal.coe_mul, EReal.top_add_coe]
    · subst h; simp
    · rw [EReal.bot_mul_coe_of_pos h, EReal.bot_add]
  | coe x =>
    rw [← EReal.coe_add, ← EReal.coe_mul, ← EReal.coe_mul, ← EReal.coe_mul, ← EReal.coe_add]
    congr 1; ring
  | top =>
    rw [EReal.top_add_coe]
    rcases lt_trichotomy s 0 with h | h | h
    · rw [EReal.top_mul_coe_of_neg h, EReal.bot_add]
    · subst h; simp
    · rw [EReal.top_mul_coe_of_pos h, ← EReal.coe_mul, EReal.top_add_coe]

/-- The folded normalisation is the normalisation written out, for real parameters and any input. -/
theorem bn_fold (a : EReal) (b m g e r : ℝ) :
    a * ((g : EReal) * (r : EReal)) + ((e : EReal) + ((b : EReal) - (m : EReal)) * ((g : EReal) * (r : EReal)))
      = ((a + (b : EReal)) - (m : EReal)) * (r : EReal) * (g : EReal) + (e : EReal) := by
  have h1 : (a + (b : EReal)) - (m : EReal) = a + ((b - m : ℝ) : EReal) := by
    rw [sub_eq_add_neg, add_assoc, ← sub_eq_add_neg, ← EReal.coe_sub]
  have h2 : ((b : EReal) - (m : EReal)) = ((b - m : ℝ) : EReal) := (EReal.coe_sub b m).symm
  have h3 : (g : EReal) * (r : EReal) = ((g * r : ℝ) : EReal) := (EReal.coe_mul g r).symm
  rw [h1, h2, h3, mul_assoc, mul_comm (r : EReal) (g : EReal), h3, add_coe_mul_coe, add_assoc,
    add_comm (e : EReal)]

/-- The reciprocal square root of a positive real number is a real number. -/
theorem rsqrt_coe_of_pos {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.2 h.le), if_neg h.ne']

/-- The normalisation's epsilon, the single-precision number nearest 1e-5, is a positive real. -/
theorem eps_pos : ∃ p : ℝ, 0 < p ∧ Ideal.ofBits .f32 0x3727C5AC#32 = (p : EReal) := by
  refine ⟨10995116 * (2 : ℝ) ^ (-40 : ℤ), by positivity, ?_⟩
  simp [Ideal.ofBits, Ideal.ieee, -EReal.coe_mul]

/-- The reciprocal square root of a nonnegative real plus the epsilon is a real number. -/
theorem rsqrt_add_eps {v : ℝ} (hv : 0 ≤ v) :
    ∃ r : ℝ, Ideal.rsqrt ((v : EReal) + Ideal.ofBits .f32 0x3727C5AC#32) = (r : EReal) := by
  obtain ⟨p, hp, ep⟩ := eps_pos
  rw [ep, ← EReal.coe_add]
  exact ⟨_, rsqrt_coe_of_pos (by linarith)⟩

/-- The folded normalisation is the normalisation written out, at one entry: for real bias, mean, scale and
    shift, a nonnegative real variance, and ANY input. -/
theorem bn_fold_entry (a : EReal) {b g e m v : EReal} (hb : ∃ r : ℝ, b = (r : EReal)) (hg : ∃ r : ℝ, g = (r : EReal))
    (he : ∃ r : ℝ, e = (r : EReal)) (hm : ∃ r : ℝ, m = (r : EReal)) (hv : ∃ r : ℝ, 0 ≤ r ∧ v = (r : EReal)) :
    a * (g * Ideal.rsqrt (v + Ideal.ofBits .f32 0x3727C5AC#32))
        + (e + (b - m) * (g * Ideal.rsqrt (v + Ideal.ofBits .f32 0x3727C5AC#32)))
      = ((a + b) - m) * Ideal.rsqrt (v + Ideal.ofBits .f32 0x3727C5AC#32) * g + e := by
  obtain ⟨b, rfl⟩ := hb
  obtain ⟨g, rfl⟩ := hg
  obtain ⟨e, rfl⟩ := he
  obtain ⟨m, rfl⟩ := hm
  obtain ⟨v, hv0, rfl⟩ := hv
  obtain ⟨r, hr⟩ := rsqrt_add_eps hv0
  rw [hr]
  exact bn_fold a b m g e r

end Cert.Gcn

end
-- ==== Proof.PreScalar.lean ====
/-
  What the two element tests of the precondition say about one extended real.

  The finiteness test compares the absolute value with the infinity word: it passes exactly on the real numbers.
  The sign test compares with the zero word: it passes exactly on the nonnegative extended reals.
-/
import Idealize.ShloMosaic.PureOps.Ideal.Laws

noncomputable section

namespace Cert.Gcn

open Idealize.ShloMosaic

/-- The single-precision word of plus infinity denotes the top element. -/
theorem ofBits_inf : Ideal.ofBits .f32 0x7F800000#32 = (⊤ : EReal) := by
  simp [Ideal.ofBits, Ideal.ieee]

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- An extended real that passes the test "at least the zero word" is nonnegative. -/
theorem nonneg_of_ge_zero (x : EReal)
    (h : Ideal.cmp .oge x (Ideal.ofBits .f32 0x00000000#32) = 1#1) : 0 ≤ x := by
  rw [Ideal.ofBits_zero_f32] at h
  by_contra hn
  simp [Ideal.cmp, hn] at h

/-- A real number that is nonnegative as an extended real is a nonnegative real. -/
theorem real_nonneg {x : EReal} (hr : ∃ r : ℝ, x = (r : EReal)) (h0 : 0 ≤ x) : ∃ r : ℝ, 0 ≤ r ∧ x = (r : EReal) := by
  obtain ⟨r, rfl⟩ := hr
  exact ⟨r, by exact_mod_cast h0, rfl⟩

/-- Every entry is a real number. -/
def IsReal {S : Shape} (v : S.Idx → EReal) : Prop := ∀ i, ∃ r : ℝ, v i = (r : EReal)

/-- Every entry is a nonnegative real number. -/
def IsNonnegReal {S : Shape} (v : S.Idx → EReal) : Prop := ∀ i, ∃ r : ℝ, 0 ≤ r ∧ v i = (r : EReal)

/-- The five parameter vectors of one frozen batch normalisation — the layer's bias, the scale, the shift, the
    running mean and the running variance — are real, and the variance nonnegative. -/
structure BnParams {S : Shape} (b g e m v : S.Idx → EReal) : Prop where
  bias : IsReal b
  scale : IsReal g
  shift : IsReal e
  mean : IsReal m
  var : IsNonnegReal v

end Cert.Gcn

end
-- ==== Proof.Hw1.lean ====
/-
  Layer 0 after aggregation.  The kernel applies the folded normalisation with relu and multiplies by the second
  weight matrix; the reference adds the bias, normalises with the running statistics written out, rectifies,
  and multiplies by the same matrix.  Entry by entry the two inputs of the product agree — by the law that
  joins the folded and the written-out normalisation — so the products agree.
-/
import proofs.«149865_j85899345950_2_alg».proof.Proof.Gen.ReferenceIdeal.Read
import proofs.«149865_j85899345950_2_alg».proof.Proof.Spec
import proofs.«149865_j85899345950_2_alg».proof.Proof.BnLaw
import proofs.«149865_j85899345950_2_alg».proof.Proof.PreScalar

noncomputable section

namespace Cert.Gcn.Bridge

open Idealize.ShloMosaic Idealize.ShloMosaic.ValueIdx Cert.ReferenceIdeal Cert.ReferenceIdeal.Read

/-- The layer's bias, one value per column, read at an entry. -/
theorem bias0_at (x6 : (⟨S64, .f32⟩ : BufTy).Contents (Elt Ideal)) (r : Fin 100000) (k : Fin 64) :
    val_main_v47 (F := Ideal) x6 (ix2 r k) = x6 (ix1 k) := by
  rw [val_main_v47_apply, val_main_v46_apply]
  exact congrArg x6 (funext fun a => Fin.ext (by match a with | ⟨0, _⟩ => rfl))

/-- The running mean, one value per column, read at an entry. -/
theorem mean0_at (x9 : (⟨S64, .f32⟩ : BufTy).Contents (Elt Ideal)) (r : Fin 100000) (k : Fin 64) :
    val_main_v50 (F := Ideal) x9 (ix2 r k) = x9 (ix1 k) := by
  rw [val_main_v50_apply, val_main_v49_apply]
  exact congrArg x9 (funext fun a => Fin.ext (by match a with | ⟨0, _⟩ => rfl))

/-- The reciprocal square root of the variance plus the epsilon, one value per column, read at an entry. -/
theorem rsqrt0_at (x10 : (⟨S64, .f32⟩ : BufTy).Contents (Elt Ideal)) (r : Fin 100000) (k : Fin 64) :
    val_main_v56 (F := Ideal) x10 (ix2 r k) = Ideal.rsqrt (x10 (ix1 k) + Ideal.ofBits .f32 0x3727C5AC#32) := by
  have e : idx_main_v55 (idx_main_v56 (ix2 r k)) = ix1 k := funext fun a => Fin.ext (by match a with | ⟨0, _⟩ => rfl)
  rw [val_main_v56_apply, val_main_v55_apply, val_main_v54_apply, val_main_v53_apply, val_main_v52_apply, val_main_cst_9_apply, e]
  rfl

/-- The scale, one value per column, read at an entry. -/
theorem scale0_at (x7 : (⟨S64, .f32⟩ : BufTy).Contents (Elt Ideal)) (r : Fin 100000) (k : Fin 64) :
    val_main_v59 (F := Ideal) x7 (ix2 r k) = x7 (ix1 k) := by
  rw [val_main_v59_apply, val_main_v58_apply]
  exact congrArg x7 (funext fun a => Fin.ext (by match a with | ⟨0, _⟩ => rfl))

/-- The shift, one value per column, read at an entry. -/
theorem shift0_at (x8 : (⟨S64, .f32⟩ : BufTy).Contents (Elt Ideal)) (r : Fin 100000) (k : Fin 64) :
    val_main_v62 (F := Ideal) x8 (ix2 r k) = x8 (ix1 k) := by
  rw [val_main_v62_apply, val_main_v61_apply]
  exact congrArg x8 (funext fun a => Fin.ext (by match a with | ⟨0, _⟩ => rfl))

/-- Layer 0: the folded normalisation with relu, applied to the aggregated messages, is the reference's normalised and rectified layer output, entry by entry. -/
theorem bn0_entry (x0 : (⟨S100000x128, .f32⟩ : BufTy).Contents (Elt Ideal)) (x1 : (⟨S2x1000000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (hp : BnParams x6 x7 x8 x9 x10)
    (s t : FVec Ideal S1x64 .f32)
    (hs : ∀ k : Fin 64, s (ix2 0 k) = x7 (ix1 k) * Ideal.rsqrt (x10 (ix1 k) + Ideal.ofBits .f32 0x3727C5AC#32))
    (ht : ∀ k : Fin 64, t (ix2 0 k) = x8 (ix1 k) + (x6 (ix1 k) - x9 (ix1 k))
      * (x7 (ix1 k) * Ideal.rsqrt (x10 (ix1 k) + Ideal.ofBits .f32 0x3727C5AC#32)))
    (r : Fin 100000) (k : Fin 64) :
    max (val_main_v45 (F := Ideal) x0 x1 x3 x5 (ix2 r k) * s (ix2 0 k) + t (ix2 0 k)) 0 = val_main_v64 (F := Ideal) x0 x1 x3 x5 x6 x7 x8 x9 x10 (ix2 r k) := by
  rw [val_main_v64_apply, val_main_v63_apply, val_main_v60_apply, val_main_v57_apply, val_main_v51_apply, val_main_v48_apply,
    bias0_at, mean0_at, rsqrt0_at, scale0_at, shift0_at, val_main_call1_v0_apply, val_main_call1_cst_apply, hs, ht]
  generalize val_main_v45 (F := Ideal) x0 x1 x3 x5 (ix2 r k) = a
  show max (a * (x7 (ix1 k) * Ideal.rsqrt (x10 (ix1 k) + Ideal.ofBits .f32 0x3727C5AC#32))
        + (x8 (ix1 k) + (x6 (ix1 k) - x9 (ix1 k)) * (x7 (ix1 k) * Ideal.rsqrt (x10 (ix1 k) + Ideal.ofBits .f32 0x3727C5AC#32)))) 0
      = max (((a + x6 (ix1 k)) - x9 (ix1 k)) * Ideal.rsqrt (x10 (ix1 k) + Ideal.ofBits .f32 0x3727C5AC#32) * x7 (ix1 k) + x8 (ix1 k))
          (Ideal.ofBits .f32 0x00000000#32)
  rw [Ideal.ofBits_zero_f32, bn_fold_entry a (hp.bias (ix1 k)) (hp.scale (ix1 k)) (hp.shift (ix1 k)) (hp.mean (ix1 k)) (hp.var (ix1 k))]

theorem lidx_v65 (i : S100000x64.Idx) (k : Fin 64) : lidx_main_v65 i k = ix2 (i 0) k :=
  funext fun a => Fin.ext (by match a with | ⟨0, _⟩ => rfl | ⟨1, _⟩ => rfl)

theorem ridx_v65 (i : S100000x64.Idx) (k : Fin 64) : ridx_main_v65 i k = ix2 k (i 1) :=
  funext fun a => Fin.ext (by match a with | ⟨0, _⟩ => rfl | ⟨1, _⟩ => rfl)

/-- The kernel's second feature transform, on the folded layer-0 output, is the reference's. -/
theorem hw1_eq (x0 : (⟨S100000x128, .f32⟩ : BufTy).Contents (Elt Ideal)) (x1 : (⟨S2x1000000, .i32⟩ : BufTy).Contents (Elt Ideal)) (x3 : (⟨S1000000, .f32⟩ : BufTy).Contents (Elt Ideal)) (x5 : (⟨S128x64, .f32⟩ : BufTy).Contents (Elt Ideal))
    (x6 x7 x8 x9 x10 : (⟨S64, .f32⟩ : BufTy).Contents (Elt Ideal)) (x11 : (⟨S64x64, .f32⟩ : BufTy).Contents (Elt Ideal)) (hp : BnParams x6 x7 x8 x9 x10)
    (s t : FVec Ideal S1x64 .f32)
    (hs : ∀ k : Fin 64, s (ix2 0 k) = x7 (ix1 k) * Ideal.rsqrt (x10 (ix1 k) + Ideal.ofBits .f32 0x3727C5AC#32))
    (ht : ∀ k : Fin 64, t (ix2 0 k) = x8 (ix1 k) + (x6 (ix1 k) - x9 (ix1 k))
      * (x7 (ix1 k) * Ideal.rsqrt (x10 (ix1 k) + Ideal.ofBits .f32 0x3727C5AC#32))) :
    (Cert.Gcn.linear (R := 100000) (K := 64) (C := 64) (φ₁ := .f32) (φ₂ := .f32) (φ₃ := .f32)
        (Cert.Gcn.affRelu (R := 100000) (C := 64) (φ₁ := .f32) (φ₂ := .f32) (φ₃ := .f32) (val_main_v45 (F := Ideal) x0 x1 x3 x5) s t) x11
      : FVec Ideal S100000x64 .f32)
      = val_main_v65 (F := Ideal) x0 x1 x3 x5 x6 x7 x8 x9 x10 x11 := by
  funext i
  rw [val_main_v65_apply, Cert.Gcn.linear_apply]
  refine Finset.sum_congr rfl fun k _ => ?_
  rw [lidx_v65, ridx_v65]
  exact congrArg (· * x11 (ix2 k (i 1))) (bn0_entry x0 x1 x3 x5 x6 x7 x8 x9 x10 hp s t hs ht (i 0) k)

end Cert.Gcn.Bridge

end
-- ==== Proof.RowFold.lean ====
/-
  The folded scale and shift of a frozen batch normalisation, as the kernel's wrapper computes them — the scale
  g * rsqrt (v + eps), the shift e + (b - m) * scale, each reshaped from a vector of C entries to one row — read at
  an entry of the row.
-/
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx

variable {C : ℕ}

/-- A vector reshaped to a single row, read at an entry of the row. -/
theorem row_cast_apply {φ : FTy} (v : FVec Ideal ⟨1, ![C]⟩ φ) (h : (⟨1, ![C]⟩ : Shape).ShapeCasts ⟨2, ![1, C]⟩) (k : Fin C) :
    shapeCast ⟨2, ![1, C]⟩ v h (ix2 0 k) = v (ix1 k) :=
  (shapeCast_addUnit_apply ![C] v h (ix2 0 k)).trans
    (congrArg v (funext fun a => by match a with | ⟨0, _⟩ => rfl))

/-- The folded scale row at an entry. -/
theorem scale_row_apply (g v : FVec Ideal ⟨1, ![C]⟩ .f32) (hb : (⟨0, ![]⟩ : Shape).BroadcastsInDim ⟨1, ![C]⟩ ![])
    (h : (⟨1, ![C]⟩ : Shape).ShapeCasts ⟨2, ![1, C]⟩) (k : Fin C) :
    shapeCast ⟨2, ![1, C]⟩ (mulf g (Host.rsqrt (addf v (broadcastInDim ⟨1, ![C]⟩ ![] hb
        (constant (F := Ideal) ⟨0, ![]⟩ .f32 0x3727C5AC#32))))) h (ix2 0 k)
      = g (ix1 k) * Ideal.rsqrt (v (ix1 k) + Ideal.ofBits .f32 0x3727C5AC#32) := by
  rw [row_cast_apply]
  rfl

/-- The folded shift row at an entry. -/
theorem shift_row_apply (b g e m v : FVec Ideal ⟨1, ![C]⟩ .f32) (hb : (⟨0, ![]⟩ : Shape).BroadcastsInDim ⟨1, ![C]⟩ ![])
    (h : (⟨1, ![C]⟩ : Shape).ShapeCasts ⟨2, ![1, C]⟩) (k : Fin C) :
    shapeCast ⟨2, ![1, C]⟩ (addf e (mulf (subf b m) (mulf g (Host.rsqrt (addf v (broadcastInDim ⟨1, ![C]⟩ ![] hb
        (constant (F := Ideal) ⟨0, ![]⟩ .f32 0x3727C5AC#32))))))) h (ix2 0 k)
      = e (ix1 k) + (b (ix1 k) - m (ix1 k)) * (g (ix1 k) * Ideal.rsqrt (v (ix1 k) + Ideal.ofBits .f32 0x3727C5AC#32)) := by
  rw [row_cast_apply]
  rfl

end Cert.Gcn

end
-- ==== Proof.KStage1b.lean ====
/-
  The first graph convolution, on the kernel's side, through the second kernel region: it applies the folded
  normalisation with relu to the aggregated messages and multiplies by the second weight matrix, which is the
  reference's second product of its normalised and rectified layer-0 output.
-/
import proofs.«149865_j85899345950_2_alg».proof.Proof.KStage1
import proofs.«149865_j85899345950_2_alg».proof.Proof.Region1
import proofs.«149865_j85899345950_2_alg».proof.Proof.Hw1
import proofs.«149865_j85899345950_2_alg».proof.Proof.RowFold
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- What region 1 leaves: the reference's second product, of the normalised and rectified layer-0 output. -/
theorem W6_v58 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) :
    (W6 m ρ c (Proc.devRef .tc main_v58) : S100000x64.Idx → EReal) = Cert.ReferenceIdeal.Read.val_main_v65 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e : W6 m ρ c (Proc.devRef .tc main_v58) = (dat1 (V5 m ρ) c).arrAt 4 cfg1.N := W6_arr m ρ c 4
  rw [e, Cert.KernelIdeal.Blocks.final1]
  show Cert.Gcn.linear (R := 100000) (K := 64) (C := 64) (φ₁ := .f32) (φ₂ := .bf16) (φ₃ := .bf16)
    (Cert.Gcn.affRelu (R := 100000) (C := 64) (φ₁ := .f32) (φ₂ := .f32) (φ₃ := .f32)
      (W5 m ρ c (Proc.devRef .tc main_v47)) (W5 m ρ c (Proc.devRef .tc main_v56)) (W5 m ρ c (Proc.devRef .tc main_v57)))
    (W5 m ρ c (Proc.devRef .tc main_v55)) = _
  rw [W5_v47, W5_v56, W5_v57, W5_v55]
  exact Cert.Gcn.Bridge.hw1_eq _ _ _ _ _ _ _ _ _ _ hp _ _
    (fun k => Cert.Gcn.scale_row_apply _ _ _ _ k) (fun k => Cert.Gcn.shift_row_apply _ _ _ _ _ _ _ k)

end Cert.KernelIdeal.Whole

end
-- ==== Proof.Region2.lean ====
/-
  The third kernel of the network, as a whole-array statement.

  The kernel walks a [50000, 128] array in five blocks of ten thousand rows.  At each block it multiplies every
  entry by the entry of a scale row in the same column, adds the entry of a shift row in the same column, and
  keeps the positive part.  Every step is entry by entry, the two rows are the same at every block, and the five
  output blocks tile the output array, so the array the kernel leaves is the per-column affine map followed by
  the positive part, of the input array and the two rows as the kernel found them.
-/
import proofs.«149865_j85899345950_2_alg».proof.Proof.Gen.KernelIdeal.Frame
import proofs.«149865_j85899345950_2_alg».proof.Proof.Spec
import Idealize.ShloMosaic.Lib.Pipeline.Value
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets2 : (![0, 0] : Fin 2 → Nat) = fun _ => 0 := funext fun a => by fin_cases a <;> rfl

/-- What the body stores, entry by entry: the block's entry times the scale row's entry of its column, plus the
    shift row's entry of its column, and then the positive part. -/
theorem k2_pay1_apply (x0 : FVec Ideal S10000x128 .f32) (x1 x2 : FVec Ideal S1x128 .f32) (p : Fin 10000) (q : Fin 128) :
    Gen.k2_pay1 (F := Ideal) x0 x1 x2 (ix2 p q) = max (x0 (ix2 p q) * x1 (ix2 (0 : Fin 1) q) + x2 (ix2 (0 : Fin 1) q)) 0 := by
  unfold Gen.k2_pay1
  simp only [shapeCast_self]
  rw [maximumf_apply, addf_apply, mulf_apply, broadcast_apply, broadcastTo_1b_ab_apply, broadcastTo_1b_ab_apply]
  rw [show (Scalar.ofBits (F := Ideal) .f32 0x00000000#32) = (0 : EReal) from Ideal.ofBits_zero_f32]

/-- One entry of one block: if the block's entry is the array's entry at an index of the same column, and the two
    row blocks are the two rows, the stored entry is the whole-array map's entry there. -/
theorem entry2 (A : FVec Ideal S50000x128 .f32) (s t : FVec Ideal S1x128 .f32)
    (x0 : FVec Ideal S10000x128 .f32) (x1 x2 : FVec Ideal S1x128 .f32) (j : S10000x128.Idx) (i : S50000x128.Idx)
    (hi : (i 1).val = (j 1).val) (h0 : x0 j = A i)
    (h1 : ∀ q : Fin 128, x1 (ix2 (0 : Fin 1) q) = s (ix2 (0 : Fin 1) q))
    (h2 : ∀ q : Fin 128, x2 (ix2 (0 : Fin 1) q) = t (ix2 (0 : Fin 1) q)) :
    Gen.k2_pay1 (F := Ideal) x0 x1 x2 j = Cert.Gcn.affRelu (φ₃ := .f32) A s t i := by
  obtain ⟨p, q, rfl⟩ : ∃ (p : Fin 10000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi
  rw [k2_pay1_apply, Cert.Gcn.affRelu_apply, h0, h1, h2]

/-- The windows' block indices over the grid: the input block moves with the output block, which is block (t, 0);
    the two rows stay at block (0, 0). -/
theorem block_indices2 : ∀ t : Fin cfg2.N,
    win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` read at an entry is the array read where the output block's entry sits. -/
theorem read2_0 (c : Dev nD) (t : Fin cfg2.N) (j : S10000x128.Idx) :
    iblk2 V c 0 t j = V c (Pipeline.arrRef spec2 0) (((cfg2.win 3).blk t).view.emb j) := by
  obtain ⟨e0, e1, e2, e3, e4, e5, e6, e7⟩ := block_indices2 t
  show V c (Pipeline.arrRef spec2 0) (((cfg2.win 0).blk t).view.emb j) = V c (Pipeline.arrRef spec2 0) (((cfg2.win 3).blk t).view.emb j)
  refine congrArg (V c (Pipeline.arrRef spec2 0)) (funext fun a => Fin.ext ?_)
  match a with
  | ⟨0, _⟩ => show win2_0.index t (0 : Fin 2) * 10000 + 1 * (j 0).val = win2_3.index t (0 : Fin 2) * 10000 + 1 * (j 0).val; omega
  | ⟨1, _⟩ => show win2_0.index t (1 : Fin 2) * 128 + 1 * (j 1).val = win2_3.index t (1 : Fin 2) * 128 + 1 * (j 1).val; omega

/-- The scale row's block at any point is the scale row. -/
theorem read2_1 (c : Dev nD) (t : Fin cfg2.N) (q : Fin 128) :
    iblk2 V c 1 t (ix2 (0 : Fin 1) q) = V c (Pipeline.arrRef spec2 1) (ix2 (0 : Fin 1) q) := by
  obtain ⟨e0, e1, e2, e3, e4, e5, e6, e7⟩ := block_indices2 t
  show V c (Pipeline.arrRef spec2 1) (((cfg2.win 1).blk t).view.emb (ix2 (0 : Fin 1) q)) = V c (Pipeline.arrRef spec2 1) (ix2 (0 : Fin 1) q)
  refine congrArg (V c (Pipeline.arrRef spec2 1)) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The shift row's block at any point is the shift row. -/
theorem read2_2 (c : Dev nD) (t : Fin cfg2.N) (q : Fin 128) :
    iblk2 V c 2 t (ix2 (0 : Fin 1) q) = V c (Pipeline.arrRef spec2 2) (ix2 (0 : Fin 1) q) := by
  obtain ⟨e0, e1, e2, e3, e4, e5, e6, e7⟩ := block_indices2 t
  show V c (Pipeline.arrRef spec2 2) (((cfg2.win 2).blk t).view.emb (ix2 (0 : Fin 1) q)) = V c (Pipeline.arrRef spec2 2) (ix2 (0 : Fin 1) q)
  refine congrArg (V c (Pipeline.arrRef spec2 2)) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- What grid point `t` writes back is block `t` of the whole-array map of the arrays the region finds. -/
theorem flushed2_eq (c : Dev nD) (t : Fin cfg2.N) :
    (dat2 V c).flushed 3 t = ((cfg2.win 3).blk t).view.read (Elt Ideal)
      (Cert.Gcn.affRelu (φ₁ := .f32) (φ₂ := .f32) (φ₃ := .f32) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets2]
  simp only [View.ld_unit_zero (S := S10000x128) zero_offsets2, View.ld_unit_zero (S := S1x128) zero_offsets2]
  obtain ⟨e0, e1, e2, e3, e4, e5, e6, e7⟩ := block_indices2 t
  funext j
  show Gen.k2_pay1 (F := Ideal) (iblk2 V c 0 t) (iblk2 V c 1 t) (iblk2 V c 2 t) j
    = Cert.Gcn.affRelu (φ₁ := .f32) (φ₂ := .f32) (φ₃ := .f32) (V c (Pipeline.arrRef spec2 0)) (V c (Pipeline.arrRef spec2 1)) (V c (Pipeline.arrRef spec2 2)) (((cfg2.win 3).blk t).view.emb j)
  refine entry2 (V c (Pipeline.arrRef spec2 0)) (V c (Pipeline.arrRef spec2 1)) (V c (Pipeline.arrRef spec2 2))
    (iblk2 V c 0 t) (iblk2 V c 1 t) (iblk2 V c 2 t) j (((cfg2.win 3).blk t).view.emb j) ?_ (read2_0 V c t j) (read2_1 V c t) (read2_2 V c t)
  show win2_3.index t (1 : Fin 2) * 128 + 1 * (j 1).val = (j 1).val
  omega

/-- An index of the array is in point `t`'s block iff each coordinate is in the block's range on its axis. -/
theorem mem_block2 (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v85).slice (win2_3.rect t)).set ↔ _
  rw [View.set_slice_whole, Rect.mem_set_unit]
  exact Iff.rfl

/-- The five blocks of ten thousand rows cover the array: row `r` is in block `r / 10000`. -/
theorem covered2 (i : S50000x128.Idx) :
    ∃ t : Fin cfg2.N, (cfg2.win 3).flush t = true ∧ i ∈ ((cfg2.win 3).blk t).view.set := by
  have hi0 : (i 0).val < 50000 := idx2_lt0 i
  have hi1 : (i 1).val < 128 := idx2_lt1 i
  have hN : cfg2.N = 5 := N_2
  obtain ⟨t, ht⟩ : ∃ t : Fin cfg2.N, t.val = (i 0).val / 10000 := ⟨⟨(i 0).val / 10000, by rw [hN]; omega⟩, rfl⟩
  obtain ⟨e0, e1, e2, e3, e4, e5, e6, e7⟩ := block_indices2 t
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The array the region leaves: the per-column affine map followed by the positive part, of the arrays it found. -/
theorem final2 (c : Dev nD) :
    (Gen.dat2 (F := Ideal) V c).arrAt 3 cfg2.N
      = Cert.Gcn.affRelu (φ₁ := .f32) (φ₂ := .f32) (φ₃ := .f32) (V c (Pipeline.arrRef spec2 0)) (V c (Pipeline.arrRef spec2 1)) (V c (Pipeline.arrRef spec2 2)) :=
  (dat2 V c).arrAt_eq_of_cover 3 _ (fun t _ => flushed2_eq V c t) covered2

end Cert.KernelIdeal.Blocks

end
-- ==== Proof.LaneDense.lean ====
/-
  A per-column affine map with a positive part, computed on an array viewed with two rows to the lane.

  A 100000-by-64 array read in row-major order as a 50000-by-128 array puts rows 2 p and 2 p + 1 side by side in
  row p. Applying, on that view, the per-column map whose scale and shift rows are the 64-entry vectors written
  twice in a row, and reading the result back as 100000-by-64, is the per-column map of the 64-entry vectors on the
  original array.
-/
import proofs.«149865_j85899345950_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Gcn.Bridge

open Idealize.ShloMosaic Idealize.ShloMosaic.ValueIdx

variable {α : Type}

/-- A 64-entry vector written twice in a row, read at position c, is the vector at c modulo 64. -/
theorem concat_twice_apply (v : (⟨1, ![64]⟩ : Shape).Idx → α)
    (hc : Shape.Concatenates [⟨1, ![64]⟩, ⟨1, ![64]⟩] ⟨1, ![128]⟩ 0) (c : Fin 128) (k : Fin 64) (hk : c.val % 64 = k.val) :
    concatenate ⟨1, ![128]⟩ 0 [⟨⟨1, ![64]⟩, v⟩, ⟨⟨1, ![64]⟩, v⟩] hc (ix1 c) = v (ix1 k) := by
  have hc128 : c.val < 128 := c.isLt
  have hk64 : k.val < 64 := k.isLt
  by_cases hlt : c.val < 64
  · refine concatenate_pair_apply_left (0 : Fin 1) v v hc (ix1 c) rfl (ix1 k) fun b => ?_
    match b with
    | ⟨0, _⟩ => show k.val = c.val; omega
  · refine concatenate_pair_apply_right (0 : Fin 1) v v hc (ix1 c) rfl rfl (ix1 k) (fun b hb => ?_) ?_
    · exact absurd (Fin.ext (by show b.val = 0; have hb1 : b.val < 1 := b.isLt; omega)) hb
    · show k.val + 64 = c.val; omega

/-- The 100000-by-64 array read two rows at a time as a 50000-by-128 array, scaled and shifted column by column by
    the scale and shift vectors each written twice in a row, cut off below at zero, and read back as 100000-by-64,
    is the original array scaled and shifted column by column and cut off below at zero: entry (r, k) sits at
    position 64 r + k = 128 (r / 2) + (64 (r mod 2) + k), and column 64 (r mod 2) + k of the doubled vectors is
    column k of the originals. -/
theorem lane_dense (A : FVec Ideal ⟨2, ![100000, 64]⟩ .f32) (s t : FVec Ideal ⟨1, ![64]⟩ .f32)
    (h1 : (⟨2, ![100000, 64]⟩ : Shape).ShapeCasts ⟨2, ![50000, 128]⟩) (h2 : (⟨1, ![128]⟩ : Shape).ShapeCasts ⟨2, ![1, 128]⟩)
    (h3 : (⟨2, ![50000, 128]⟩ : Shape).ShapeCasts ⟨2, ![100000, 64]⟩)
    (hc : Shape.Concatenates [⟨1, ![64]⟩, ⟨1, ![64]⟩] ⟨1, ![128]⟩ 0) :
    shapeCast ⟨2, ![100000, 64]⟩ (Cert.Gcn.affRelu (R := 50000) (C := 128) (φ₁ := .f32) (φ₂ := .f32) (φ₃ := .f32)
        (shapeCast ⟨2, ![50000, 128]⟩ A h1)
        (shapeCast ⟨2, ![1, 128]⟩ (concatenate ⟨1, ![128]⟩ 0 [⟨⟨1, ![64]⟩, s⟩, ⟨⟨1, ![64]⟩, s⟩] hc) h2)
        (shapeCast ⟨2, ![1, 128]⟩ (concatenate ⟨1, ![128]⟩ 0 [⟨⟨1, ![64]⟩, t⟩, ⟨⟨1, ![64]⟩, t⟩] hc) h2)) h3
      = (fun i => max (A i * s (ix1 (i 1)) + t (ix1 (i 1))) 0 : FVec Ideal ⟨2, ![100000, 64]⟩ .f32) := by
  funext i
  obtain ⟨r, k, rfl⟩ : ∃ (r : Fin 100000) (k : Fin 64), i = ix2 r k := ⟨i 0, i 1, eq_ix2 i⟩
  have hr : r.val < 100000 := r.isLt
  have hk : k.val < 64 := k.isLt
  let p : Fin 50000 := ⟨r.val / 2, by omega⟩
  let q : Fin 128 := ⟨(r.val % 2) * 64 + k.val, by omega⟩
  have hp : p.val = r.val / 2 := rfl
  have hq : q.val = (r.val % 2) * 64 + k.val := rfl
  rw [shapeCast_apply _ h3 (ix2 r k) (ix2 p q) (by
    rw [Shape.rowMajor_val_two, Shape.rowMajor_val_two]
    show p.val * 128 + q.val = r.val * 64 + k.val
    omega)]
  rw [Cert.Gcn.affRelu_apply]
  show max (shapeCast ⟨2, ![50000, 128]⟩ A h1 (ix2 p q)
      * shapeCast ⟨2, ![1, 128]⟩ (concatenate ⟨1, ![128]⟩ 0 [⟨⟨1, ![64]⟩, s⟩, ⟨⟨1, ![64]⟩, s⟩] hc) h2 (ix2 (0 : Fin 1) q)
      + shapeCast ⟨2, ![1, 128]⟩ (concatenate ⟨1, ![128]⟩ 0 [⟨⟨1, ![64]⟩, t⟩, ⟨⟨1, ![64]⟩, t⟩] hc) h2 (ix2 (0 : Fin 1) q)) 0
    = max (A (ix2 r k) * s (ix1 k) + t (ix1 k)) 0
  rw [shapeCast_apply A h1 (ix2 p q) (ix2 r k) (by
    rw [Shape.rowMajor_val_two, Shape.rowMajor_val_two]
    show r.val * 64 + k.val = p.val * 128 + q.val
    omega)]
  rw [shapeCast_a_1a_apply, shapeCast_a_1a_apply,
    concat_twice_apply s hc q k (by omega), concat_twice_apply t hc q k (by omega)]

end Cert.Gcn.Bridge

end
-- ==== Proof.Hw2.lean ====
/-
  Layer 1 after aggregation: the folded normalisation with relu is the reference's bias, normalisation written
  out, and relu, entry by entry.
-/
import proofs.«149865_j85899345950_2_alg».proof.Proof.Gen.ReferenceIdeal.Read
import proofs.«149865_j85899345950_2_alg».proof.Proof.Spec
import proofs.«149865_j85899345950_2_alg».proof.Proof.BnLaw
import proofs.«149865_j85899345950_2_alg».proof.Proof.PreScalar

noncomputable section

namespace Cert.Gcn.Bridge

open Idealize.ShloMosaic Idealize.ShloMosaic.ValueIdx Cert.ReferenceIdeal Cert.ReferenceIdeal.Read

/-- The layer's bias, one value per column, read at an entry. -/
theorem bias1_at (x12 : (⟨S64, .f32⟩ : BufTy).Contents (Elt Ideal)) (r : Fin 100000) (k : Fin 64) :
    val_main_v80 (F := Ideal) x12 (ix2 r k) = x12 (ix1 k) := by
  rw [val_main_v80_apply, val_main_v79_apply]
  exact congrArg x12 (funext fun a => Fin.ext (by match a with | ⟨0, _⟩ => rfl))

/-- The running mean, one value per column, read at an entry. -/
theorem mean1_at (x15 : (⟨S64, .f32⟩ : BufTy).Contents (Elt Ideal)) (r : Fin 100000) (k : Fin 64) :
    val_main_v83 (F := Ideal) x15 (ix2 r k) = x15 (ix1 k) := by
  rw [val_main_v83_apply, val_main_v82_apply]
  exact congrArg x15 (funext fun a => Fin.ext (by match a with | ⟨0, _⟩ => rfl))

/-- The reciprocal square root of the variance plus the epsilon, one value per column, read at an entry. -/
theorem rsqrt1_at (x16 : (⟨S64, .f32⟩ : BufTy).Contents (Elt Ideal)) (r : Fin 100000) (k : Fin 64) :
    val_main_v89 (F := Ideal) x16 (ix2 r k) = Ideal.rsqrt (x16 (ix1 k) + Ideal.ofBits .f32 0x3727C5AC#32) := by
  have e : idx_main_v88 (idx_main_v89 (ix2 r k)) = ix1 k := funext fun a => Fin.ext (by match a with | ⟨0, _⟩ => rfl)
  rw [val_main_v89_apply, val_main_v88_apply, val_main_v87_apply, val_main_v86_apply, val_main_v85_apply, val_main_cst_13_apply, e]
  rfl

/-- The scale, one value per column, read at an entry. -/
theorem scale1_at (x13 : (⟨S64, .f32⟩ : BufTy).Contents (Elt Ideal)) (r : Fin 100000) (k : Fin 64) :
    val_main_v92 (F := Ideal) x13 (ix2 r k) = x13 (ix1 k) := by
  rw [val_main_v92_apply, val_main_v91_apply]
  exact congrArg x13 (funext fun a => Fin.ext (by match a with | ⟨0, _⟩ => rfl))

/-- The shift, one value per column, read at an entry. -/
theorem shift1_at (x14 : (⟨S64, .f32⟩ : BufTy).Contents (Elt Ideal)) (r : Fin 100000) (k : Fin 64) :
    val_main_v95 (F := Ideal) x14 (ix2 r k) = x14 (ix1 k) := by
  rw [val_main_v95_apply, val_main_v94_apply]
  exact congrArg x14 (funext fun a => Fin.ext (by match a with | ⟨0, _⟩ => rfl))

/-- Layer 1: the folded normalisation with relu, applied to the aggregated messages, is the reference's normalised and rectified layer output, entry by entry. -/
theorem bn1_entry (x0 : (⟨S100000x128, .f32⟩ : BufTy).Contents (Elt Ideal)) (x1 : (⟨S2x1000000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (x11 : (⟨S64x64, .f32⟩ : BufTy).Contents (Elt Ideal)) (x12 x13 x14 x15 x16 : (⟨S64, .f32⟩ : BufTy).Contents (Elt Ideal)) (hp : BnParams x12 x13 x14 x15 x16)
    (s t : FVec Ideal S1x64 .f32)
    (hs : ∀ k : Fin 64, s (ix2 0 k) = x13 (ix1 k) * Ideal.rsqrt (x16 (ix1 k) + Ideal.ofBits .f32 0x3727C5AC#32))
    (ht : ∀ k : Fin 64, t (ix2 0 k) = x14 (ix1 k) + (x12 (ix1 k) - x15 (ix1 k))
      * (x13 (ix1 k) * Ideal.rsqrt (x16 (ix1 k) + Ideal.ofBits .f32 0x3727C5AC#32)))
    (r : Fin 100000) (k : Fin 64) :
    max (val_main_v78 (F := Ideal) x0 x1 x3 x5 x6 x7 x8 x9 x10 x11 (ix2 r k) * s (ix2 0 k) + t (ix2 0 k)) 0 = val_main_v97 (F := Ideal) x0 x1 x3 x5 x6 x7 x8 x9 x10 x11 x12 x13 x14 x15 x16 (ix2 r k) := by
  rw [val_main_v97_apply, val_main_v96_apply, val_main_v93_apply, val_main_v90_apply, val_main_v84_apply, val_main_v81_apply,
    bias1_at, mean1_at, rsqrt1_at, scale1_at, shift1_at, val_main_call2_v0_apply, val_main_call2_cst_apply, hs, ht]
  generalize val_main_v78 (F := Ideal) x0 x1 x3 x5 x6 x7 x8 x9 x10 x11 (ix2 r k) = a
  show max (a * (x13 (ix1 k) * Ideal.rsqrt (x16 (ix1 k) + Ideal.ofBits .f32 0x3727C5AC#32))
        + (x14 (ix1 k) + (x12 (ix1 k) - x15 (ix1 k)) * (x13 (ix1 k) * Ideal.rsqrt (x16 (ix1 k) + Ideal.ofBits .f32 0x3727C5AC#32)))) 0
      = max (((a + x12 (ix1 k)) - x15 (ix1 k)) * Ideal.rsqrt (x16 (ix1 k) + Ideal.ofBits .f32 0x3727C5AC#32) * x13 (ix1 k) + x14 (ix1 k))
          (Ideal.ofBits .f32 0x00000000#32)
  rw [Ideal.ofBits_zero_f32, bn_fold_entry a (hp.bias (ix1 k)) (hp.scale (ix1 k)) (hp.shift (ix1 k)) (hp.mean (ix1 k)) (hp.var (ix1 k))]

end Cert.Gcn.Bridge

end
-- ==== Proof.KStage2.lean ====
/-
  The second graph convolution, on the kernel's side.  The host gathers the rows of region 1's product along the
  edges, weighs them, and sums them into the target nodes, exactly as the reference does with its own second
  product; it views the 100000-by-64 result two rows to the lane as 50000-by-128, and writes the folded scale and
  shift of the second normalisation twice in a row each.  Region 2 applies the per-column affine map with relu on
  that view, and the host reads the result back as 100000-by-64.  On the original array that is the per-column
  map of the 64-entry scale and shift, which, by the law that joins the folded and the written-out normalisation,
  is the reference's normalised and rectified layer-1 output.
-/
import proofs.«149865_j85899345950_2_alg».proof.Proof.KStage1b
import proofs.«149865_j85899345950_2_alg».proof.Proof.Region2
import proofs.«149865_j85899345950_2_alg».proof.Proof.LaneDense
import proofs.«149865_j85899345950_2_alg».proof.Proof.Hw2
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

/-- Two equal pairs of 64-entry vectors written one after the other give equal 128-entry vectors. -/
theorem concat_pair_congr {α : Type} {a b a' b' : S64.Idx → α} (ha : a = a') (hb : b = b') :
    concatenate S128 0 [⟨S64, a⟩, ⟨S64, b⟩] concatenates_S64_S64_S128_d0
      = concatenate S128 0 [⟨S64, a'⟩, ⟨S64, b'⟩] concatenates_S64_S64_S128_d0 := by
  subst ha hb; rfl

attribute [local congr] concat_pair_congr

/-- The host stretch read at one buffer, as one rewriting pass that also looks inside a pair written one after the other. -/
macro "stretch_results" : tactic =>
  `(tactic| (simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne']))

variable (m : (ℓ : Loc nD τ sig) → Buf (Elt Ideal) ℓ) (ρ : Dev nD → PrngReg) (c : Dev nD)

/-- The second aggregation: the host gathers the rows of region 1's product along the edges, weighs them, and sums
    them into the target nodes, as the reference does with its own second product. -/
theorem W7_v72 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) :
    (W7 m ρ c (Proc.devRef .tc main_v72) : S100000x64.Idx → EReal) = Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h0 := W6_v58 m ρ c hp
  have h1 := W6_v31 m ρ c
  have h2 := W6_v3 m ρ c
  have h3 := W6_v6 m ρ c
  show StableHlo.after hostOps2 (W6 m ρ c) (Proc.devRef .tc main_v72) = _
  generalize W6 m ρ c = V at h0 h1 h2 h3 ⊢
  after_results_simp
  rw [h0, h1, h2, h3]
  rfl

/-- The aggregated messages viewed two rows to the lane. -/
theorem W7_v80 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) :
    (W7 m ρ c (Proc.devRef .tc main_v80) : S50000x128.Idx → EReal) = (shapeCast S50000x128 (Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S100000x64_S50000x128) := by
  have h0 := W6_v58 m ρ c hp
  have h1 := W6_v31 m ρ c
  have h2 := W6_v3 m ρ c
  have h3 := W6_v6 m ρ c
  show StableHlo.after hostOps2 (W6 m ρ c) (Proc.devRef .tc main_v80) = _
  generalize W6 m ρ c = V at h0 h1 h2 h3 ⊢
  after_results_simp
  rw [h0, h1, h2, h3]
  rfl

/-- The second normalisation's folded scale, written twice in a row. -/
theorem W7_v82 : (W7 m ρ c (Proc.devRef .tc main_v82) : S1x128.Idx → EReal) = (shapeCast S1x128 (concatenate S128 0 [⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩, ⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩] concatenates_S64_S64_S128_d0) shapeCasts_S128_S1x128) := by
  have h0 := W6_arg13 m ρ c
  have h1 := W6_arg16 m ρ c
  show StableHlo.after hostOps2 (W6 m ρ c) (Proc.devRef .tc main_v82) = _
  generalize W6 m ρ c = V at h0 h1 ⊢
  stretch_results
  rw [h0, h1]
  rfl

/-- The second normalisation's folded shift, written twice in a row. -/
theorem W7_v84 : (W7 m ρ c (Proc.devRef .tc main_v84) : S1x128.Idx → EReal) = (shapeCast S1x128 (concatenate S128 0 [⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩, ⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩] concatenates_S64_S64_S128_d0) shapeCasts_S128_S1x128) := by
  have h0 := W6_arg12 m ρ c
  have h1 := W6_arg13 m ρ c
  have h2 := W6_arg14 m ρ c
  have h3 := W6_arg15 m ρ c
  have h4 := W6_arg16 m ρ c
  show StableHlo.after hostOps2 (W6 m ρ c) (Proc.devRef .tc main_v84) = _
  generalize W6 m ρ c = V at h0 h1 h2 h3 h4 ⊢
  stretch_results
  rw [h0, h1, h2, h3, h4]
  rfl

/-- What region 2 leaves: the folded normalisation with relu of the lane view of the aggregated messages. -/
theorem W8_v85 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) :
    (W8 m ρ c (Proc.devRef .tc main_v85) : S50000x128.Idx → EReal)
      = Cert.Gcn.affRelu (R := 50000) (C := 128) (φ₁ := .f32) (φ₂ := .f32) (φ₃ := .f32) (shapeCast S50000x128 (Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S100000x64_S50000x128) (shapeCast S1x128 (concatenate S128 0 [⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩, ⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩] concatenates_S64_S64_S128_d0) shapeCasts_S128_S1x128) (shapeCast S1x128 (concatenate S128 0 [⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩, ⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩] concatenates_S64_S64_S128_d0) shapeCasts_S128_S1x128) := by
  have e : W8 m ρ c (Proc.devRef .tc main_v85) = (dat2 (V7 m ρ) c).arrAt 3 cfg2.N := W8_arr m ρ c 3
  rw [e, Cert.KernelIdeal.Blocks.final2]
  show Cert.Gcn.affRelu (R := 50000) (C := 128) (φ₁ := .f32) (φ₂ := .f32) (φ₃ := .f32)
    (W7 m ρ c (Proc.devRef .tc main_v80)) (W7 m ρ c (Proc.devRef .tc main_v82)) (W7 m ρ c (Proc.devRef .tc main_v84)) = _
  rw [W7_v80 m ρ c hp, W7_v82, W7_v84]

/-- One entry: the folded second normalisation with relu of the aggregated messages is the reference's normalised and
    rectified layer-1 output there. -/
theorem lane_entry (hp1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) (r : Fin 100000) (k : Fin 64) :
    max ((Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Idealize.ShloMosaic.ValueIdx.ix2 r k) * (mulf (m ((c : Thread nD τ).loc main_arg13)) (Host.rsqrt (addf (m ((c : Thread nD τ).loc main_arg16)) (broadcastInDim S64 ![] bcast_S_S64 (constant (F := Ideal) S_ .f32 0x3727C5AC#32))))) (Idealize.ShloMosaic.ValueIdx.ix1 k) + (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32))))))) (Idealize.ShloMosaic.ValueIdx.ix1 k)) 0
      = Cert.ReferenceIdeal.Read.val_main_v97 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (Idealize.ShloMosaic.ValueIdx.ix2 r k) := by
  have key := Cert.Gcn.Bridge.bn1_entry (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) hp1
    (fun j => (mulf (m ((c : Thread nD τ).loc main_arg13)) (Host.rsqrt (addf (m ((c : Thread nD τ).loc main_arg16)) (broadcastInDim S64 ![] bcast_S_S64 (constant (F := Ideal) S_ .f32 0x3727C5AC#32))))) (Idealize.ShloMosaic.ValueIdx.ix1 (j 1))) (fun j => (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32))))))) (Idealize.ShloMosaic.ValueIdx.ix1 (j 1)))
    (fun k => (Cert.Gcn.row_cast_apply (mulf (m ((c : Thread nD τ).loc main_arg13)) (Host.rsqrt (addf (m ((c : Thread nD τ).loc main_arg16)) (broadcastInDim S64 ![] bcast_S_S64 (constant (F := Ideal) S_ .f32 0x3727C5AC#32))))) shapeCasts_S64_S1x64 k).symm.trans (Cert.Gcn.scale_row_apply (m ((c : Thread nD τ).loc main_arg13)) (m ((c : Thread nD τ).loc main_arg16)) bcast_S_S64 shapeCasts_S64_S1x64 k))
    (fun k => (Cert.Gcn.row_cast_apply (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32))))))) shapeCasts_S64_S1x64 k).symm.trans (Cert.Gcn.shift_row_apply (m ((c : Thread nD τ).loc main_arg12)) (m ((c : Thread nD τ).loc main_arg13)) (m ((c : Thread nD τ).loc main_arg14)) (m ((c : Thread nD τ).loc main_arg15)) (m ((c : Thread nD τ).loc main_arg16)) bcast_S_S64 shapeCasts_S64_S1x64 k))
    r k
  exact key

/-- The lane view read back: the reference's normalised and rectified layer-1 output. -/
theorem lane_value (hp1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) :
    shapeCast S100000x64 (Cert.Gcn.affRelu (R := 50000) (C := 128) (φ₁ := .f32) (φ₂ := .f32) (φ₃ := .f32) (shapeCast S50000x128 (Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S100000x64_S50000x128) (shapeCast S1x128 (concatenate S128 0 [⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩, ⟨S64, (mulf (m ((c : Thread nD τ).loc main_arg13)) (Host.rsqrt (addf (m ((c : Thread nD τ).loc main_arg16)) (broadcastInDim S64 ![] bcast_S_S64 (constant (F := Ideal) S_ .f32 0x3727C5AC#32)))))⟩] concatenates_S64_S64_S128_d0) shapeCasts_S128_S1x128) (shapeCast S1x128 (concatenate S128 0 [⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩, ⟨S64, (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))⟩] concatenates_S64_S64_S128_d0) shapeCasts_S128_S1x128)) shapeCasts_S50000x128_S100000x64
      = Cert.ReferenceIdeal.Read.val_main_v97 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (Cert.Gcn.Bridge.lane_dense (Cert.ReferenceIdeal.Read.val_main_v78 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (mulf (m ((c : Thread nD τ).loc main_arg13)) (Host.rsqrt (addf (m ((c : Thread nD τ).loc main_arg16)) (broadcastInDim S64 ![] bcast_S_S64 (constant (F := Ideal) S_ .f32 0x3727C5AC#32))))) (addf (m ((c : Thread nD τ).loc main_arg14)) (mulf (subf (m ((c : Thread nD τ).loc main_arg12)) (m ((c : Thread nD τ).loc main_arg15))) (mulf (m ((c : Thread nD τ).loc main_arg13)) (Host.rsqrt (addf (m ((c : Thread nD τ).loc main_arg16)) (broadcastInDim S64 ![] bcast_S_S64 (constant (F := Ideal) S_ .f32 0x3727C5AC#32)))))))
    shapeCasts_S100000x64_S50000x128 shapeCasts_S128_S1x128 shapeCasts_S50000x128_S100000x64 concatenates_S64_S64_S128_d0).trans ?_
  funext i
  obtain ⟨r, k, rfl⟩ : ∃ (r : Fin 100000) (k : Fin 64), i = Idealize.ShloMosaic.ValueIdx.ix2 r k := ⟨i 0, i 1, Idealize.ShloMosaic.ValueIdx.eq_ix2 i⟩
  exact lane_entry m c hp1 r k

/-- After the reshape back: the reference's layer-1 output. -/
theorem W9_v86 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) (hp1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) :
    (W9 m ρ c (Proc.devRef .tc main_v86) : S100000x64.Idx → EReal) = Cert.ReferenceIdeal.Read.val_main_v97 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h0 := W8_v85 m ρ c hp
  show StableHlo.after hostOps3 (W8 m ρ c) (Proc.devRef .tc main_v86) = _
  generalize W8 m ρ c = V at h0 ⊢
  after_results_simp
  rw [h0]
  exact lane_value m c hp1

/-- Region 2's output array, read back as 100000-by-64, is the reference's layer-1 output. -/
theorem W8_h2 (h0 : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) (h1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) :
    shapeCast S100000x64 (W8 m ρ c (Proc.devRef .tc main_v85) : S50000x128.Idx → EReal) shapeCasts_S50000x128_S100000x64
      = Cert.ReferenceIdeal.Read.val_main_v97 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W8_v85 m ρ c h0]
  exact lane_value m c h1

end Cert.KernelIdeal.Whole

end
-- ==== Proof.Region3Layout.lean ====
/-
  Columns and rows of a matrix, read at an index.

  A vector of length a viewed as a one-column matrix [a, 1] has at (i, 0) the vector's entry i, and a one-column
  matrix spread over b columns has at (p, c) the column's entry at row p: together they put a per-row quantity
  (a row's largest entry, a row's sum) back beside every entry of its row.  The largest entry of a row, taken as
  the fold of max from the bottom element over the row's columns, and the sum of a row over its columns, are what
  a reduction along the second axis leaves at the row's index.
-/
import Idealize.ShloMosaic.PureOps.Ideal.Laws
import Idealize.ShloMosaic.Lib.ValueLayout

noncomputable section

namespace Cert.Gcn.Rows

open Idealize.ShloMosaic Idealize.ShloMosaic.ValueIdx

variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of minus infinity is the bottom element. -/
theorem ofBits_neg_inf_f32 : Ideal.ofBits .f32 0xFF800000#32 = ⊥ := by simp [Ideal.ofBits, Ideal.ieee]

/-- A reduction by maximum along the columns, started from minus infinity, leaves at row `r` the fold of max
    from the bottom element over that row's entries. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max ⊥ (fun k => src (ix2 r k)) := by
  refine (Ideal.multiReduction_maximumf_single src _ h hφ hacc (ix1 r)).trans ?_
  rw [Ideal.ofBits_def, ofBits_neg_inf_f32]
  refine congrArg (fun f => (Finset.univ : Finset (Fin b)).fold max ⊥ f) (funext fun k => ?_)
  show src (h.lift (ix1 r) k) = src (ix2 r k)
  refine congrArg src (funext fun ax => Fin.ext ?_)
  match ax with
  | ⟨0, _⟩ => rfl
  | ⟨1, _⟩ => rfl

/-- A reduction by addition along the columns leaves at row `r` the sum of that row's entries. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => ?_
  refine congrArg src (funext fun ax => Fin.ext ?_)
  match ax with
  | ⟨0, _⟩ => rfl
  | ⟨1, _⟩ => rfl

end Cert.Gcn.Rows

end
-- ==== Proof.Region3Head.lean ====
/-
  The fourth kernel's stored value is the classifier head.

  The body multiplies the node features by the first weight matrix into a zero accumulator (a plain sum of
  products over the contracted axis at the ideal values, where a change of number format is the identity),
  applies the folded normalisation and keeps the positive part, multiplies by the second weight matrix and adds
  the bias row, and then takes the row-wise log-softmax the stable way: each row is shifted by its largest entry,
  and the logarithm of the sum of the exponentials of the shifted row is subtracted.  The row's largest entry and
  the row's sum come from reductions along the second axis, put back beside the row's entries through a
  one-column matrix.  Each of these four stages is the matching whole-array function of the specification, entry
  by entry, so the stored value is the specification's head of the six operands.
-/
import proofs.«149865_j85899345950_2_alg».proof.Proof.Gen.KernelIdeal.Skeleton
import proofs.«149865_j85899345950_2_alg».proof.Proof.Spec
import proofs.«149865_j85899345950_2_alg».proof.Proof.LibMatmulSum
import proofs.«149865_j85899345950_2_alg».proof.Proof.Region3Layout
import Idealize.ShloMosaic.PureOps.Ideal.Laws
import Idealize.ShloMosaic.Lib.ValueLayout

noncomputable section

namespace Cert.KernelIdeal.Blocks

open Cert.KernelIdeal Cert.KernelIdeal.Gen Idealize.ShloMosaic Idealize.ShloMosaic.ValueIdx

/-! ## The two matrix products' dimension records -/

theorem dot1_l0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
theorem dot1_r1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl
theorem dot2_l0 (i : S128x10.Idx) (q : dot_S128x32_S32x10_S128x10_1_0_0_1_n_n.contr.Idx) :
    (dot_S128x32_S32x10_S128x10_1_0_0_1_n_n.lhsIdx i q 0).val = (i 0).val := by
  unfold DotDims.lhsIdx
  rw [dif_neg (show ¬(0 : Fin S128x32.rank) ∈ dot_S128x32_S32x10_S128x10_1_0_0_1_n_n.lhsBatch by decide), dif_pos (show (0 : Fin S128x32.rank) ∈ dot_S128x32_S32x10_S128x10_1_0_0_1_n_n.lhsNonContracting by decide)]
  rfl
theorem dot2_r1 (i : S128x10.Idx) (q : dot_S128x32_S32x10_S128x10_1_0_0_1_n_n.contr.Idx) :
    (dot_S128x32_S32x10_S128x10_1_0_0_1_n_n.rhsIdx i q 1).val = (i 1).val := by
  unfold DotDims.rhsIdx
  rw [dif_neg (show ¬(1 : Fin S32x10.rank) ∈ dot_S128x32_S32x10_S128x10_1_0_0_1_n_n.rhsBatch by decide), dif_pos (show (1 : Fin S32x10.rank) ∈ dot_S128x32_S32x10_S128x10_1_0_0_1_n_n.rhsNonContracting by decide)]
  rfl

/-- The first product into a zero accumulator is the linear layer. -/
theorem product1 (l : FVec Ideal S128x64 .bf16) (r : FVec Ideal S64x32 .bf16) :
    matmul dot_S128x64_S64x32_S128x32_1_0_0_1_n_n none l r (constant (F := Ideal) S128x32 .f32 0x00000000#32)
      = Cert.Gcn.linear (φ₃ := .f32) l r :=
  funext fun i => Cert.GraphConv.matmul_zero_sum dot_S128x64_S64x32_S128x32_1_0_0_1_n_n none rfl rfl dot1_l0
    (fun i q => dot_S128x64_S64x32_S128x32_1_0_0_1_n_n.lhsIdx_val_of_single rfl i q)
    (fun i q => dot_S128x64_S64x32_S128x32_1_0_0_1_n_n.rhsIdx_val_of_single rfl i q) dot1_r1 l r i

/-- The second product into a zero accumulator is the linear layer. -/
theorem product2 (l : FVec Ideal S128x32 .bf16) (r : FVec Ideal S32x10 .bf16) :
    matmul dot_S128x32_S32x10_S128x10_1_0_0_1_n_n none l r (constant (F := Ideal) S128x10 .f32 0x00000000#32)
      = Cert.Gcn.linear (φ₃ := .f32) l r :=
  funext fun i => Cert.GraphConv.matmul_zero_sum dot_S128x32_S32x10_S128x10_1_0_0_1_n_n none rfl rfl dot2_l0
    (fun i q => dot_S128x32_S32x10_S128x10_1_0_0_1_n_n.lhsIdx_val_of_single rfl i q)
    (fun i q => dot_S128x32_S32x10_S128x10_1_0_0_1_n_n.rhsIdx_val_of_single rfl i q) dot2_r1 l r i

/-! ## The hidden layer, the logits, and the row-wise log-softmax -/

/-- The first layer: the linear layer, then the folded normalisation and the positive part. -/
theorem hidden_eq (x0 : FVec Ideal S128x64 .f32) (x1 : FVec Ideal S64x32 .bf16) (x2 x3 : FVec Ideal S1x32 .f32) :
    maximumf (addf (mulf (matmul dot_S128x64_S64x32_S128x32_1_0_0_1_n_n none (truncf .bf16 x0 bitsLt_bf16_f32) x1
          (constant (F := Ideal) S128x32 .f32 0x00000000#32))
        (broadcastTo S128x32 x2 broadcasts_S1x32_S128x32)) (broadcastTo S128x32 x3 broadcasts_S1x32_S128x32))
      (broadcast S128x32 (Scalar.ofBits (F := Ideal) .f32 0x00000000#32))
      = Cert.Gcn.affRelu (φ₃ := .f32) (Cert.Gcn.linear (φ₃ := .f32) x0 x1) x2 x3 := by
  rw [product1]
  funext i
  obtain ⟨p, q, rfl⟩ : ∃ (p : Fin 128) (q : Fin 32), i = ix2 p q := ⟨i 0, i 1, eq_ix2 i⟩
  rw [maximumf_apply, addf_apply, mulf_apply, broadcast_apply, broadcastTo_1b_ab_apply, broadcastTo_1b_ab_apply, Cert.Gcn.affRelu_apply]
  rw [show (Scalar.ofBits (F := Ideal) .f32 0x00000000#32) = (0 : EReal) from Ideal.ofBits_zero_f32]
  rfl

/-- The second layer: the linear layer and its bias row. -/
theorem logits_eq (h : FVec Ideal S128x32 .f32) (x4 : FVec Ideal S32x10 .bf16) (x5 : FVec Ideal S1x10 .f32) :
    addf (matmul dot_S128x32_S32x10_S128x10_1_0_0_1_n_n none (truncf .bf16 h bitsLt_bf16_f32) x4
        (constant (F := Ideal) S128x10 .f32 0x00000000#32)) (broadcastTo S128x10 x5 broadcasts_S1x10_S128x10)
      = Cert.Gcn.addRow (φ₃ := .f32) (Cert.Gcn.linear (φ₃ := .f32) h x4) x5 := by
  rw [product2]
  funext i
  obtain ⟨p, q, rfl⟩ : ∃ (p : Fin 128) (q : Fin 10), i = ix2 p q := ⟨i 0, i 1, eq_ix2 i⟩
  rw [addf_apply, broadcastTo_1b_ab_apply, Cert.Gcn.addRow_apply]
  rfl

/-- A row's largest entry, put back beside every entry of the row. -/
theorem rowMaxSpread_apply (L : FVec Ideal S128x10 .f32) (p : Fin 128) (q : Fin 10) :
    broadcastTo S128x10 (shapeCast S128x1 (multiReduction .maximumf [1] S128 L 0xFF800000#32 reduces_S128x10_S128 (.inl rfl) rfl)
      shapeCasts_S128_S128x1) broadcasts_S128x1_S128x10 (ix2 p q) = Cert.Gcn.rowMax L p :=
  (Cert.Gcn.Rows.broadcastTo_a1_ab_apply _ broadcasts_S128x1_S128x10 p q).trans
    ((Cert.Gcn.Rows.shapeCast_a_a1_apply _ shapeCasts_S128_S128x1 p 0).trans
      (Cert.Gcn.Rows.rowMax_apply L reduces_S128x10_S128 (.inl rfl) rfl p))

/-- The row-wise log-softmax as the body spells it. -/
theorem logSoftmax_eq (L : FVec Ideal S128x10 .f32) :
    subf (subf L (broadcastTo S128x10 (shapeCast S128x1 (multiReduction .maximumf [1] S128 L 0xFF800000#32 reduces_S128x10_S128 (.inl rfl) rfl) shapeCasts_S128_S128x1) broadcasts_S128x1_S128x10))
      (broadcastTo S128x10 (log (shapeCast S128x1 (multiReduction .add [1] S128
        (exp (subf L (broadcastTo S128x10 (shapeCast S128x1 (multiReduction .maximumf [1] S128 L 0xFF800000#32 reduces_S128x10_S128 (.inl rfl) rfl) shapeCasts_S128_S128x1) broadcasts_S128x1_S128x10)))
        0x00000000#32 reduces_S128x10_S128 (.inl rfl) rfl) shapeCasts_S128_S128x1)) broadcasts_S128x1_S128x10)
      = Cert.Gcn.logSoftmax (φ₃ := .f32) L := by
  funext i
  obtain ⟨p, q, rfl⟩ : ∃ (p : Fin 128) (q : Fin 10), i = ix2 p q := ⟨i 0, i 1, eq_ix2 i⟩
  rw [Cert.Gcn.logSoftmax_apply, subf_apply, subf_apply, rowMaxSpread_apply]
  refine congrArg (fun z => (L (ix2 p q) - Cert.Gcn.rowMax L p) - z) ?_
  refine (Cert.Gcn.Rows.broadcastTo_a1_ab_apply _ broadcasts_S128x1_S128x10 p q).trans ?_
  show Ideal.log (shapeCast S128x1 _ shapeCasts_S128_S128x1 (ix2 p (0 : Fin 1))) = _
  refine congrArg Ideal.log ?_
  refine (Cert.Gcn.Rows.shapeCast_a_a1_apply _ shapeCasts_S128_S128x1 p 0).trans ?_
  refine (Cert.Gcn.Rows.rowSum_apply _ reduces_S128x10_S128 (.inl rfl) rfl p).trans ?_
  refine Finset.sum_congr rfl fun k _ => ?_
  show Ideal.exp (subf L _ (ix2 p k)) = _
  rw [subf_apply, rowMaxSpread_apply]

/-- The body's stored value is the classifier head of its six operands. -/
theorem k3_pay1_eq (x0 : FVec Ideal S128x64 .f32) (x1 : FVec Ideal S64x32 .bf16) (x2 x3 : FVec Ideal S1x32 .f32)
    (x4 : FVec Ideal S32x10 .bf16) (x5 : FVec Ideal S1x10 .f32) :
    Gen.k3_pay1 (F := Ideal) x0 x1 x2 x3 x4 x5 = Cert.Gcn.head (φ₆ := .f32) x0 x1 x2 x3 x4 x5 := by
  unfold Gen.k3_pay1
  simp only [shapeCast_self]
  unfold Cert.Gcn.head
  rw [← hidden_eq, ← logits_eq, ← logSoftmax_eq]

end Cert.KernelIdeal.Blocks

end
-- ==== Proof.Region3.lean ====
/-
  The fourth kernel of the network, as a whole-array statement.

  The kernel runs at a single grid point, and each of its seven windows is its whole array at block (0, 0): the
  six operand blocks are the six operand arrays as the kernel found them, and the one output block is the whole
  output array.  The body's stored value is the classifier head of its operand blocks, so the array the kernel
  leaves is the classifier head of the six operand arrays.
-/
import proofs.«149865_j85899345950_2_alg».proof.Proof.Gen.KernelIdeal.Frame
import proofs.«149865_j85899345950_2_alg».proof.Proof.Spec
import proofs.«149865_j85899345950_2_alg».proof.Proof.Region3Head
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets3 : (![0, 0] : Fin 2 → Nat) = fun _ => 0 := funext fun a => by fin_cases a <;> rfl

/-- Every window of the one-point grid sits at block (0, 0). -/
theorem block_indices3 : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0) :=
  (by decide +kernel : ∀ t : Fin grid3.N, _)

/-- The one block of window 0 is the whole array: the node features. -/
theorem read3_0 (c : Dev nD) (t : Fin cfg3.N) :
    (iblk3 V c 0 t : FVec Ideal S128x64 .f32) = (V c (Pipeline.arrRef spec3 0) : FVec Ideal S128x64 .f32) := by
  obtain ⟨e0, e1⟩ := (block_indices3 t).1
  funext j
  show V c (Pipeline.arrRef spec3 0) (((cfg3.win 0).blk t).view.emb j) = V c (Pipeline.arrRef spec3 0) j
  refine congrArg (V c (Pipeline.arrRef spec3 0)) (funext fun a => Fin.ext ?_)
  match a with
  | ⟨0, _⟩ => show win3_0.index t (0 : Fin 2) * 128 + 1 * (j 0).val = (j 0).val; omega
  | ⟨1, _⟩ => show win3_0.index t (1 : Fin 2) * 64 + 1 * (j 1).val = (j 1).val; omega

/-- The one block of window 1 is the whole array: the first weight matrix. -/
theorem read3_1 (c : Dev nD) (t : Fin cfg3.N) :
    (iblk3 V c 1 t : FVec Ideal S64x32 .bf16) = (V c (Pipeline.arrRef spec3 1) : FVec Ideal S64x32 .bf16) := by
  obtain ⟨e0, e1⟩ := (block_indices3 t).2.1
  funext j
  show V c (Pipeline.arrRef spec3 1) (((cfg3.win 1).blk t).view.emb j) = V c (Pipeline.arrRef spec3 1) j
  refine congrArg (V c (Pipeline.arrRef spec3 1)) (funext fun a => Fin.ext ?_)
  match a with
  | ⟨0, _⟩ => show win3_1.index t (0 : Fin 2) * 64 + 1 * (j 0).val = (j 0).val; omega
  | ⟨1, _⟩ => show win3_1.index t (1 : Fin 2) * 32 + 1 * (j 1).val = (j 1).val; omega

/-- The one block of window 2 is the whole array: the scale row. -/
theorem read3_2 (c : Dev nD) (t : Fin cfg3.N) :
    (iblk3 V c 2 t : FVec Ideal S1x32 .f32) = (V c (Pipeline.arrRef spec3 2) : FVec Ideal S1x32 .f32) := by
  obtain ⟨e0, e1⟩ := (block_indices3 t).2.2.1
  funext j
  show V c (Pipeline.arrRef spec3 2) (((cfg3.win 2).blk t).view.emb j) = V c (Pipeline.arrRef spec3 2) j
  refine congrArg (V c (Pipeline.arrRef spec3 2)) (funext fun a => Fin.ext ?_)
  match a with
  | ⟨0, _⟩ => show win3_2.index t (0 : Fin 2) * 1 + 1 * (j 0).val = (j 0).val; omega
  | ⟨1, _⟩ => show win3_2.index t (1 : Fin 2) * 32 + 1 * (j 1).val = (j 1).val; omega

/-- The one block of window 3 is the whole array: the shift row. -/
theorem read3_3 (c : Dev nD) (t : Fin cfg3.N) :
    (iblk3 V c 3 t : FVec Ideal S1x32 .f32) = (V c (Pipeline.arrRef spec3 3) : FVec Ideal S1x32 .f32) := by
  obtain ⟨e0, e1⟩ := (block_indices3 t).2.2.2.1
  funext j
  show V c (Pipeline.arrRef spec3 3) (((cfg3.win 3).blk t).view.emb j) = V c (Pipeline.arrRef spec3 3) j
  refine congrArg (V c (Pipeline.arrRef spec3 3)) (funext fun a => Fin.ext ?_)
  match a with
  | ⟨0, _⟩ => show win3_3.index t (0 : Fin 2) * 1 + 1 * (j 0).val = (j 0).val; omega
  | ⟨1, _⟩ => show win3_3.index t (1 : Fin 2) * 32 + 1 * (j 1).val = (j 1).val; omega

/-- The one block of window 4 is the whole array: the second weight matrix. -/
theorem read3_4 (c : Dev nD) (t : Fin cfg3.N) :
    (iblk3 V c 4 t : FVec Ideal S32x10 .bf16) = (V c (Pipeline.arrRef spec3 4) : FVec Ideal S32x10 .bf16) := by
  obtain ⟨e0, e1⟩ := (block_indices3 t).2.2.2.2.1
  funext j
  show V c (Pipeline.arrRef spec3 4) (((cfg3.win 4).blk t).view.emb j) = V c (Pipeline.arrRef spec3 4) j
  refine congrArg (V c (Pipeline.arrRef spec3 4)) (funext fun a => Fin.ext ?_)
  match a with
  | ⟨0, _⟩ => show win3_4.index t (0 : Fin 2) * 32 + 1 * (j 0).val = (j 0).val; omega
  | ⟨1, _⟩ => show win3_4.index t (1 : Fin 2) * 10 + 1 * (j 1).val = (j 1).val; omega

/-- The one block of window 5 is the whole array: the bias row. -/
theorem read3_5 (c : Dev nD) (t : Fin cfg3.N) :
    (iblk3 V c 5 t : FVec Ideal S1x10 .f32) = (V c (Pipeline.arrRef spec3 5) : FVec Ideal S1x10 .f32) := by
  obtain ⟨e0, e1⟩ := (block_indices3 t).2.2.2.2.2.1
  funext j
  show V c (Pipeline.arrRef spec3 5) (((cfg3.win 5).blk t).view.emb j) = V c (Pipeline.arrRef spec3 5) j
  refine congrArg (V c (Pipeline.arrRef spec3 5)) (funext fun a => Fin.ext ?_)
  match a with
  | ⟨0, _⟩ => show win3_5.index t (0 : Fin 2) * 1 + 1 * (j 0).val = (j 0).val; omega
  | ⟨1, _⟩ => show win3_5.index t (1 : Fin 2) * 10 + 1 * (j 1).val = (j 1).val; omega

/-- One entry of the one block: with every operand block the whole operand array, and the entry's index in the
    block its index in the array, the stored entry is the classifier head's entry. -/
theorem entry3 (A0 : FVec Ideal S128x64 .f32) (A1 : FVec Ideal S64x32 .bf16) (A2 A3 : FVec Ideal S1x32 .f32)
    (A4 : FVec Ideal S32x10 .bf16) (A5 : FVec Ideal S1x10 .f32)
    (x0 : FVec Ideal S128x64 .f32) (x1 : FVec Ideal S64x32 .bf16) (x2 x3 : FVec Ideal S1x32 .f32)
    (x4 : FVec Ideal S32x10 .bf16) (x5 : FVec Ideal S1x10 .f32)
    (h0 : x0 = A0) (h1 : x1 = A1) (h2 : x2 = A2) (h3 : x3 = A3) (h4 : x4 = A4) (h5 : x5 = A5)
    (j i : S128x10.Idx) (hji : i = j) :
    Gen.k3_pay1 (F := Ideal) x0 x1 x2 x3 x4 x5 j = Cert.Gcn.head (φ₆ := .f32) A0 A1 A2 A3 A4 A5 i := by
  subst h0 h1 h2 h3 h4 h5 hji
  rw [k3_pay1_eq]

/-- What the one grid point writes back is the one block of the classifier head of the arrays the region finds. -/
theorem flushed3_eq (c : Dev nD) (t : Fin cfg3.N) :
    (dat3 V c).flushed 6 t = ((cfg3.win 6).blk t).view.read (Elt Ideal)
      (Cert.Gcn.head (φ₁ := .f32) (φ₂ := .bf16) (φ₃ := .f32) (φ₄ := .bf16) (φ₅ := .f32) (φ₆ := .f32)
        (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zero_offsets3]
  simp only [View.ld_unit_zero (S := S128x64) zero_offsets3, View.ld_unit_zero (S := S64x32) zero_offsets3,
    View.ld_unit_zero (S := S1x32) zero_offsets3, View.ld_unit_zero (S := S32x10) zero_offsets3,
    View.ld_unit_zero (S := S1x10) zero_offsets3]
  obtain ⟨e0, e1⟩ := (block_indices3 t).2.2.2.2.2.2
  funext j
  show Gen.k3_pay1 (F := Ideal) (iblk3 V c 0 t) (iblk3 V c 1 t) (iblk3 V c 2 t) (iblk3 V c 3 t) (iblk3 V c 4 t) (iblk3 V c 5 t) j
    = Cert.Gcn.head (φ₁ := .f32) (φ₂ := .bf16) (φ₃ := .f32) (φ₄ := .bf16) (φ₅ := .f32) (φ₆ := .f32)
        (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (((cfg3.win 6).blk t).view.emb j)
  refine entry3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t)
    (read3_0 V c t) (read3_1 V c t) (read3_2 V c t) (read3_3 V c t) (read3_4 V c t) (read3_5 V c t)
    j (((cfg3.win 6).blk t).view.emb j) ?_
  funext a
  apply Fin.ext
  match a with
  | ⟨0, _⟩ => show win3_6.index t (0 : Fin 2) * 128 + 1 * (j 0).val = (j 0).val; omega
  | ⟨1, _⟩ => show win3_6.index t (1 : Fin 2) * 10 + 1 * (j 1).val = (j 1).val; omega

/-- An index of the array is in the point's block iff each coordinate is in the block's range on its axis. -/
theorem mem_block3 (t : Fin cfg3.N) (i : S128x10.Idx) :
    i ∈ ((cfg3.win 6).blk t).view.set ↔ ∀ a : Fin 2, win3_6.index t a * S128x10.size a ≤ (i a).val ∧ (i a).val < win3_6.index t a * S128x10.size a + S128x10.size a := by
  show i ∈ ((View.whole main_v111).slice (win3_6.rect t)).set ↔ _
  rw [View.set_slice_whole, Rect.mem_set_unit]
  exact Iff.rfl

/-- The one block is the whole output array. -/
theorem covered3 (i : S128x10.Idx) :
    ∃ t : Fin cfg3.N, (cfg3.win 6).flush t = true ∧ i ∈ ((cfg3.win 6).blk t).view.set := by
  have hi0 : (i 0).val < 128 := idx2_lt0 i
  have hi1 : (i 1).val < 10 := idx2_lt1 i
  obtain ⟨e0, e1⟩ := (block_indices3 t3_0).2.2.2.2.2.2
  refine ⟨t3_0, flush3_6 t3_0, ?_⟩
  rw [mem_block3]
  intro a
  match a with
  | ⟨0, _⟩ => show win3_6.index t3_0 (0 : Fin 2) * 128 ≤ (i 0).val ∧ (i 0).val < win3_6.index t3_0 (0 : Fin 2) * 128 + 128; omega
  | ⟨1, _⟩ => show win3_6.index t3_0 (1 : Fin 2) * 10 ≤ (i 1).val ∧ (i 1).val < win3_6.index t3_0 (1 : Fin 2) * 10 + 10; omega

/-- The array the region leaves: the classifier head of the arrays it found. -/
theorem final3 (c : Dev nD) :
    (Gen.dat3 (F := Ideal) V c).arrAt 6 cfg3.N
      = Cert.Gcn.head (φ₁ := .f32) (φ₂ := .bf16) (φ₃ := .f32) (φ₄ := .bf16) (φ₅ := .f32) (φ₆ := .f32)
          (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 V c).arrAt_eq_of_cover 6 _ (fun t _ => flushed3_eq V c t) covered3

end Cert.KernelIdeal.Blocks

end
-- ==== Proof.HeadRef.lean ====
/-
  The classifier head before the log-softmax.  On the pooled features the kernel computes a product, the
  folded normalisation with relu, a second product and a bias row; the reference computes the same with the
  normalisation written out.  Entry by entry the logits agree.
-/
import proofs.«149865_j85899345950_2_alg».proof.Proof.Gen.ReferenceIdeal.Read
import proofs.«149865_j85899345950_2_alg».proof.Proof.Spec
import proofs.«149865_j85899345950_2_alg».proof.Proof.BnLaw
import proofs.«149865_j85899345950_2_alg».proof.Proof.PreScalar

noncomputable section

namespace Cert.Gcn.Bridge

open Idealize.ShloMosaic Idealize.ShloMosaic.ValueIdx Cert.ReferenceIdeal Cert.ReferenceIdeal.Read

theorem lidx_v110 (i : S128x32.Idx) (k : Fin 64) : lidx_main_v110 i k = ix2 (i 0) k :=
  funext fun a => Fin.ext (by match a with | ⟨0, _⟩ => rfl | ⟨1, _⟩ => rfl)

theorem ridx_v110 (i : S128x32.Idx) (k : Fin 64) : ridx_main_v110 i k = ix2 k (i 1) :=
  funext fun a => Fin.ext (by match a with | ⟨0, _⟩ => rfl | ⟨1, _⟩ => rfl)

theorem lidx_v130 (i : S128x10.Idx) (k : Fin 32) : lidx_main_v130 i k = ix2 (i 0) k :=
  funext fun a => Fin.ext (by match a with | ⟨0, _⟩ => rfl | ⟨1, _⟩ => rfl)

theorem ridx_v130 (i : S128x10.Idx) (k : Fin 32) : ridx_main_v130 i k = ix2 k (i 1) :=
  funext fun a => Fin.ext (by match a with | ⟨0, _⟩ => rfl | ⟨1, _⟩ => rfl)

/-- The reference's first head product is the specification's product of the pooled features with the weights. -/
theorem zpre_eq (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (x11 : (⟨S64x64, .f32⟩ : BufTy).Contents (Elt Ideal)) (x12 x13 x14 x15 x16 : (⟨S64, .f32⟩ : BufTy).Contents (Elt Ideal)) (x17 : (⟨S64x32, .f32⟩ : BufTy).Contents (Elt Ideal)) :
    (Cert.Gcn.linear (R := 128) (K := 64) (C := 32) (φ₁ := .f32) (φ₂ := .f32) (φ₃ := .f32) (val_main_v109 (F := Ideal) x0 x1 x2 x3 x5 x6 x7 x8 x9 x10 x11 x12 x13 x14 x15 x16) x17 : FVec Ideal S128x32 .f32)
      = val_main_v110 (F := Ideal) x0 x1 x2 x3 x5 x6 x7 x8 x9 x10 x11 x12 x13 x14 x15 x16 x17 := by
  funext i
  rw [val_main_v110_apply, Cert.Gcn.linear_apply]
  refine Finset.sum_congr rfl fun k _ => ?_
  rw [lidx_v110, ridx_v110]
  rfl

/-- The head's first bias, one value per column, read at an entry. -/
theorem biasf_at (x18 : (⟨S32, .f32⟩ : BufTy).Contents (Elt Ideal)) (r : Fin 128) (k : Fin 32) :
    val_main_v112 (F := Ideal) x18 (ix2 r k) = x18 (ix1 k) := by
  rw [val_main_v112_apply, val_main_v111_apply]
  exact congrArg x18 (funext fun a => Fin.ext (by match a with | ⟨0, _⟩ => rfl))

/-- The running mean, one value per column, read at an entry. -/
theorem meanf_at (x21 : (⟨S32, .f32⟩ : BufTy).Contents (Elt Ideal)) (r : Fin 128) (k : Fin 32) :
    val_main_v115 (F := Ideal) x21 (ix2 r k) = x21 (ix1 k) := by
  rw [val_main_v115_apply, val_main_v114_apply]
  exact congrArg x21 (funext fun a => Fin.ext (by match a with | ⟨0, _⟩ => rfl))

/-- The reciprocal square root of the variance plus the epsilon, one value per column, read at an entry. -/
theorem rsqrtf_at (x22 : (⟨S32, .f32⟩ : BufTy).Contents (Elt Ideal)) (r : Fin 128) (k : Fin 32) :
    val_main_v121 (F := Ideal) x22 (ix2 r k) = Ideal.rsqrt (x22 (ix1 k) + Ideal.ofBits .f32 0x3727C5AC#32) := by
  have e : idx_main_v120 (idx_main_v121 (ix2 r k)) = ix1 k := funext fun a => Fin.ext (by match a with | ⟨0, _⟩ => rfl)
  rw [val_main_v121_apply, val_main_v120_apply, val_main_v119_apply, val_main_v118_apply, val_main_v117_apply, val_main_cst_18_apply, e]
  rfl

/-- The scale, one value per column, read at an entry. -/
theorem scalef_at (x19 : (⟨S32, .f32⟩ : BufTy).Contents (Elt Ideal)) (r : Fin 128) (k : Fin 32) :
    val_main_v124 (F := Ideal) x19 (ix2 r k) = x19 (ix1 k) := by
  rw [val_main_v124_apply, val_main_v123_apply]
  exact congrArg x19 (funext fun a => Fin.ext (by match a with | ⟨0, _⟩ => rfl))

/-- The shift, one value per column, read at an entry. -/
theorem shiftf_at (x20 : (⟨S32, .f32⟩ : BufTy).Contents (Elt Ideal)) (r : Fin 128) (k : Fin 32) :
    val_main_v127 (F := Ideal) x20 (ix2 r k) = x20 (ix1 k) := by
  rw [val_main_v127_apply, val_main_v126_apply]
  exact congrArg x20 (funext fun a => Fin.ext (by match a with | ⟨0, _⟩ => rfl))

/-- The head: the folded normalisation with relu of the first head product is the reference's, entry by entry. -/
theorem bnf_entry (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (x11 : (⟨S64x64, .f32⟩ : BufTy).Contents (Elt Ideal)) (x12 x13 x14 x15 x16 : (⟨S64, .f32⟩ : BufTy).Contents (Elt Ideal)) (x17 : (⟨S64x32, .f32⟩ : BufTy).Contents (Elt Ideal)) (x18 x19 x20 x21 x22 : (⟨S32, .f32⟩ : BufTy).Contents (Elt Ideal)) (hp : BnParams x18 x19 x20 x21 x22)
    (s t : FVec Ideal S1x32 .f32)
    (hs : ∀ k : Fin 32, s (ix2 0 k) = x19 (ix1 k) * Ideal.rsqrt (x22 (ix1 k) + Ideal.ofBits .f32 0x3727C5AC#32))
    (ht : ∀ k : Fin 32, t (ix2 0 k) = x20 (ix1 k) + (x18 (ix1 k) - x21 (ix1 k))
      * (x19 (ix1 k) * Ideal.rsqrt (x22 (ix1 k) + Ideal.ofBits .f32 0x3727C5AC#32)))
    (r : Fin 128) (k : Fin 32) :
    max (val_main_v110 (F := Ideal) x0 x1 x2 x3 x5 x6 x7 x8 x9 x10 x11 x12 x13 x14 x15 x16 x17 (ix2 r k) * s (ix2 0 k) + t (ix2 0 k)) 0 = val_main_v129 (F := Ideal) x0 x1 x2 x3 x5 x6 x7 x8 x9 x10 x11 x12 x13 x14 x15 x16 x17 x18 x19 x20 x21 x22 (ix2 r k) := by
  rw [val_main_v129_apply, val_main_v128_apply, val_main_v125_apply, val_main_v122_apply, val_main_v116_apply, val_main_v113_apply,
    biasf_at, meanf_at, rsqrtf_at, scalef_at, shiftf_at, val_main_call3_v0_apply, val_main_call3_cst_apply, hs, ht]
  generalize val_main_v110 (F := Ideal) x0 x1 x2 x3 x5 x6 x7 x8 x9 x10 x11 x12 x13 x14 x15 x16 x17 (ix2 r k) = a
  show max (a * (x19 (ix1 k) * Ideal.rsqrt (x22 (ix1 k) + Ideal.ofBits .f32 0x3727C5AC#32))
        + (x20 (ix1 k) + (x18 (ix1 k) - x21 (ix1 k)) * (x19 (ix1 k) * Ideal.rsqrt (x22 (ix1 k) + Ideal.ofBits .f32 0x3727C5AC#32)))) 0
      = max (((a + x18 (ix1 k)) - x21 (ix1 k)) * Ideal.rsqrt (x22 (ix1 k) + Ideal.ofBits .f32 0x3727C5AC#32) * x19 (ix1 k) + x20 (ix1 k))
          (Ideal.ofBits .f32 0x00000000#32)
  rw [Ideal.ofBits_zero_f32, bn_fold_entry a (hp.bias (ix1 k)) (hp.scale (ix1 k)) (hp.shift (ix1 k)) (hp.mean (ix1 k)) (hp.var (ix1 k))]

/-- The kernel's logits are the reference's. -/
theorem logits_eq (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (x11 : (⟨S64x64, .f32⟩ : BufTy).Contents (Elt Ideal)) (x12 x13 x14 x15 x16 : (⟨S64, .f32⟩ : BufTy).Contents (Elt Ideal)) (x17 : (⟨S64x32, .f32⟩ : BufTy).Contents (Elt Ideal)) (x18 x19 x20 x21 x22 : (⟨S32, .f32⟩ : BufTy).Contents (Elt Ideal)) (x23 : (⟨S32x10, .f32⟩ : BufTy).Contents (Elt Ideal)) (x24 : (⟨S10, .f32⟩ : BufTy).Contents (Elt Ideal))
    (hp : BnParams x18 x19 x20 x21 x22) (s t : FVec Ideal S1x32 .f32) (b2 : FVec Ideal S1x10 .f32)
    (hs : ∀ k : Fin 32, s (ix2 0 k) = x19 (ix1 k) * Ideal.rsqrt (x22 (ix1 k) + Ideal.ofBits .f32 0x3727C5AC#32))
    (ht : ∀ k : Fin 32, t (ix2 0 k) = x20 (ix1 k) + (x18 (ix1 k) - x21 (ix1 k))
      * (x19 (ix1 k) * Ideal.rsqrt (x22 (ix1 k) + Ideal.ofBits .f32 0x3727C5AC#32)))
    (hb : ∀ k : Fin 10, b2 (ix2 0 k) = x24 (ix1 k)) :
    (Cert.Gcn.addRow (R := 128) (C := 10) (φ₁ := .f32) (φ₂ := .f32) (φ₃ := .f32)
        (Cert.Gcn.linear (R := 128) (K := 32) (C := 10) (φ₁ := .f32) (φ₂ := .f32) (φ₃ := .f32)
          (Cert.Gcn.affRelu (R := 128) (C := 32) (φ₁ := .f32) (φ₂ := .f32) (φ₃ := .f32)
            (Cert.Gcn.linear (R := 128) (K := 64) (C := 32) (φ₁ := .f32) (φ₂ := .f32) (φ₃ := .f32) (val_main_v109 (F := Ideal) x0 x1 x2 x3 x5 x6 x7 x8 x9 x10 x11 x12 x13 x14 x15 x16) x17) s t) x23) b2
      : FVec Ideal S128x10 .f32)
      = val_main_v133 (F := Ideal) x0 x1 x2 x3 x5 x6 x7 x8 x9 x10 x11 x12 x13 x14 x15 x16 x17 x18 x19 x20 x21 x22 x23 x24 := by
  rw [zpre_eq]
  funext i
  obtain ⟨r, q, rfl⟩ : ∃ (r : Fin 128) (q : Fin 10), i = ix2 r q := ⟨i 0, i 1, eq_ix2 i⟩
  have e1 : idx_main_v131 (idx_main_v132 (ix2 r q)) = ix1 q := funext fun a => Fin.ext (by match a with | ⟨0, _⟩ => rfl)
  rw [Cert.Gcn.addRow_apply, Cert.Gcn.linear_apply]
  simp only [val_main_v133_apply, val_main_v132_apply, val_main_v131_apply, e1, val_main_v130_apply, lidx_v130, ridx_v130]
  show _ + b2 (ix2 0 q) = _
  rw [hb]
  refine congrArg (· + x24 (ix1 q)) (Finset.sum_congr rfl fun k _ => ?_)
  exact congrArg (· * x23 (ix2 k q)) (bnf_entry x0 x1 x2 x3 x5 x6 x7 x8 x9 x10 x11 x12 x13 x14 x15 x16 x17 x18 x19 x20 x21 x22 hp s t hs ht r k)

end Cert.Gcn.Bridge

end
-- ==== Proof.RefSoftmax.lean ====
/-
  The reference's log-softmax, read as one function of its logits.

  The reference computes, for each row of the 128-by-10 logits: the largest entry, by a maximum started from negative
  infinity and then joined once more with negative infinity; the logits less that maximum; the sum of their
  exponentials, started from zero; and the shifted logits less the logarithm of that sum. Negative infinity is the
  bottom element and zero is neutral for the sum, so this is the row-wise log-softmax computed the stable way.
-/
import proofs.«149865_j85899345950_2_alg».proof.Proof.Gen.ReferenceIdeal.Read
import proofs.«149865_j85899345950_2_alg».proof.Proof.Spec
import Idealize.ShloMosaic.PureOps.Ideal.Laws
import Idealize.ShloMosaic.Lib.ValueIdx

noncomputable section

namespace Cert.Gcn.Bridge

open Idealize.ShloMosaic Idealize.ShloMosaic.ValueIdx Cert.ReferenceIdeal Cert.ReferenceIdeal.Read

/-- The word of negative infinity is the bottom element. -/
theorem neg_inf_word : Ideal.ofBits .f32 0xFF800000#32 = (⊥ : EReal) := by
  simp [Ideal.ofBits, Ideal.ieee]

/-- The reference's row maximum, started from negative infinity and then joined once more with negative infinity,
    is the largest entry of the row. -/
theorem row_max_stage (L : FVec Ideal S128x10 .f32) (j : S128.Idx) (r : Fin 128) (hj : (j 0).val = r.val) :
    FloatOps.maximumf (FloatOps.ofBits (F := Ideal) .f32 0xFF800000#32)
        (Host.reduce FloatOps.maximumf L (val_main_call4_cst (F := Ideal)) Gen.reducesTo_S128x10_S128_d1 Gen.h_S_ j)
      = Cert.Gcn.rowMax (R := 128) (C := 10) (φ₁ := .f32) L r := by
  rw [Host.reduce_eq_fold_single FloatOps.maximumf L _ Gen.reducesTo_S128x10_S128_d1 (by decide) Gen.h_S_ j]
  show max (Ideal.ofBits .f32 0xFF800000#32)
      ((Finset.univ : Finset (Fin 10)).fold max (Ideal.ofBits .f32 0xFF800000#32) (L ∘ _)) = _
  rw [neg_inf_word, max_bot_left]
  unfold Cert.Gcn.rowMax
  congr 1
  funext k
  show L _ = L (ix2 r k)
  congr 1
  funext a
  apply Fin.ext
  match a with
  | ⟨0, _⟩ => exact hj
  | ⟨1, _⟩ => rfl

/-- The reference's outlined log-softmax of its logits is the row-wise log-softmax: the row maximum is computed from
    negative infinity, the sum of exponentials from zero. -/
theorem ref_log_softmax (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x5 : (⟨S128x64, .f32⟩ : BufTy).Contents (Elt Ideal)) (x6 x7 x8 x9 x10 : (⟨S64, .f32⟩ : BufTy).Contents (Elt Ideal)) (x11 : (⟨S64x64, .f32⟩ : BufTy).Contents (Elt Ideal)) (x12 x13 x14 x15 x16 : (⟨S64, .f32⟩ : BufTy).Contents (Elt Ideal)) (x17 : (⟨S64x32, .f32⟩ : BufTy).Contents (Elt Ideal)) (x18 x19 x20 x21 x22 : (⟨S32, .f32⟩ : BufTy).Contents (Elt Ideal)) (x23 : (⟨S32x10, .f32⟩ : BufTy).Contents (Elt Ideal)) (x24 : (⟨S10, .f32⟩ : BufTy).Contents (Elt Ideal)) :
    (Cert.Gcn.logSoftmax (R := 128) (C := 10) (φ₁ := .f32) (φ₃ := .f32) (val_main_v133 (F := Ideal) x0 x1 x2 x3 x5 x6 x7 x8 x9 x10 x11 x12 x13 x14 x15 x16 x17 x18 x19 x20 x21 x22 x23 x24) : FVec Ideal S128x10 .f32)
      = val_main_v134 (F := Ideal) x0 x1 x2 x3 x5 x6 x7 x8 x9 x10 x11 x12 x13 x14 x15 x16 x17 x18 x19 x20 x21 x22 x23 x24 := by
  funext i
  rw [val_main_v134_apply, val_main_call4_v5_apply, val_main_call4_v4_apply, val_main_call4_v3_apply, val_main_call4_v2_apply,
    val_main_call4_v1_apply, val_main_call4_cst_0_apply, val_main_call4_v10_apply, val_main_call4_v9_apply, val_main_call4_v8_apply,
    val_main_call4_v7_apply, val_main_call4_cst_1_apply]
  simp only [val_main_call4_v6_apply, val_main_call4_v5_apply, val_main_call4_v4_apply, val_main_call4_v3_apply, val_main_call4_v2_apply,
    val_main_call4_v1_apply, val_main_call4_cst_0_apply]
  unfold val_main_call4_v0
  generalize val_main_v133 (F := Ideal) x0 x1 x2 x3 x5 x6 x7 x8 x9 x10 x11 x12 x13 x14 x15 x16 x17 x18 x19 x20 x21 x22 x23 x24 = L
  obtain ⟨r, q, rfl⟩ : ∃ (r : Fin 128) (q : Fin 10), i = ix2 r q := ⟨i 0, i 1, eq_ix2 i⟩
  rw [row_max_stage L _ r rfl]
  have hk : ∀ k : Fin 10, idx_main_call4_v7 (idx_main_call4_v8 (idx_main_call4_v10 (ix2 r q))) k = ix2 r k :=
    fun k => funext fun a => Fin.ext (by match a with | ⟨0, _⟩ => rfl | ⟨1, _⟩ => rfl)
  rw [Finset.sum_congr rfl (fun k _ => by rw [hk k, row_max_stage L _ r rfl])]
  rw [Cert.Gcn.logSoftmax_apply]
  show (L (ix2 r q) - Cert.Gcn.rowMax L r) - Ideal.log (∑ k : Fin 10, Ideal.exp (L (ix2 r k) - Cert.Gcn.rowMax L r))
    = (L (ix2 r q) - Cert.Gcn.rowMax L r) - Ideal.log (Ideal.ofBits .f32 0x00000000#32 + ∑ k : Fin 10, Ideal.exp (L (ix2 r k) - Cert.Gcn.rowMax L r))
  rw [Ideal.ofBits_zero_f32, zero_add]

end Cert.Gcn.Bridge

end
-- ==== Proof.KStage3.lean ====
/-
  The pooling and the classifier head, on the kernel's side, and the result.  The host sums the layer-1 output
  over the nodes of each graph and divides by the graph sizes, exactly as the reference does with its own
  layer-1 output; it folds the head normalisation's scale and shift into one row each and reshapes the bias to a
  row.  Region 3 leaves the classifier head of these operands: a product, the folded normalisation with relu, a
  second product with its bias, and the row-wise log-softmax.  The logits are the reference's by the law that
  joins the folded and the written-out normalisation, and the reference's own log-softmax is the same row-wise
  function of its logits.  So the output array holds the reference's result of the same arguments.
-/
import proofs.«149865_j85899345950_2_alg».proof.Proof.KStage2
import proofs.«149865_j85899345950_2_alg».proof.Proof.Region3
import proofs.«149865_j85899345950_2_alg».proof.Proof.HeadRef
import proofs.«149865_j85899345950_2_alg».proof.Proof.RefSoftmax
import proofs.«149865_j85899345950_2_alg».proof.Proof.RowFold
import Idealize.ShloMosaic.PureOps.Ideal.Laws
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The pooled features: the per-graph sums of the layer-1 output divided by the graph sizes, as the reference
    computes them from its own layer-1 output. -/
theorem W9_v98 (hp : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) (hp1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) :
    (W9 m ρ c (Proc.devRef .tc main_v98) : S128x64.Idx → EReal) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h0 := W8_v85 m ρ c hp
  have h1 := W8_arg2 m ρ c
  show StableHlo.after hostOps3 (W8 m ρ c) (Proc.devRef .tc main_v98) = _
  generalize W8 m ρ c = V at h0 h1 ⊢
  after_results_simp
  rw [h0, h1]
  unfold Cert.ReferenceIdeal.Read.val_main_v109 Cert.ReferenceIdeal.Read.val_main_v104
  rw [← lane_value m c hp1]
  rfl

/-- The first head weight matrix (a change of number format is the identity at the ideal values). -/
theorem W9_v106 : (W9 m ρ c (Proc.devRef .tc main_v106) : S64x32.Idx → EReal) = (m ((c : Thread nD τ).loc main_arg17)) := by
  have h0 := W8_arg17 m ρ c
  show StableHlo.after hostOps3 (W8 m ρ c) (Proc.devRef .tc main_v106) = _
  generalize W8 m ρ c = V at h0 ⊢
  after_results_simp
  rw [h0]
  rfl

/-- The second head weight matrix. -/
theorem W9_v107 : (W9 m ρ c (Proc.devRef .tc main_v107) : S32x10.Idx → EReal) = (m ((c : Thread nD τ).loc main_arg23)) := by
  have h0 := W8_arg23 m ρ c
  show StableHlo.after hostOps3 (W8 m ρ c) (Proc.devRef .tc main_v107) = _
  generalize W8 m ρ c = V at h0 ⊢
  after_results_simp
  rw [h0]
  rfl

/-- The head normalisation's folded scale row. -/
theorem W9_v108 : (W9 m ρ c (Proc.devRef .tc main_v108) : S1x32.Idx → EReal) = (shapeCast S1x32 (mulf (m ((c : Thread nD τ).loc main_arg19)) (Host.rsqrt (addf (m ((c : Thread nD τ).loc main_arg22)) (broadcastInDim S32 ![] bcast_S_S32 (constant (F := Ideal) S_ .f32 0x3727C5AC#32))))) shapeCasts_S32_S1x32) := by
  have h0 := W8_arg19 m ρ c
  have h1 := W8_arg22 m ρ c
  show StableHlo.after hostOps3 (W8 m ρ c) (Proc.devRef .tc main_v108) = _
  generalize W8 m ρ c = V at h0 h1 ⊢
  after_results_simp
  rw [h0, h1]
  rfl

/-- The head normalisation's folded shift row. -/
theorem W9_v109 : (W9 m ρ c (Proc.devRef .tc main_v109) : S1x32.Idx → EReal) = (shapeCast S1x32 (addf (m ((c : Thread nD τ).loc main_arg20)) (mulf (subf (m ((c : Thread nD τ).loc main_arg18)) (m ((c : Thread nD τ).loc main_arg21))) (mulf (m ((c : Thread nD τ).loc main_arg19)) (Host.rsqrt (addf (m ((c : Thread nD τ).loc main_arg22)) (broadcastInDim S32 ![] bcast_S_S32 (constant (F := Ideal) S_ .f32 0x3727C5AC#32))))))) shapeCasts_S32_S1x32) := by
  have h0 := W8_arg18 m ρ c
  have h1 := W8_arg19 m ρ c
  have h2 := W8_arg20 m ρ c
  have h3 := W8_arg21 m ρ c
  have h4 := W8_arg22 m ρ c
  show StableHlo.after hostOps3 (W8 m ρ c) (Proc.devRef .tc main_v109) = _
  generalize W8 m ρ c = V at h0 h1 h2 h3 h4 ⊢
  after_results_simp
  rw [h0, h1, h2, h3, h4]
  rfl

/-- The head's bias row. -/
theorem W9_v110 : (W9 m ρ c (Proc.devRef .tc main_v110) : S1x10.Idx → EReal) = (shapeCast S1x10 (m ((c : Thread nD τ).loc main_arg24)) shapeCasts_S10_S1x10) := by
  have h0 := W8_arg24 m ρ c
  show StableHlo.after hostOps3 (W8 m ρ c) (Proc.devRef .tc main_v110) = _
  generalize W8 m ρ c = V at h0 ⊢
  after_results_simp
  rw [h0]
  rfl

/-- THE RESULT: what region 3 leaves in the output array is the reference's result of the same arguments. -/
theorem result_eq (h0 : Cert.Gcn.BnParams (S := S64) (m ((c : Thread nD τ).loc main_arg6)) (m ((c : Thread nD τ).loc main_arg7)) (m ((c : Thread nD τ).loc main_arg8)) (m ((c : Thread nD τ).loc main_arg9)) (m ((c : Thread nD τ).loc main_arg10))) (h1 : Cert.Gcn.BnParams (S := S64) (m ((c : Thread nD τ).loc main_arg12)) (m ((c : Thread nD τ).loc main_arg13)) (m ((c : Thread nD τ).loc main_arg14)) (m ((c : Thread nD τ).loc main_arg15)) (m ((c : Thread nD τ).loc main_arg16))) (hf : Cert.Gcn.BnParams (S := S32) (m ((c : Thread nD τ).loc main_arg18)) (m ((c : Thread nD τ).loc main_arg19)) (m ((c : Thread nD τ).loc main_arg20)) (m ((c : Thread nD τ).loc main_arg21)) (m ((c : Thread nD τ).loc main_arg22))) :
    (W10 m ρ c (Proc.devRef .tc main_v111) : S128x10.Idx → EReal) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have e : W10 m ρ c (Proc.devRef .tc main_v111) = (dat3 (V9 m ρ) c).arrAt 6 cfg3.N := W10_arr m ρ c 6
  rw [e, Cert.KernelIdeal.Blocks.final3]
  show Cert.Gcn.head (R := 128) (K := 64) (H := 32) (C := 10) (φ₁ := .f32) (φ₂ := .bf16) (φ₃ := .f32) (φ₄ := .bf16) (φ₅ := .f32) (φ₆ := .f32)
    (W9 m ρ c (Proc.devRef .tc main_v98)) (W9 m ρ c (Proc.devRef .tc main_v106)) (W9 m ρ c (Proc.devRef .tc main_v108))
    (W9 m ρ c (Proc.devRef .tc main_v109)) (W9 m ρ c (Proc.devRef .tc main_v107)) (W9 m ρ c (Proc.devRef .tc main_v110)) = _
  rw [W9_v98 m ρ c h0 h1, W9_v106, W9_v108, W9_v109, W9_v107, W9_v110]
  show Cert.Gcn.logSoftmax (R := 128) (C := 10) (φ₁ := .f32) (φ₃ := .f32)
    (Cert.Gcn.addRow (R := 128) (C := 10) (φ₁ := .f32) (φ₂ := .f32) (φ₃ := .f32)
      (Cert.Gcn.linear (R := 128) (K := 32) (C := 10) (φ₁ := .f32) (φ₂ := .f32) (φ₃ := .f32)
        (Cert.Gcn.affRelu (R := 128) (C := 32) (φ₁ := .f32) (φ₂ := .f32) (φ₃ := .f32)
          (Cert.Gcn.linear (R := 128) (K := 64) (C := 32) (φ₁ := .f32) (φ₂ := .f32) (φ₃ := .f32) (Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)))
          (shapeCast S1x32 (mulf (m ((c : Thread nD τ).loc main_arg19)) (Host.rsqrt (addf (m ((c : Thread nD τ).loc main_arg22)) (broadcastInDim S32 ![] bcast_S_S32 (constant (F := Ideal) S_ .f32 0x3727C5AC#32))))) shapeCasts_S32_S1x32) (shapeCast S1x32 (addf (m ((c : Thread nD τ).loc main_arg20)) (mulf (subf (m ((c : Thread nD τ).loc main_arg18)) (m ((c : Thread nD τ).loc main_arg21))) (mulf (m ((c : Thread nD τ).loc main_arg19)) (Host.rsqrt (addf (m ((c : Thread nD τ).loc main_arg22)) (broadcastInDim S32 ![] bcast_S_S32 (constant (F := Ideal) S_ .f32 0x3727C5AC#32))))))) shapeCasts_S32_S1x32)) (m ((c : Thread nD τ).loc main_arg23))) (shapeCast S1x10 (m ((c : Thread nD τ).loc main_arg24)) shapeCasts_S10_S1x10)) = _
  rw [Cert.Gcn.Bridge.logits_eq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) hf (shapeCast S1x32 (mulf (m ((c : Thread nD τ).loc main_arg19)) (Host.rsqrt (addf (m ((c : Thread nD τ).loc main_arg22)) (broadcastInDim S32 ![] bcast_S_S32 (constant (F := Ideal) S_ .f32 0x3727C5AC#32))))) shapeCasts_S32_S1x32) (shapeCast S1x32 (addf (m ((c : Thread nD τ).loc main_arg20)) (mulf (subf (m ((c : Thread nD τ).loc main_arg18)) (m ((c : Thread nD τ).loc main_arg21))) (mulf (m ((c : Thread nD τ).loc main_arg19)) (Host.rsqrt (addf (m ((c : Thread nD τ).loc main_arg22)) (broadcastInDim S32 ![] bcast_S_S32 (constant (F := Ideal) S_ .f32 0x3727C5AC#32))))))) shapeCasts_S32_S1x32) (shapeCast S1x10 (m ((c : Thread nD τ).loc main_arg24)) shapeCasts_S10_S1x10)
    (fun k => Cert.Gcn.scale_row_apply _ _ bcast_S_S32 shapeCasts_S32_S1x32 k) (fun k => Cert.Gcn.shift_row_apply _ _ _ _ _ bcast_S_S32 shapeCasts_S32_S1x32 k)
    (fun k => Cert.Gcn.row_cast_apply _ shapeCasts_S10_S1x10 k)]
  exact Cert.Gcn.Bridge.ref_log_softmax (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

end Cert.KernelIdeal.Whole

end
-- ==== Proof.PreFacts.lean ====
/-
  What the precondition gives: the parameters of the three frozen batch normalisations are real numbers and
  their running variances are nonnegative.

  The precondition is a conjunction of one "all entries pass" test per float input — the finiteness test on
  every input, the sign test on the three variances.  Split the conjunction, read each test at an entry, and
  the element facts say what passing means.
-/
import proofs.«149865_j85899345950_2_alg».proof.Pre_finite_inputs
import proofs.«149865_j85899345950_2_alg».proof.Proof.PreScalar
import Idealize.ShloMosaic.Lib.ReduceAll
import Idealize.ShloMosaic.Lib.ValueIdx

noncomputable section

namespace Cert.Gcn

open Idealize.ShloMosaic Cert.Pre_finite_inputs

variable [Cert.Pre_finite_inputs.Facts]

instance : Subsingleton S_.Idx := ⟨fun a b => funext fun d => d.elim0⟩

/-- Under the precondition the three normalisations' parameters are real and their variances nonnegative. -/
theorem params_of_pre (a0 : FVec Ideal S100000x128 .f32) (a1 : IVec S2x1000000 32) (a2 : IVec S100000 32)
    (a3 : FVec Ideal S1000000 .f32) (a4 : FVec Ideal S100000x3 .f32) (a5 : FVec Ideal S128x64 .f32)
    (a6 a7 a8 a9 a10 : FVec Ideal S64 .f32) (a11 : FVec Ideal S64x64 .f32) (a12 a13 a14 a15 a16 : FVec Ideal S64 .f32)
    (a17 : FVec Ideal S64x32 .f32) (a18 a19 a20 a21 a22 : FVec Ideal S32 .f32) (a23 : FVec Ideal S32x10 .f32)
    (a24 : FVec Ideal S10 .f32)
    (h : fn (F := Ideal) a0 a1 a2 a3 a4 a5 a6 a7 a8 a9 a10 a11 a12 a13 a14 a15 a16 a17 a18 a19 a20 a21 a22 a23 a24
      = fun _ => 1#1) :
    BnParams a6 a7 a8 a9 a10 ∧ BnParams a12 a13 a14 a15 a16 ∧ BnParams a18 a19 a20 a21 a22 := by
  have h0 := congrFun h ValueIdx.ix0
  dsimp only [fn, fn_part1, fn_part2, fn_part3, fn_part4, fn_part5, fn_part6, fn_part7] at h0
  obtain ⟨h1, n22⟩ := IntOp.andi_eq_one.1 h0
  obtain ⟨h2, n16⟩ := IntOp.andi_eq_one.1 h1
  obtain ⟨h3, n10⟩ := IntOp.andi_eq_one.1 h2
  obtain ⟨h4, f24⟩ := IntOp.andi_eq_one.1 h3
  obtain ⟨h5, f23⟩ := IntOp.andi_eq_one.1 h4
  obtain ⟨h6, f22⟩ := IntOp.andi_eq_one.1 h5
  obtain ⟨h7, f21⟩ := IntOp.andi_eq_one.1 h6
  obtain ⟨h8, f20⟩ := IntOp.andi_eq_one.1 h7
  obtain ⟨h9, f19⟩ := IntOp.andi_eq_one.1 h8
  obtain ⟨h10, f18⟩ := IntOp.andi_eq_one.1 h9
  obtain ⟨h11, f17⟩ := IntOp.andi_eq_one.1 h10
  obtain ⟨h12, f16⟩ := IntOp.andi_eq_one.1 h11
  obtain ⟨h13, f15⟩ := IntOp.andi_eq_one.1 h12
  obtain ⟨h14, f14⟩ := IntOp.andi_eq_one.1 h13
  obtain ⟨h15, f13⟩ := IntOp.andi_eq_one.1 h14
  obtain ⟨h16, f12⟩ := IntOp.andi_eq_one.1 h15
  obtain ⟨h17, f11⟩ := IntOp.andi_eq_one.1 h16
  obtain ⟨h18, f10⟩ := IntOp.andi_eq_one.1 h17
  obtain ⟨h19, f9⟩ := IntOp.andi_eq_one.1 h18
  obtain ⟨h20, f8⟩ := IntOp.andi_eq_one.1 h19
  obtain ⟨h21, f7⟩ := IntOp.andi_eq_one.1 h20
  obtain ⟨h22, f6⟩ := IntOp.andi_eq_one.1 h21
  obtain ⟨h23, f5⟩ := IntOp.andi_eq_one.1 h22
  obtain ⟨h24, f4⟩ := IntOp.andi_eq_one.1 h23
  obtain ⟨h25, f3⟩ := IntOp.andi_eq_one.1 h24
  exact ⟨⟨fun i => real_of_abs_lt_inf (a6 i) (Host.reduce_andi_all _ _ _ _ _ f6 i), fun i => real_of_abs_lt_inf (a7 i) (Host.reduce_andi_all _ _ _ _ _ f7 i), fun i => real_of_abs_lt_inf (a8 i) (Host.reduce_andi_all _ _ _ _ _ f8 i), fun i => real_of_abs_lt_inf (a9 i) (Host.reduce_andi_all _ _ _ _ _ f9 i), fun i => real_nonneg (real_of_abs_lt_inf (a10 i) (Host.reduce_andi_all _ _ _ _ _ f10 i)) (nonneg_of_ge_zero (a10 i) (Host.reduce_andi_all _ _ _ _ _ n10 i))⟩,
    ⟨fun i => real_of_abs_lt_inf (a12 i) (Host.reduce_andi_all _ _ _ _ _ f12 i), fun i => real_of_abs_lt_inf (a13 i) (Host.reduce_andi_all _ _ _ _ _ f13 i), fun i => real_of_abs_lt_inf (a14 i) (Host.reduce_andi_all _ _ _ _ _ f14 i), fun i => real_of_abs_lt_inf (a15 i) (Host.reduce_andi_all _ _ _ _ _ f15 i), fun i => real_nonneg (real_of_abs_lt_inf (a16 i) (Host.reduce_andi_all _ _ _ _ _ f16 i)) (nonneg_of_ge_zero (a16 i) (Host.reduce_andi_all _ _ _ _ _ n16 i))⟩,
    ⟨fun i => real_of_abs_lt_inf (a18 i) (Host.reduce_andi_all _ _ _ _ _ f18 i), fun i => real_of_abs_lt_inf (a19 i) (Host.reduce_andi_all _ _ _ _ _ f19 i), fun i => real_of_abs_lt_inf (a20 i) (Host.reduce_andi_all _ _ _ _ _ f20 i), fun i => real_of_abs_lt_inf (a21 i) (Host.reduce_andi_all _ _ _ _ _ f21 i), fun i => real_nonneg (real_of_abs_lt_inf (a22 i) (Host.reduce_andi_all _ _ _ _ _ f22 i)) (nonneg_of_ge_zero (a22 i) (Host.reduce_andi_all _ _ _ _ _ n22 i))⟩⟩

end Cert.Gcn

end
-- ==== Proof.lean ====
/-
  A two-layer graph convolution network with frozen batch normalisations, a mean pool over graphs and a small
  classifier head: the kernel program against its plain reference, on the extended reals.

  The two programs share the graph side of the computation — the edge lists with self loops, the symmetric
  normalisation of the edge weights, the gathers along edges and the sums into target nodes, the mean pool — and
  differ in the dense side: the kernel multiplies block by block inside four kernel regions and folds each batch
  normalisation into one scale and one shift computed in advance, where the reference multiplies whole matrices
  and normalises with the running statistics written out.  At the ideal values a blockwise product is the whole
  product, a change of number format is the identity, and the folded normalisation

      a * (g * rsqrt (v + eps)) + (e + (b - m) * (g * rsqrt (v + eps)))

  equals the written-out one, ((a + b) - m) * rsqrt (v + eps) * g + e, for every extended real a as soon as
  b, m, g, e are real and rsqrt (v + eps) is real — which the precondition gives: every float input is finite and
  the three running variances are nonnegative.  The kernel also views one [100000, 64] array as [50000, 128] with
  its scale and shift rows doubled; entry by entry that is the same per-column map.

  The frames are the generated ones (the reference's is its generated run with the result dropped); the kernel's
  run with its result kept, the value of each buffer at each boundary between segments, and the bridge to the
  reference's stages are in the modules imported here.
-/
import proofs.«149865_j85899345950_2_alg».proof.Defs
import proofs.«149865_j85899345950_2_alg».proof.Proof.Gen.Kernel
import proofs.«149865_j85899345950_2_alg».proof.Proof.Gen.Kernel.Skeleton
import proofs.«149865_j85899345950_2_alg».proof.Proof.Gen.Kernel.Launch
import proofs.«149865_j85899345950_2_alg».proof.Proof.Gen.Kernel.Points
import proofs.«149865_j85899345950_2_alg».proof.Proof.Gen.Kernel.Frame
import proofs.«149865_j85899345950_2_alg».proof.Proof.Gen.KernelIdeal
import proofs.«149865_j85899345950_2_alg».proof.Proof.Gen.KernelIdeal.Skeleton
import proofs.«149865_j85899345950_2_alg».proof.Proof.Gen.KernelIdeal.Launch
import proofs.«149865_j85899345950_2_alg».proof.Proof.Gen.KernelIdeal.Points
import proofs.«149865_j85899345950_2_alg».proof.Proof.Gen.KernelIdeal.Frame
import proofs.«149865_j85899345950_2_alg».proof.Proof.Gen.ReferenceIdeal
import proofs.«149865_j85899345950_2_alg».proof.Proof.Gen.Pre_finite_inputs
import proofs.«149865_j85899345950_2_alg».proof.Proof.Gen.ReferenceIdeal.Run
import proofs.«149865_j85899345950_2_alg».proof.Proof.Gen.ReferenceIdeal.Read
import proofs.«149865_j85899345950_2_alg».proof.Proof.KRun
import proofs.«149865_j85899345950_2_alg».proof.Proof.KStage3
import proofs.«149865_j85899345950_2_alg».proof.Proof.PreFacts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run, and the kernel's result buffer ends at the
    reference's result: the kernel's final buffer is the reference's last stage of the same arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v111),
    Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, pf⟩ := Cert.Gcn.params_of_pre _ _ _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22, e23, e24⟩ := hagree c
  rw [Cert.ReferenceIdeal.Read.val_main_v134_eq, e0, e1, e2, e3, e5, e6, e7, e8, e9, e10, e11, e12, e13, e14, e15, e16, e17, e18, e19, e20, e21, e22, e23, e24]
  exact (Cert.KernelIdeal.Whole.result_eq m ρ c p0 p1 pf).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
